-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S800000x128 .f32) (main_arg2 : IVec S800000 32) (main_arg3 : IVec S800000 32) (main_arg4 : FVec F S50000x1 .f32) (main_arg5 : FVec F S800000x1 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x1 .f32 := Host.absf main_arg4
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S800000x1 .f32 := Host.absf main_arg5
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S800000x256 : Shape := ⟨2, ![800000, 256]⟩
abbrev S200x1x128 : Shape := ⟨3, ![200, 1, 128]⟩
abbrev S4000x128 : Shape := ⟨2, ![4000, 128]⟩
abbrev S4000x1 : Shape := ⟨2, ![4000, 1]⟩
abbrev S4000x256 : Shape := ⟨2, ![4000, 256]⟩
abbrev S1x1x128 : Shape := ⟨3, ![1, 1, 128]⟩
abbrev S50000x256 : Shape := ⟨2, ![50000, 256]⟩
abbrev S10x1x128 : Shape := ⟨3, ![10, 1, 128]⟩
abbrev S5000x1 : Shape := ⟨2, ![5000, 1]⟩
abbrev S10000x128 : Shape := ⟨2, ![10000, 128]⟩

abbrev nBuf : Space → Nat
  | .hbm => 96
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S50000x1, .f32⟩
  | .hbm, ⟨5, _⟩ => ⟨S800000x1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x256, .f32⟩
  | .hbm, ⟨52, _⟩ => ⟨S800000x128, .f32⟩
  | .hbm, ⟨53, _⟩ => ⟨S200x1x128, .f32⟩
  | .hbm, ⟨54, _⟩ => ⟨S200x1x128, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S10x1x128, .f32⟩
  | .hbm, ⟨63, _⟩ => ⟨S10x1x128, .f32⟩
  | .hbm, ⟨64, _⟩ => ⟨S_, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S50000x128, .f32⟩
  | .hbm, ⟨95, _⟩ => ⟨S800000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S4000x256, .f32⟩
  | .local _ .vmem, ⟨31, _⟩ => ⟨S4000x256, .f32⟩
  | .local _ .vmem, ⟨32, _⟩ => ⟨S4000x128, .f32⟩
  | .local _ .vmem, ⟨33, _⟩ => ⟨S4000x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S128, .f32⟩
  | .local _ .vmem, ⟨59, _⟩ => ⟨S128, .f32⟩
  | .local _ .vmem, ⟨60, _⟩ => ⟨S5000x128, .f32⟩
  | .local _ .vmem, ⟨61, _⟩ => ⟨S5000x128, .f32⟩
  | .local _ .vmem, ⟨62, _⟩ => ⟨S10000x128, .f32⟩
  | .local _ .vmem, ⟨63, _⟩ => ⟨S10000x128, .f32⟩
  | .local _ .vmem, ⟨64, _⟩ => ⟨S10000x128, .f32⟩
  | .local _ .vmem, ⟨65, _⟩ => ⟨S10000x128, .f32⟩
  | .local _ .vmem, ⟨66, _⟩ => ⟨S1x128, .f32⟩
  | .local _ .vmem, ⟨67, _⟩ => ⟨S1x128, .f32⟩
  | .local _ .vmem, ⟨68, _⟩ => ⟨S128, .f32⟩
  | .local _ .vmem, ⟨69, _⟩ => ⟨S128, .f32⟩
  | .local _ .vmem, ⟨70, _⟩ => ⟨S10000x128, .f32⟩
  | .local _ .vmem, ⟨71, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22_0 : Ref sig .tc := ⟨.hbm, 51, rfl⟩
abbrev main_v22_1 : Ref sig .tc := ⟨.hbm, 52, rfl⟩
abbrev main_v22_2 : Ref sig .tc := ⟨.hbm, 53, rfl⟩
abbrev main_v22_3 : Ref sig .tc := ⟨.hbm, 54, rfl⟩
abbrev main_cst : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28_0 : Ref sig .tc := ⟨.hbm, 61, rfl⟩
abbrev main_v28_1 : Ref sig .tc := ⟨.hbm, 62, rfl⟩
abbrev main_v28_2 : Ref sig .tc := ⟨.hbm, 63, rfl⟩
abbrev main_cst_5 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩
abbrev main_v32 : Ref sig .tc := ⟨.hbm, 70, rfl⟩
abbrev main_cst_8 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_9 : Ref sig .tc := ⟨.hbm, 76, rfl⟩
abbrev main_v37 : Ref sig .tc := ⟨.hbm, 77, rfl⟩
abbrev main_v38 : Ref sig .tc := ⟨.hbm, 78, rfl⟩
abbrev main_cst_10 : Ref sig .tc := ⟨.hbm, 79, rfl⟩
abbrev main_v39 : Ref sig .tc := ⟨.hbm, 80, rfl⟩
abbrev main_cst_11 : Ref sig .tc := ⟨.hbm, 81, rfl⟩
abbrev main_v40 : Ref sig .tc := ⟨.hbm, 82, rfl⟩
abbrev main_cst_12 : Ref sig .tc := ⟨.hbm, 83, rfl⟩
abbrev main_v41 : Ref sig .tc := ⟨.hbm, 84, rfl⟩
abbrev main_v42 : Ref sig .tc := ⟨.hbm, 85, rfl⟩
abbrev main_cst_13 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg5_1 : Ref sig .tc := ⟨.vmem, 49, rfl⟩
abbrev cc2_stg6_0 : Ref sig .tc := ⟨.vmem, 50, rfl⟩
abbrev cc2_stg6_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg6_1 : Ref sig .tc := ⟨.vmem, 61, rfl⟩
abbrev cc4_stg0_0 : Ref sig .tc := ⟨.vmem, 62, rfl⟩
abbrev cc4_stg0_1 : Ref sig .tc := ⟨.vmem, 63, rfl⟩
abbrev cc4_stg1_0 : Ref sig .tc := ⟨.vmem, 64, rfl⟩
abbrev cc4_stg1_1 : Ref sig .tc := ⟨.vmem, 65, rfl⟩
abbrev cc4_stg2_0 : Ref sig .tc := ⟨.vmem, 66, rfl⟩
abbrev cc4_stg3_0 : Ref sig .tc := ⟨.vmem, 67, rfl⟩
abbrev cc4_stg4_0 : Ref sig .tc := ⟨.vmem, 68, rfl⟩
abbrev cc4_stg5_0 : Ref sig .tc := ⟨.vmem, 69, rfl⟩
abbrev cc4_stg6_0 : Ref sig .tc := ⟨.vmem, 70, rfl⟩
abbrev cc4_stg6_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem5_1 : DmaSem sig := 49
abbrev cc2_sem6_0 : DmaSem sig := 50
abbrev cc2_sem6_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem6_1 : DmaSem sig := 61
abbrev cc4_sem0_0 : DmaSem sig := 62
abbrev cc4_sem0_1 : DmaSem sig := 63
abbrev cc4_sem1_0 : DmaSem sig := 64
abbrev cc4_sem1_1 : DmaSem sig := 65
abbrev cc4_sem2_0 : DmaSem sig := 66
abbrev cc4_sem3_0 : DmaSem sig := 67
abbrev cc4_sem4_0 : DmaSem sig := 68
abbrev cc4_sem5_0 : DmaSem sig := 69
abbrev cc4_sem6_0 : DmaSem sig := 70
abbrev cc4_sem6_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S4000x128_S4000x128 : S4000x128.ShapeCasts S4000x128
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  inb_S4000x1_S4000x1_0_0 : ∀ a, (![0, 0] : Fin 2 → Nat) a + S4000x1.size a ≤ S4000x1.size a
  h_S4000x1 : 0 < S4000x1.numel
  broadcasts_S4000x1_S4000x128 : S4000x1.Broadcasts S4000x128
  reduces_S4000x128_S128 : S4000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  reduces_S5000x128_S128 : S5000x128.Reduces [0] S128
  reducesTo_S10x1x128_S1x128_d0 : S10x1x128.ReducesTo [0] S1x128
  h_S_ : 0 < S_.numel
  bcast_S_S1x128 : S_.BroadcastsInDim S1x128 (![] : Fin 0 → Fin S1x128.rank)
  reducesTo_S200x1x128_S1x128_d0 : S200x1x128.ReducesTo [0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x128.size a ≤ S50000x128.size a
  hwx0_12 : ∀ i : grid0.Coords, EltTy.bits .f32 = 32 ∨ (Rect.block (s := S50000x128) S5000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .f32 = 32 ∨ (Rect.block (s := S800000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .f32 = 32 ∨ (Rect.block (s := S800000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S800000x1.size a
  hwx1_6 : ∀ i : grid1.Coords, EltTy.bits .f32 = 32 ∨ (Rect.block (s := S800000x1) S4000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x256.size a ≤ S800000x256.size a
  hwx1_7 : ∀ i : grid1.Coords, EltTy.bits .f32 = 32 ∨ (Rect.block (s := S800000x256) S4000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S800000x128.size a
  hwx1_8 : ∀ i : grid1.Coords, EltTy.bits .f32 = 32 ∨ (Rect.block (s := S800000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S200x1x128.size a
  hwx1_9 : ∀ i : grid1.Coords, EltTy.bits .f32 = 32 ∨ (Rect.block (s := S200x1x128) S1x1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S200x1x128.size a
  hwx1_10 : ∀ i : grid1.Coords, EltTy.bits .f32 = 32 ∨ (Rect.block (s := S200x1x128) S1x1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S10x1x128.size a
  hwx2_5 : ∀ i : grid2.Coords, EltTy.bits .f32 = 32 ∨ (Rect.block (s := S10x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S10x1x128.size a
  hwx2_6 : ∀ i : grid2.Coords, EltTy.bits .f32 = 32 ∨ (Rect.block (s := S10x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S800000x128.size a
  hwx4_0 : ∀ i : grid4.Coords, EltTy.bits .f32 = 32 ∨ (Rect.block (s := S800000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S800000x128.size a
  hwx4_1 : ∀ i : grid4.Coords, EltTy.bits .f32 = 32 ∨ (Rect.block (s := S800000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x128.size a ≤ S800000x128.size a
  hwx4_6 : ∀ i : grid4.Coords, EltTy.bits .f32 = 32 ∨ (Rect.block (s := S800000x128) S10000x128.size (cc4_transform_6 i) (hinb4_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S5000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_3) S5000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S4000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S4000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_0) S4000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_1) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22_2) S1x1x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v22_3) S1x1x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v0_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v28_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v22_1) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S10000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S50000x1, .f32⟩
  | 5 => ⟨S800000x1, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S800000x128, .f32⟩
  | 29 => ⟨S1x128, .f32⟩
  | 30 => ⟨S800000x128, .f32⟩
  | 31 => ⟨S800000x128, .f32⟩
  | 32 => ⟨S50000x128, .f32⟩
  | 33 => ⟨S1x128, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S800000x128, .f32⟩
  | 62 => ⟨S_, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S800000x128, .f32⟩
  | 94 => ⟨S800000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S800000x128, .f32⟩
  | 24 => ⟨S800000x128, .f32⟩
  | 25 => ⟨S800000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S800000x128, .f32⟩
  | 41 => ⟨S800000x128, .f32⟩
  | 42 => ⟨S_, .f32⟩
  | 43 => ⟨S128, .f32⟩
  | 44 => ⟨S128, .f32⟩
  | 45 => ⟨S128, .f32⟩
  | 46 => ⟨S1x128, .f32⟩
  | 47 => ⟨S800000x128, .f32⟩
  | 48 => ⟨S800000x128, .f32⟩
  | 49 => ⟨S1x128, .f32⟩
  | 50 => ⟨S800000x128, .f32⟩
  | 51 => ⟨S800000x128, .f32⟩
  | 52 => ⟨S1x128, .f32⟩
  | 53 => ⟨S800000x128, .f32⟩
  | 54 => ⟨S800000x128, .f32⟩
  | 55 => ⟨S_, .f32⟩
  | 56 => ⟨S50000x128, .f32⟩
  | 57 => ⟨S50000x128, .f32⟩
  | 58 => ⟨S_, .f32⟩
  | 59 => ⟨S800000x128, .f32⟩
  | 60 => ⟨S800000x128, .f32⟩
  | 61 => ⟨S50000x128, .f32⟩
  | 62 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_1 : Ref sig .tc := ⟨.hbm, 50, rfl⟩
abbrev main_v28 : Ref sig .tc := ⟨.hbm, 51, rfl⟩
abbrev main_v29 : Ref sig .tc := ⟨.hbm, 52, rfl⟩
abbrev main_c_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_c_4 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_c_11 : Ref sig .tc := ⟨.hbm, 100, rfl⟩
abbrev main_call0_cst : Ref sig .tc := ⟨.hbm, 101, rfl⟩
abbrev main_call0_v0 : Ref sig .tc := ⟨.hbm, 102, rfl⟩
abbrev main_call0_v1 : Ref sig .tc := ⟨.hbm, 103, rfl⟩
abbrev main_call0_cst_0 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_v5 : Ref sig .tc := ⟨.hbm, 108, rfl⟩
abbrev main_call0_v6 : Ref sig .tc := ⟨.hbm, 109, rfl⟩
abbrev main_call0_v7 : Ref sig .tc := ⟨.hbm, 110, rfl⟩
abbrev main_call0_cst_1 : Ref sig .tc := ⟨.hbm, 111, rfl⟩
abbrev main_call0_v8 : Ref sig .tc := ⟨.hbm, 112, rfl⟩
abbrev main_call0_cst_2 : Ref sig .tc := ⟨.hbm, 113, rfl⟩
abbrev main_call0_v9 : Ref sig .tc := ⟨.hbm, 114, rfl⟩
abbrev main_call0_v10 : Ref sig .tc := ⟨.hbm, 115, rfl⟩
abbrev main_call0_v11 : Ref sig .tc := ⟨.hbm, 116, rfl⟩
abbrev main_call0_cst_3 : Ref sig .tc := ⟨.hbm, 117, rfl⟩
abbrev main_call0_v12 : Ref sig .tc := ⟨.hbm, 118, rfl⟩
abbrev main_call0_cst_4 : Ref sig .tc := ⟨.hbm, 119, rfl⟩
abbrev main_call0_call0_v0 : Ref sig .tc := ⟨.hbm, 120, rfl⟩
abbrev main_call0_call0_v1 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_12 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_13 : Ref sig .tc := ⟨.hbm, 139, rfl⟩
abbrev main_v83 : Ref sig .tc := ⟨.hbm, 140, rfl⟩
abbrev main_cst_14 : Ref sig .tc := ⟨.hbm, 141, rfl⟩
abbrev main_v84 : Ref sig .tc := ⟨.hbm, 142, rfl⟩
abbrev main_v85 : Ref sig .tc := ⟨.hbm, 143, rfl⟩
abbrev main_c_15 : Ref sig .tc := ⟨.hbm, 144, rfl⟩
abbrev main_call1_cst : Ref sig .tc := ⟨.hbm, 145, rfl⟩
abbrev main_call1_v0 : Ref sig .tc := ⟨.hbm, 146, rfl⟩
abbrev main_call1_v1 : Ref sig .tc := ⟨.hbm, 147, rfl⟩
abbrev main_call1_cst_0 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_call1_v5 : Ref sig .tc := ⟨.hbm, 152, rfl⟩
abbrev main_call1_v6 : Ref sig .tc := ⟨.hbm, 153, rfl⟩
abbrev main_call1_v7 : Ref sig .tc := ⟨.hbm, 154, rfl⟩
abbrev main_call1_cst_1 : Ref sig .tc := ⟨.hbm, 155, rfl⟩
abbrev main_call1_v8 : Ref sig .tc := ⟨.hbm, 156, rfl⟩
abbrev main_call1_cst_2 : Ref sig .tc := ⟨.hbm, 157, rfl⟩
abbrev main_call1_v9 : Ref sig .tc := ⟨.hbm, 158, rfl⟩
abbrev main_call1_v10 : Ref sig .tc := ⟨.hbm, 159, rfl⟩
abbrev main_call1_v11 : Ref sig .tc := ⟨.hbm, 160, rfl⟩
abbrev main_call1_cst_3 : Ref sig .tc := ⟨.hbm, 161, rfl⟩
abbrev main_call1_v12 : Ref sig .tc := ⟨.hbm, 162, rfl⟩
abbrev main_call1_cst_4 : Ref sig .tc := ⟨.hbm, 163, rfl⟩
abbrev main_call1_call0_v0 : Ref sig .tc := ⟨.hbm, 164, rfl⟩
abbrev main_call1_call0_v1 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_cst_16 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_call2_cst : Ref sig .tc := ⟨.hbm, 183, rfl⟩
abbrev main_call2_v0 : Ref sig .tc := ⟨.hbm, 184, rfl⟩
abbrev main_v102 : Ref sig .tc := ⟨.hbm, 185, rfl⟩
abbrev main_call3_cst : Ref sig .tc := ⟨.hbm, 186, rfl⟩
abbrev main_call3_v0 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S800000x128_S128_d0 : S800000x128.ReducesTo [0] S128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its two results named: every weakly fair execution of @main terminates, nothing
  faulting, each result array ends at the contents the last region boundary gives it, and the arguments end as launched.
  The launch is the one of the frame; only the reading of the final state differs (it also reads the two results).
-/
import proofs.«133196_j81149112091152_2_alg».proof.Proof.KernelIdealFrameP

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments as launched. -/
theorem run_results : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelRun

end
-- ==== Proof.KernelHost.lean ====
/-
  The idealized kernel's host operations between its regions, as functions: the rows of a node array gathered at an
  edge's end (a negative index counting from the end), the aggregation of edge rows into node rows and its two
  halves, and the column mean and variance formed from per-block partial sums. Each lemma reads one buffer after one
  stretch of host operations, from any buffer contents `V` before it.
-/
import proofs.«133196_j81149112091152_2_alg».proof.Proof.KernelIdealLaunchP
import Idealize.ShloMosaic.Lib.StableHlo.Run

set_option maxRecDepth 16384

noncomputable section

namespace Cert.KernelHost

open Cert.KernelIdeal Cert.KernelIdeal.Gen
open Idealize.ShloMosaic Idealize.ShloMosaic.TcCoe Idealize.ShloMosaic.StableHlo Idealize.SL.Sem

variable {F : FTy → Type} [FloatOps F]

/-! ## The functions -/

/-- The column of row numbers an index array selects: a negative entry counts from the end (the extent is added). -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The node rows at the selected row numbers, one per edge. -/
def gatherRows (x : (⟨S50000x128, .f32⟩ : BufTy).Contents (Elt F)) (s : (⟨S800000, .i32⟩ : BufTy).Contents (Elt F)) :
    (⟨S800000x128, .f32⟩ : BufTy).Contents (Elt F) :=
  Host.gather gather_S50000x128_S800000x1_S800000x128_1_0_n_n_0_1_1128 x (wrapIdx s)

/-- The edge rows (256 columns) summed into the node row each edge points at, from zero. -/
def aggregate (u : (⟨S800000x256, .f32⟩ : BufTy).Contents (Elt F)) (dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst) u

/-- Columns 0–127 and columns 128–255 of the aggregate. -/
def aggLo (a : (⟨S50000x256, .f32⟩ : BufTy).Contents (Elt F)) : (⟨S50000x128, .f32⟩ : BufTy).Contents (Elt F) :=
  extractStridedSlice S50000x128 ![0, 0] a slices_S50000x256_S50000x128_0_0
def aggHi (a : (⟨S50000x256, .f32⟩ : BufTy).Contents (Elt F)) : (⟨S50000x128, .f32⟩ : BufTy).Contents (Elt F) :=
  extractStridedSlice S50000x128 ![0, 128] a slices_S50000x256_S50000x128_0_128

/-- The sum of the 10 (node side) or 200 (edge side) per-block partial sums of a column, over the row count. -/
def meanOfPartsN (p : (⟨S10x1x128, .f32⟩ : BufTy).Contents (Elt F)) : (⟨S1x128, .f32⟩ : BufTy).Contents (Elt F) :=
  Host.divf (Host.reduceAdd p (constant S_ .f32 0x00000000#32) reducesTo_S10x1x128_S1x128_d0 h_S_)
    (broadcastInDim S1x128 ![] bcast_S_S1x128 (constant S_ .f32 0x47435000#32))
def meanOfPartsE (p : (⟨S200x1x128, .f32⟩ : BufTy).Contents (Elt F)) : (⟨S1x128, .f32⟩ : BufTy).Contents (Elt F) :=
  Host.divf (Host.reduceAdd p (constant S_ .f32 0x00000000#32) reducesTo_S200x1x128_S1x128_d0 h_S_)
    (broadcastInDim S1x128 ![] bcast_S_S1x128 (constant S_ .f32 0x49435000#32))

/-- The variance as the mean of squares minus the squared mean, kept non-negative. -/
def varOfMeans (μ q : (⟨S1x128, .f32⟩ : BufTy).Contents (Elt F)) : (⟨S1x128, .f32⟩ : BufTy).Contents (Elt F) :=
  maximumf (subf q (mulf μ μ)) (broadcastInDim S1x128 ![] bcast_S_S1x128 (constant S_ .f32 0x00000000#32))

/-! ## The first stretch: the three gathers -/

variable (V : Valuation τ sig (Elt F))

theorem gatherD : after hostOps1 V (Proc.devRef .tc main_v7) = gatherRows (V (Proc.devRef .tc main_v0_2)) (V (Proc.devRef .tc main_arg2)) := by
  after_results_simp
  all_goals rfl
theorem gatherE : after hostOps1 V (Proc.devRef .tc main_v14) = gatherRows (V (Proc.devRef .tc main_v0_3)) (V (Proc.devRef .tc main_arg3)) := by
  after_results_simp
  all_goals rfl
theorem gatherB : after hostOps1 V (Proc.devRef .tc main_v21) = gatherRows (V (Proc.devRef .tc main_v0_1)) (V (Proc.devRef .tc main_arg2)) := by
  after_results_simp
  all_goals rfl

/-! ## The second stretch: the aggregation and its halves -/

theorem numer : after hostOps2 V (Proc.devRef .tc main_v26) = aggLo (aggregate (V (Proc.devRef .tc main_v22_0)) (V (Proc.devRef .tc main_arg3))) := by
  after_results_simp
  all_goals rfl
theorem denom : after hostOps2 V (Proc.devRef .tc main_v27) = aggHi (aggregate (V (Proc.devRef .tc main_v22_0)) (V (Proc.devRef .tc main_arg3))) := by
  after_results_simp
  all_goals rfl

/-! ## The third stretch: the column statistics -/

theorem meanN : after hostOps3 V (Proc.devRef .tc main_v32) = meanOfPartsN (V (Proc.devRef .tc main_v28_1)) := by
  after_results_simp
  all_goals rfl
theorem varN : after hostOps3 V (Proc.devRef .tc main_v38) = varOfMeans (meanOfPartsN (V (Proc.devRef .tc main_v28_1))) (meanOfPartsN (V (Proc.devRef .tc main_v28_2))) := by
  after_results_simp
  all_goals rfl
theorem meanE : after hostOps3 V (Proc.devRef .tc main_v42) = meanOfPartsE (V (Proc.devRef .tc main_v22_2)) := by
  after_results_simp
  all_goals rfl
theorem varE : after hostOps3 V (Proc.devRef .tc main_v48) = varOfMeans (meanOfPartsE (V (Proc.devRef .tc main_v22_2))) (meanOfPartsE (V (Proc.devRef .tc main_v22_3))) := by
  after_results_simp
  all_goals rfl

end Cert.KernelHost

end
-- ==== Proof.KernelChain.lean ====
/-
  Buffers carried across the boundaries of the idealized kernel's @main: what a region's exit or a stretch of host
  operations leaves in a buffer it does not write is what was there before; a region's input array is left as entered.
  Every fact here walks one buffer back from the boundary where a region or a host operation reads it to where it
  was produced (a region's output, or the launch memory for an argument).
-/
import proofs.«133196_j81149112091152_2_alg».proof.Proof.KernelIdealFrameP
import proofs.«133196_j81149112091152_2_alg».proof.Proof.KernelHost

set_option maxRecDepth 16384

noncomputable section

namespace Cert.KernelChain

open Cert.KernelIdeal Cert.KernelIdeal.Gen Cert.KernelHost
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg) (c : Dev nD)

/-- A stretch of host operations leaves a buffer none of them writes. -/
macro "kept_by_host" : tactic => `(tactic| (show StableHlo.after _ _ _ = _; after_results_simp))

/-! ## After region 0 -/

theorem W1_arg1 : W1 m ρ c (Proc.devRef .tc main_arg1) = m ((c : Thread nD τ).loc main_arg1) := W1_of_ne m ρ c main_arg1 (by decide)
theorem W1_arg2 : W1 m ρ c (Proc.devRef .tc main_arg2) = m ((c : Thread nD τ).loc main_arg2) := W1_of_ne m ρ c main_arg2 (by decide)
theorem W1_arg3 : W1 m ρ c (Proc.devRef .tc main_arg3) = m ((c : Thread nD τ).loc main_arg3) := W1_of_ne m ρ c main_arg3 (by decide)
theorem W1_arg4 : W1 m ρ c (Proc.devRef .tc main_arg4) = m ((c : Thread nD τ).loc main_arg4) := W1_of_ne m ρ c main_arg4 (by decide)
theorem W1_arg5 : W1 m ρ c (Proc.devRef .tc main_arg5) = m ((c : Thread nD τ).loc main_arg5) := W1_of_ne m ρ c main_arg5 (by decide)
theorem W1_arg10 : W1 m ρ c (Proc.devRef .tc main_arg10) = m ((c : Thread nD τ).loc main_arg10) := W1_of_ne m ρ c main_arg10 (by decide)
theorem W1_arg11 : W1 m ρ c (Proc.devRef .tc main_arg11) = m ((c : Thread nD τ).loc main_arg11) := W1_of_ne m ρ c main_arg11 (by decide)
theorem W1_arg16 : W1 m ρ c (Proc.devRef .tc main_arg16) = m ((c : Thread nD τ).loc main_arg16) := W1_of_ne m ρ c main_arg16 (by decide)
theorem W1_arg17 : W1 m ρ c (Proc.devRef .tc main_arg17) = m ((c : Thread nD τ).loc main_arg17) := W1_of_ne m ρ c main_arg17 (by decide)
theorem W1_arg18 : W1 m ρ c (Proc.devRef .tc main_arg18) = m ((c : Thread nD τ).loc main_arg18) := W1_of_ne m ρ c main_arg18 (by decide)
theorem W1_arg19 : W1 m ρ c (Proc.devRef .tc main_arg19) = m ((c : Thread nD τ).loc main_arg19) := W1_of_ne m ρ c main_arg19 (by decide)
/-- The node features are region 0's first input array: left as entered. -/
theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))

/-! ## After the first stretch of host operations (region 1's entry) -/

theorem W2_arg0 : W2 m ρ c (Proc.devRef .tc main_arg0) = m ((c : Thread nD τ).loc main_arg0) := (by kept_by_host : W2 m ρ c (Proc.devRef .tc main_arg0) = W1 m ρ c (Proc.devRef .tc main_arg0)).trans (W1_arg0 m ρ c)
theorem W2_arg1 : W2 m ρ c (Proc.devRef .tc main_arg1) = m ((c : Thread nD τ).loc main_arg1) := (by kept_by_host : W2 m ρ c (Proc.devRef .tc main_arg1) = W1 m ρ c (Proc.devRef .tc main_arg1)).trans (W1_arg1 m ρ c)
theorem W2_arg3 : W2 m ρ c (Proc.devRef .tc main_arg3) = m ((c : Thread nD τ).loc main_arg3) := (by kept_by_host : W2 m ρ c (Proc.devRef .tc main_arg3) = W1 m ρ c (Proc.devRef .tc main_arg3)).trans (W1_arg3 m ρ c)
theorem W2_arg4 : W2 m ρ c (Proc.devRef .tc main_arg4) = m ((c : Thread nD τ).loc main_arg4) := (by kept_by_host : W2 m ρ c (Proc.devRef .tc main_arg4) = W1 m ρ c (Proc.devRef .tc main_arg4)).trans (W1_arg4 m ρ c)
theorem W2_arg5 : W2 m ρ c (Proc.devRef .tc main_arg5) = m ((c : Thread nD τ).loc main_arg5) := (by kept_by_host : W2 m ρ c (Proc.devRef .tc main_arg5) = W1 m ρ c (Proc.devRef .tc main_arg5)).trans (W1_arg5 m ρ c)
theorem W2_arg10 : W2 m ρ c (Proc.devRef .tc main_arg10) = m ((c : Thread nD τ).loc main_arg10) := (by kept_by_host : W2 m ρ c (Proc.devRef .tc main_arg10) = W1 m ρ c (Proc.devRef .tc main_arg10)).trans (W1_arg10 m ρ c)
theorem W2_arg11 : W2 m ρ c (Proc.devRef .tc main_arg11) = m ((c : Thread nD τ).loc main_arg11) := (by kept_by_host : W2 m ρ c (Proc.devRef .tc main_arg11) = W1 m ρ c (Proc.devRef .tc main_arg11)).trans (W1_arg11 m ρ c)
theorem W2_v0_0 : W2 m ρ c (Proc.devRef .tc main_v0_0) = W1 m ρ c (Proc.devRef .tc main_v0_0) := by kept_by_host

/-! ## After region 1 -/

theorem W3_arg0 : W3 m ρ c (Proc.devRef .tc main_arg0) = m ((c : Thread nD τ).loc main_arg0) := (W3_of_ne m ρ c main_arg0 (by decide)).trans (W2_arg0 m ρ c)
theorem W3_arg3 : W3 m ρ c (Proc.devRef .tc main_arg3) = m ((c : Thread nD τ).loc main_arg3) := (W3_of_ne m ρ c main_arg3 (by decide)).trans (W2_arg3 m ρ c)
theorem W3_arg4 : W3 m ρ c (Proc.devRef .tc main_arg4) = m ((c : Thread nD τ).loc main_arg4) := (W3_of_ne m ρ c main_arg4 (by decide)).trans (W2_arg4 m ρ c)
/-- The edge features are region 1's first input array: left as entered. -/
theorem W3_arg1 : W3 m ρ c (Proc.devRef .tc main_arg1) = m ((c : Thread nD τ).loc main_arg1) :=
  (W3_arr m ρ c 0).trans (((dat1 (V2 m ρ) c).arrAt_in 0 rfl _).trans ((A_eq1 (V2 m ρ) c 0).trans (W2_arg1 m ρ c)))
theorem W3_v0_0 : W3 m ρ c (Proc.devRef .tc main_v0_0) = W1 m ρ c (Proc.devRef .tc main_v0_0) := (W3_of_ne m ρ c main_v0_0 (by decide)).trans (W2_v0_0 m ρ c)

/-! ## After the second stretch of host operations (region 2's entry) -/

theorem W4_arg0 : W4 m ρ c (Proc.devRef .tc main_arg0) = m ((c : Thread nD τ).loc main_arg0) := (by kept_by_host : W4 m ρ c (Proc.devRef .tc main_arg0) = W3 m ρ c (Proc.devRef .tc main_arg0)).trans (W3_arg0 m ρ c)
theorem W4_arg1 : W4 m ρ c (Proc.devRef .tc main_arg1) = m ((c : Thread nD τ).loc main_arg1) := (by kept_by_host : W4 m ρ c (Proc.devRef .tc main_arg1) = W3 m ρ c (Proc.devRef .tc main_arg1)).trans (W3_arg1 m ρ c)
theorem W4_arg4 : W4 m ρ c (Proc.devRef .tc main_arg4) = m ((c : Thread nD τ).loc main_arg4) := (by kept_by_host : W4 m ρ c (Proc.devRef .tc main_arg4) = W3 m ρ c (Proc.devRef .tc main_arg4)).trans (W3_arg4 m ρ c)
theorem W4_v0_0 : W4 m ρ c (Proc.devRef .tc main_v0_0) = W1 m ρ c (Proc.devRef .tc main_v0_0) := (by kept_by_host : W4 m ρ c (Proc.devRef .tc main_v0_0) = W3 m ρ c (Proc.devRef .tc main_v0_0)).trans (W3_v0_0 m ρ c)
theorem W4_v22_1 : W4 m ρ c (Proc.devRef .tc main_v22_1) = W3 m ρ c (Proc.devRef .tc main_v22_1) := by kept_by_host
theorem W4_v22_2 : W4 m ρ c (Proc.devRef .tc main_v22_2) = W3 m ρ c (Proc.devRef .tc main_v22_2) := by kept_by_host
theorem W4_v22_3 : W4 m ρ c (Proc.devRef .tc main_v22_3) = W3 m ρ c (Proc.devRef .tc main_v22_3) := by kept_by_host

/-! ## After region 2 -/

theorem W5_arg0 : W5 m ρ c (Proc.devRef .tc main_arg0) = m ((c : Thread nD τ).loc main_arg0) := (W5_of_ne m ρ c main_arg0 (by decide)).trans (W4_arg0 m ρ c)
theorem W5_arg1 : W5 m ρ c (Proc.devRef .tc main_arg1) = m ((c : Thread nD τ).loc main_arg1) := (W5_of_ne m ρ c main_arg1 (by decide)).trans (W4_arg1 m ρ c)
theorem W5_v22_1 : W5 m ρ c (Proc.devRef .tc main_v22_1) = W3 m ρ c (Proc.devRef .tc main_v22_1) := (W5_of_ne m ρ c main_v22_1 (by decide)).trans (W4_v22_1 m ρ c)
theorem W5_v22_2 : W5 m ρ c (Proc.devRef .tc main_v22_2) = W3 m ρ c (Proc.devRef .tc main_v22_2) := (W5_of_ne m ρ c main_v22_2 (by decide)).trans (W4_v22_2 m ρ c)
theorem W5_v22_3 : W5 m ρ c (Proc.devRef .tc main_v22_3) = W3 m ρ c (Proc.devRef .tc main_v22_3) := (W5_of_ne m ρ c main_v22_3 (by decide)).trans (W4_v22_3 m ρ c)

/-! ## The scale and shift vectors of the two normalisations: written by nothing, all the way -/

theorem W5_arg16 : W5 m ρ c (Proc.devRef .tc main_arg16) = m ((c : Thread nD τ).loc main_arg16) :=
  (W5_of_ne m ρ c main_arg16 (by decide)).trans ((by kept_by_host : W4 m ρ c (Proc.devRef .tc main_arg16) = W3 m ρ c (Proc.devRef .tc main_arg16)).trans
    ((W3_of_ne m ρ c main_arg16 (by decide)).trans ((by kept_by_host : W2 m ρ c (Proc.devRef .tc main_arg16) = W1 m ρ c (Proc.devRef .tc main_arg16)).trans (W1_arg16 m ρ c))))
theorem W5_arg17 : W5 m ρ c (Proc.devRef .tc main_arg17) = m ((c : Thread nD τ).loc main_arg17) :=
  (W5_of_ne m ρ c main_arg17 (by decide)).trans ((by kept_by_host : W4 m ρ c (Proc.devRef .tc main_arg17) = W3 m ρ c (Proc.devRef .tc main_arg17)).trans
    ((W3_of_ne m ρ c main_arg17 (by decide)).trans ((by kept_by_host : W2 m ρ c (Proc.devRef .tc main_arg17) = W1 m ρ c (Proc.devRef .tc main_arg17)).trans (W1_arg17 m ρ c))))
theorem W5_arg18 : W5 m ρ c (Proc.devRef .tc main_arg18) = m ((c : Thread nD τ).loc main_arg18) :=
  (W5_of_ne m ρ c main_arg18 (by decide)).trans ((by kept_by_host : W4 m ρ c (Proc.devRef .tc main_arg18) = W3 m ρ c (Proc.devRef .tc main_arg18)).trans
    ((W3_of_ne m ρ c main_arg18 (by decide)).trans ((by kept_by_host : W2 m ρ c (Proc.devRef .tc main_arg18) = W1 m ρ c (Proc.devRef .tc main_arg18)).trans (W1_arg18 m ρ c))))
theorem W5_arg19 : W5 m ρ c (Proc.devRef .tc main_arg19) = m ((c : Thread nD τ).loc main_arg19) :=
  (W5_of_ne m ρ c main_arg19 (by decide)).trans ((by kept_by_host : W4 m ρ c (Proc.devRef .tc main_arg19) = W3 m ρ c (Proc.devRef .tc main_arg19)).trans
    ((W3_of_ne m ρ c main_arg19 (by decide)).trans ((by kept_by_host : W2 m ρ c (Proc.devRef .tc main_arg19) = W1 m ρ c (Proc.devRef .tc main_arg19)).trans (W1_arg19 m ρ c))))

/-! ## After the third stretch of host operations (region 3's entry) -/

theorem W6_arg0 : W6 m ρ c (Proc.devRef .tc main_arg0) = m ((c : Thread nD τ).loc main_arg0) := (by kept_by_host : W6 m ρ c (Proc.devRef .tc main_arg0) = W5 m ρ c (Proc.devRef .tc main_arg0)).trans (W5_arg0 m ρ c)
theorem W6_arg1 : W6 m ρ c (Proc.devRef .tc main_arg1) = m ((c : Thread nD τ).loc main_arg1) := (by kept_by_host : W6 m ρ c (Proc.devRef .tc main_arg1) = W5 m ρ c (Proc.devRef .tc main_arg1)).trans (W5_arg1 m ρ c)
theorem W6_arg16 : W6 m ρ c (Proc.devRef .tc main_arg16) = m ((c : Thread nD τ).loc main_arg16) := (by kept_by_host : W6 m ρ c (Proc.devRef .tc main_arg16) = W5 m ρ c (Proc.devRef .tc main_arg16)).trans (W5_arg16 m ρ c)
theorem W6_arg17 : W6 m ρ c (Proc.devRef .tc main_arg17) = m ((c : Thread nD τ).loc main_arg17) := (by kept_by_host : W6 m ρ c (Proc.devRef .tc main_arg17) = W5 m ρ c (Proc.devRef .tc main_arg17)).trans (W5_arg17 m ρ c)
theorem W6_arg18 : W6 m ρ c (Proc.devRef .tc main_arg18) = m ((c : Thread nD τ).loc main_arg18) := (by kept_by_host : W6 m ρ c (Proc.devRef .tc main_arg18) = W5 m ρ c (Proc.devRef .tc main_arg18)).trans (W5_arg18 m ρ c)
theorem W6_arg19 : W6 m ρ c (Proc.devRef .tc main_arg19) = m ((c : Thread nD τ).loc main_arg19) := (by kept_by_host : W6 m ρ c (Proc.devRef .tc main_arg19) = W5 m ρ c (Proc.devRef .tc main_arg19)).trans (W5_arg19 m ρ c)
theorem W6_v28_0 : W6 m ρ c (Proc.devRef .tc main_v28_0) = W5 m ρ c (Proc.devRef .tc main_v28_0) := by kept_by_host
theorem W6_v22_1 : W6 m ρ c (Proc.devRef .tc main_v22_1) = W3 m ρ c (Proc.devRef .tc main_v22_1) := (by kept_by_host : W6 m ρ c (Proc.devRef .tc main_v22_1) = W5 m ρ c (Proc.devRef .tc main_v22_1)).trans (W5_v22_1 m ρ c)

/-! ## After region 3 (region 4's entry) -/

theorem W7_arg1 : W7 m ρ c (Proc.devRef .tc main_arg1) = m ((c : Thread nD τ).loc main_arg1) := (W7_of_ne m ρ c main_arg1 (by decide)).trans (W6_arg1 m ρ c)
theorem W7_arg18 : W7 m ρ c (Proc.devRef .tc main_arg18) = m ((c : Thread nD τ).loc main_arg18) := (W7_of_ne m ρ c main_arg18 (by decide)).trans (W6_arg18 m ρ c)
theorem W7_arg19 : W7 m ρ c (Proc.devRef .tc main_arg19) = m ((c : Thread nD τ).loc main_arg19) := (W7_of_ne m ρ c main_arg19 (by decide)).trans (W6_arg19 m ρ c)
theorem W7_v22_1 : W7 m ρ c (Proc.devRef .tc main_v22_1) = W3 m ρ c (Proc.devRef .tc main_v22_1) := (W7_of_ne m ρ c main_v22_1 (by decide)).trans (W6_v22_1 m ρ c)
theorem W7_v42 : W7 m ρ c (Proc.devRef .tc main_v42) = W6 m ρ c (Proc.devRef .tc main_v42) := W7_of_ne m ρ c main_v42 (by decide)
theorem W7_v48 : W7 m ρ c (Proc.devRef .tc main_v48) = W6 m ρ c (Proc.devRef .tc main_v48) := W7_of_ne m ρ c main_v48 (by decide)

/-! ## After region 4 -/

theorem W8_v49 : W8 m ρ c (Proc.devRef .tc main_v49) = W7 m ρ c (Proc.devRef .tc main_v49) := W8_of_ne m ρ c main_v49 (by decide)

end Cert.KernelChain

end
-- ==== Proof.Spec.lean ====
/-
  The layer as mathematics, index by index, on the extended reals: one gated graph-convolution step with
  degree-normalised aggregation, graph-size scaling, batch normalisation over rows, a rectifier and a residual.
  Every function below is a whole-array function of whole arrays over literal shapes; nothing here mentions a
  program. Rows are nodes (50000) or edges (800000); columns are the 128 features.
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev Nodes : Shape := ⟨2, ![50000, 128]⟩
abbrev Edges : Shape := ⟨2, ![800000, 128]⟩
abbrev Weights : Shape := ⟨2, ![128, 128]⟩
abbrev Feat : Shape := ⟨1, ![128]⟩
abbrev EdgesPair : Shape := ⟨2, ![800000, 256]⟩
abbrev NodesPair : Shape := ⟨2, ![50000, 256]⟩
abbrev NodeCol : Shape := ⟨2, ![50000, 1]⟩
abbrev EdgeCol : Shape := ⟨2, ![800000, 1]⟩
abbrev Row : Shape := ⟨2, ![1, 128]⟩
abbrev NodeParts : Shape := ⟨3, ![10, 1, 128]⟩
abbrev EdgeParts : Shape := ⟨3, ![200, 1, 128]⟩

/-! ## Coordinates of an index, as numbers below the literal extents -/

abbrev nrow (i : Nodes.Idx) : Fin 50000 := ⟨(i 0).val, idx2_lt0 i⟩
abbrev ncol (i : Nodes.Idx) : Fin 128 := ⟨(i 1).val, idx2_lt1 i⟩
abbrev erow (i : Edges.Idx) : Fin 800000 := ⟨(i 0).val, idx2_lt0 i⟩
abbrev ecol (i : Edges.Idx) : Fin 128 := ⟨(i 1).val, idx2_lt1 i⟩

/-- The small positive constants the two normalisations add (the binary values of the decimals 1e-6 and 1e-5), and
    the constants one and zero, as the float words they are printed as. -/
abbrev epsGate : EReal := Ideal.ofBits .f32 0x358637BD#32
abbrev epsNorm : EReal := Ideal.ofBits .f32 0x3727C5AC#32
abbrev zeroF : EReal := Ideal.ofBits .f32 0x00000000#32

/-! ## The affine maps of rows: `x · W + b` -/

/-- Entry `(r, c)` of `x · W + b` for node rows: the sum over the 128 input features, plus the bias of column `c`. -/
def affineN (x : Nodes.Idx → EReal) (W : Weights.Idx → EReal) (b : Feat.Idx → EReal) : Nodes.Idx → EReal :=
  fun i => (∑ k : Fin 128, x (ix2 (nrow i) k) * W (ix2 k (ncol i))) + b (ix1 (ncol i))

/-- The same for edge rows. -/
def affineE (x : Edges.Idx → EReal) (W : Weights.Idx → EReal) (b : Feat.Idx → EReal) : Edges.Idx → EReal :=
  fun i => (∑ k : Fin 128, x (ix2 (erow i) k) * W (ix2 k (ecol i))) + b (ix1 (ecol i))

/-! ## The edge path -/

/-- The gate logits of an edge: its own projection plus the source node's and the target node's. -/
def logits (ce ds ed : Edges.Idx → EReal) : Edges.Idx → EReal := fun i => (ce i + ds i) + ed i

/-- The gate: the logistic function of the logits. -/
def gate (z : Edges.Idx → EReal) : Edges.Idx → EReal := fun i => Ideal.logistic (z i)

/-- The gated message beside the gate, 256 columns wide: columns 0–127 are `gate · bs`, columns 128–255 the gate. -/
def paired (z bs : Edges.Idx → EReal) : EdgesPair.Idx → EReal := fun i =>
  if h : (i 1).val < 128 then
    Ideal.logistic (z (ix2 (⟨(i 0).val, idx2_lt0 i⟩ : Fin 800000) (⟨(i 1).val, h⟩ : Fin 128)))
      * bs (ix2 (⟨(i 0).val, idx2_lt0 i⟩ : Fin 800000) (⟨(i 1).val, h⟩ : Fin 128))
  else
    Ideal.logistic (z (ix2 (⟨(i 0).val, idx2_lt0 i⟩ : Fin 800000)
      (⟨(i 1).val - 128, by have := idx2_lt1 i; omega⟩ : Fin 128)))

/-- A row-wise scaling of edge rows by a column of factors. -/
def scaleE (y : Edges.Idx → EReal) (s : EdgeCol.Idx → EReal) : Edges.Idx → EReal :=
  fun i => y i * s (ix2 (erow i) (0 : Fin 1))

/-- Column sums of edge rows taken 4000 rows at a time: part `p` sums rows `4000 p … 4000 p + 3999`. -/
def partSumsE (y : Edges.Idx → EReal) : EdgeParts.Idx → EReal := fun j =>
  ∑ r : Fin 4000, y (ix2 (⟨(j 0).val * 4000 + r.val, by have := (j 0).isLt; have := r.isLt; change (j 0).val < 200 at *; omega⟩ : Fin 800000)
    (⟨(j 2).val, (j 2).isLt⟩ : Fin 128))

/-! ## The node path -/

/-- Own projection plus the normalised aggregate, scaled row-wise: `(a + num / (den + ε)) · s`. -/
def premix (a num den : Nodes.Idx → EReal) (s : NodeCol.Idx → EReal) : Nodes.Idx → EReal :=
  fun i => (a i + Ideal.div (num i) (den i + epsGate)) * s (ix2 (nrow i) (0 : Fin 1))

/-- Column sums of node rows taken 5000 rows at a time. -/
def partSumsN (y : Nodes.Idx → EReal) : NodeParts.Idx → EReal := fun j =>
  ∑ r : Fin 5000, y (ix2 (⟨(j 0).val * 5000 + r.val, by have := (j 0).isLt; have := r.isLt; change (j 0).val < 10 at *; omega⟩ : Fin 50000)
    (⟨(j 2).val, (j 2).isLt⟩ : Fin 128))

/-- The entrywise square. -/
def sqN (y : Nodes.Idx → EReal) : Nodes.Idx → EReal := fun i => y i * y i
def sqE (y : Edges.Idx → EReal) : Edges.Idx → EReal := fun i => y i * y i

/-! ## Normalisation, rectifier, residual -/

/-- `xin + max(((mid − mean) · rsqrt(var + ε)) · γ + β, 0)`, the mean and variance one number per column. -/
def finishN (mid xin : Nodes.Idx → EReal) (mean var : Row.Idx → EReal) (γ β : Feat.Idx → EReal) : Nodes.Idx → EReal :=
  fun i => xin i + max ((((mid i - mean (ix2 (0 : Fin 1) (ncol i))) * Ideal.rsqrt (var (ix2 (0 : Fin 1) (ncol i)) + epsNorm))
    * γ (ix1 (ncol i))) + β (ix1 (ncol i))) zeroF

def finishE (mid xin : Edges.Idx → EReal) (mean var : Row.Idx → EReal) (γ β : Feat.Idx → EReal) : Edges.Idx → EReal :=
  fun i => xin i + max ((((mid i - mean (ix2 (0 : Fin 1) (ecol i))) * Ideal.rsqrt (var (ix2 (0 : Fin 1) (ecol i)) + epsNorm))
    * γ (ix1 (ecol i))) + β (ix1 (ecol i))) zeroF

end Cert.Spec

end
-- ==== Proof.KernelDefs.lean ====
/-
  What the idealized kernel computes, named: the four node projections, the three gathers, the gate logits and the
  scaled logits, the aggregation of the gated pair and its two halves, the node pre-mix, the column statistics formed
  from per-block partial sums, and the two normalised, rectified residual results — each a function of the launch memory.
-/
import proofs.«133196_j81149112091152_2_alg».proof.Proof.KernelHost
import proofs.«133196_j81149112091152_2_alg».proof.Proof.Spec

noncomputable section

namespace Cert.KernelValue

open Cert.KernelIdeal Cert.KernelIdeal.Gen Cert.KernelHost
open Idealize.ShloMosaic Idealize.ShloMosaic.TcCoe Idealize.SL.Sem

variable (m : (ℓ : Loc nD τ sig) → Buf (Elt Ideal) ℓ) (c : Dev nD)

/-! ## The composition, from the launch memory -/

/-- The four projections of the node features. -/
def nodeA : Spec.Nodes.Idx → EReal := Spec.affineN (m ((c : Thread nD τ).loc main_arg0)) (m ((c : Thread nD τ).loc main_arg6)) (m ((c : Thread nD τ).loc main_arg7))
def nodeB : Spec.Nodes.Idx → EReal := Spec.affineN (m ((c : Thread nD τ).loc main_arg0)) (m ((c : Thread nD τ).loc main_arg8)) (m ((c : Thread nD τ).loc main_arg9))
def nodeD : Spec.Nodes.Idx → EReal := Spec.affineN (m ((c : Thread nD τ).loc main_arg0)) (m ((c : Thread nD τ).loc main_arg12)) (m ((c : Thread nD τ).loc main_arg13))
def nodeE : Spec.Nodes.Idx → EReal := Spec.affineN (m ((c : Thread nD τ).loc main_arg0)) (m ((c : Thread nD τ).loc main_arg14)) (m ((c : Thread nD τ).loc main_arg15))

/-- The projections at each edge's source and target. -/
def srcD : Spec.Edges.Idx → EReal := gatherRows (F := Ideal) (nodeD m c) (m ((c : Thread nD τ).loc main_arg2))
def dstE : Spec.Edges.Idx → EReal := gatherRows (F := Ideal) (nodeE m c) (m ((c : Thread nD τ).loc main_arg3))
def srcB : Spec.Edges.Idx → EReal := gatherRows (F := Ideal) (nodeB m c) (m ((c : Thread nD τ).loc main_arg2))

/-- The gate logits of every edge, and the logits scaled by the edge factors. -/
def z : Spec.Edges.Idx → EReal :=
  Spec.logits (Spec.affineE (m ((c : Thread nD τ).loc main_arg1)) (m ((c : Thread nD τ).loc main_arg10)) (m ((c : Thread nD τ).loc main_arg11))) (srcD m c) (dstE m c)
def edgeMid : Spec.Edges.Idx → EReal := Spec.scaleE (z m c) (m ((c : Thread nD τ).loc main_arg5))

/-- The two halves of the aggregation of the gated pair into the target nodes. -/
def agg : Spec.NodesPair.Idx → EReal := aggregate (F := Ideal) (Spec.paired (z m c) (srcB m c)) (m ((c : Thread nD τ).loc main_arg3))
def num : Spec.Nodes.Idx → EReal := aggLo (F := Ideal) (agg m c)
def den : Spec.Nodes.Idx → EReal := aggHi (F := Ideal) (agg m c)

/-- The node pre-mix. -/
def nodeMid : Spec.Nodes.Idx → EReal := Spec.premix (nodeA m c) (num m c) (den m c) (m ((c : Thread nD τ).loc main_arg4))

/-- The column statistics of the two mid arrays, from their per-block partial sums. -/
def meanN : Spec.Row.Idx → EReal := meanOfPartsN (F := Ideal) (Spec.partSumsN (nodeMid m c))
def varN : Spec.Row.Idx → EReal := varOfMeans (F := Ideal) (meanN m c) (meanOfPartsN (F := Ideal) (Spec.partSumsN (Spec.sqN (nodeMid m c))))
def meanE : Spec.Row.Idx → EReal := meanOfPartsE (F := Ideal) (Spec.partSumsE (edgeMid m c))
def varE : Spec.Row.Idx → EReal := varOfMeans (F := Ideal) (meanE m c) (meanOfPartsE (F := Ideal) (Spec.partSumsE (Spec.sqE (edgeMid m c))))

/-- The two results. -/
def outN : Spec.Nodes.Idx → EReal :=
  Spec.finishN (nodeMid m c) (m ((c : Thread nD τ).loc main_arg0)) (meanN m c) (varN m c) (m ((c : Thread nD τ).loc main_arg16)) (m ((c : Thread nD τ).loc main_arg17))
def outE : Spec.Edges.Idx → EReal :=
  Spec.finishE (edgeMid m c) (m ((c : Thread nD τ).loc main_arg1)) (meanE m c) (varE m c) (m ((c : Thread nD τ).loc main_arg18)) (m ((c : Thread nD τ).loc main_arg19))

end Cert.KernelValue

end
-- ==== Proof.Region0Pay.lean ====
/-
  The four affine maps' blocks read at a row and a column: each body value is the product of the 5000-row block with the
  128 × 128 weights into a zero accumulator, plus the bias row broadcast over the rows. The format changes before the
  product are the identity on extended reals.
-/
import proofs.«133196_j81149112091152_2_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.Region0

open Cert.KernelIdeal Cert.KernelIdeal.Gen Idealize.ShloMosaic Idealize.ShloMosaic.ValueIdx

/-- The dimension numbers of the four products: rows of the left operand against columns of the right. -/
abbrev D0 : DotDims S5000x128 S128x128 S5000x128 := dot_S5000x128_S128x128_S5000x128_1_0_0_1_n_n

theorem lhs_row (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl

theorem lhs_col (i : S5000x128.Idx) (q : D0.contr.Idx) : (D0.lhsIdx i q 1).val = (q ⟨0, by decide⟩).val :=
  D0.lhsIdx_val_of_single rfl i q

theorem rhs_row (i : S5000x128.Idx) (q : D0.contr.Idx) : (D0.rhsIdx i q 0).val = (q ⟨0, by decide⟩).val :=
  D0.rhsIdx_val_of_single rfl i q

theorem rhs_col (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The product into a zero accumulator, at row `p` and column `q`: the sum over the 128 inner positions. -/
theorem matmul_at (x : FVec Ideal S5000x128 .bf16) (w : FVec Ideal S128x128 .bf16) (p : Fin 5000) (q : Fin 128) :
    matmul D0 none x w (constant (F := Ideal) S5000x128 .f32 0x00000000#32) (ix2 p q) = ∑ k : Fin 128, x (ix2 p k) * w (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs_row _ _
    | ⟨1, _⟩ => exact (lhs_col _ _).trans hk)
  have er : D0.rhsIdx (ix2 p q) ((contrEquiv1 D0 128 rfl rfl).symm k) = ix2 k q := funext fun a => Fin.ext (by
    match a with
    | ⟨0, _⟩ => exact (rhs_row _ _).trans hk
    | ⟨1, _⟩ => exact rhs_col _ _)
  rw [el, er]

/-- The bias, a row broadcast over the 5000 rows, at row `p` and column `q`. -/
theorem bias_at (b : Vec Ideal S128 .f32) (p : Fin 5000) (q : Fin 128) :
    k0_pay7 (F := Ideal) b (ix2 p q) = b (ix1 q) := by
  unfold k0_pay7
  show broadcastTo S5000x128 (shapeCast S1x128 b shapeCasts_S128_S1x128) broadcasts_S1x128_S5000x128 (ix2 p q) = _
  rw [broadcastTo_1b_ab_apply, shapeCast_a_1a_apply]

/-- One affine map's block at row `p`, column `q`: the row of `x` against the column of `W`, plus the bias of column `q`. -/
theorem pay3_at (x : Vec Ideal S5000x128 .f32) (W : Vec Ideal S128x128 .f32) (b : Vec Ideal S128 .f32) (p : Fin 5000) (q : Fin 128) :
    k0_pay3 (F := Ideal) x W b (ix2 p q) = (∑ k : Fin 128, x (ix2 p k) * W (ix2 k q)) + b (ix1 q) := by
  show matmul D0 none (truncf .bf16 x bitsLt_bf16_f32) (truncf .bf16 W bitsLt_bf16_f32) (constant (F := Ideal) S5000x128 .f32 0x00000000#32) (ix2 p q)
      + k0_pay7 (F := Ideal) b (ix2 p q) = _
  rw [matmul_at, bias_at]
  rfl

theorem pay4_at (x : Vec Ideal S5000x128 .f32) (W : Vec Ideal S128x128 .f32) (b : Vec Ideal S128 .f32) (p : Fin 5000) (q : Fin 128) :
    k0_pay4 (F := Ideal) x W b (ix2 p q) = (∑ k : Fin 128, x (ix2 p k) * W (ix2 k q)) + b (ix1 q) := by
  show matmul D0 none (truncf .bf16 x bitsLt_bf16_f32) (truncf .bf16 W bitsLt_bf16_f32) (constant (F := Ideal) S5000x128 .f32 0x00000000#32) (ix2 p q)
      + k0_pay7 (F := Ideal) b (ix2 p q) = _
  rw [matmul_at, bias_at]
  rfl

theorem pay5_at (x : Vec Ideal S5000x128 .f32) (W : Vec Ideal S128x128 .f32) (b : Vec Ideal S128 .f32) (p : Fin 5000) (q : Fin 128) :
    k0_pay5 (F := Ideal) x W b (ix2 p q) = (∑ k : Fin 128, x (ix2 p k) * W (ix2 k q)) + b (ix1 q) := by
  show matmul D0 none (truncf .bf16 x bitsLt_bf16_f32) (truncf .bf16 W bitsLt_bf16_f32) (constant (F := Ideal) S5000x128 .f32 0x00000000#32) (ix2 p q)
      + k0_pay7 (F := Ideal) b (ix2 p q) = _
  rw [matmul_at, bias_at]
  rfl

theorem pay167_at (x : Vec Ideal S5000x128 .f32) (W : Vec Ideal S128x128 .f32) (b : Vec Ideal S128 .f32) (p : Fin 5000) (q : Fin 128) :
    k0_pay1 (F := Ideal) (k0_pay6 x W) (k0_pay7 b) (ix2 p q) = (∑ k : Fin 128, x (ix2 p k) * W (ix2 k q)) + b (ix1 q) := by
  show matmul D0 none (truncf .bf16 x bitsLt_bf16_f32) (truncf .bf16 W bitsLt_bf16_f32) (constant (F := Ideal) S5000x128 .f32 0x00000000#32) (ix2 p q)
      + k0_pay7 (F := Ideal) b (ix2 p q) = _
  rw [matmul_at, bias_at]
  rfl

end Cert.Region0

end
-- ==== Proof.Region0.lean ====
/-
  Region 0: the four affine maps of the node rows. Each of the ten points writes back one block of 5000 rows of each
  output; the block's entry at a row and a column is the row of `x` against the column of the weights plus the bias,
  and the blocks tile the rows, so each output array ends holding `x · W + b` entry by entry.
-/
import proofs.«133196_j81149112091152_2_alg».proof.Proof.KernelIdealFrameP
import proofs.«133196_j81149112091152_2_alg».proof.Proof.Spec
import proofs.«133196_j81149112091152_2_alg».proof.Proof.Region0Pay
import Idealize.ShloMosaic.Lib.Pipeline.Value
import Idealize.ShloMosaic.Lib.ValueIdx

noncomputable section

open scoped BigOperators

namespace Cert.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The printed index maps, decided over the ten points -/

/-- The node rows and the four outputs sit at row block `t`, column block 0. -/
theorem idx_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The four weight matrices are one block each, at every point. -/
theorem idx_weights : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- So are the four biases. -/
theorem idx_biases : ∀ t : Fin cfg0.N,
    win0_5.index t (0 : Fin 1) = 0 ∧ win0_6.index t (0 : Fin 1) = 0
    ∧ win0_7.index t (0 : Fin 1) = 0 ∧ win0_8.index t (0 : Fin 1) = 0 :=
  (by decide +kernel : ∀ t : Fin grid0.N, _)

theorem t_lt (t : Fin cfg0.N) : t.val < 10 := by have := t.isLt; have hN : cfg0.N = 10 := N_0; omega

/-! ## The input blocks as entries of the arrays -/

/-- Block `t` of the node rows holds rows `5000 t … 5000 t + 4999`. -/
theorem rows_at (c : Dev nD) (t : Fin cfg0.N) (p : Fin 5000) (k : Fin 128) :
    (iblk0 V c 0 t : Vec Ideal S5000x128 .f32) (ix2 p k)
      = (V c (Pipeline.arrRef spec0 0) : Spec.Nodes.Idx → EReal) (ix2 (⟨t.val * 5000 + p.val, by have := t_lt t; have := p.isLt; omega⟩ : Fin 50000) k) := by
  obtain ⟨e0, e1, -⟩ := idx_rows t
  unfold iblk0
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block of window 1 is the whole matrix, at every point. -/
theorem w1_at (c : Dev nD) (t : Fin cfg0.N) (k : Fin 128) (q : Fin 128) :
    (iblk0 V c 1 t : Vec Ideal S128x128 .f32) (ix2 k q) = (V c (Pipeline.arrRef spec0 1) : Spec.Weights.Idx → EReal) (ix2 k q) := by
  obtain ⟨e0, e1, -⟩ := idx_weights t
  unfold iblk0
  show V c (Pipeline.arrRef spec0 1) (((cfg0.win 1).blk t).view.emb (ix2 k q)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block of window 5 is the whole vector, at every point. -/
theorem b5_at (c : Dev nD) (t : Fin cfg0.N) (q : Fin 128) :
    (iblk0 V c 5 t : Vec Ideal S128 .f32) (ix1 q) = (V c (Pipeline.arrRef spec0 5) : Spec.Feat.Idx → EReal) (ix1 q) := by
  obtain ⟨e0, -⟩ := idx_biases t
  unfold iblk0
  show V c (Pipeline.arrRef spec0 5) (((cfg0.win 5).blk t).view.emb (ix1 q)) = _
  refine congrArg _ (funext fun a => Fin.ext ?_)
  match a with
  | ⟨0, _⟩ => show win0_5.index t (0 : Fin 1) * 128 + 1 * q.val = q.val; rw [e0]; omega

/-- The weights' block of window 2 is the whole matrix, at every point. -/
theorem w2_at (c : Dev nD) (t : Fin cfg0.N) (k : Fin 128) (q : Fin 128) :
    (iblk0 V c 2 t : Vec Ideal S128x128 .f32) (ix2 k q) = (V c (Pipeline.arrRef spec0 2) : Spec.Weights.Idx → EReal) (ix2 k q) := by
  obtain ⟨-, -, e0, e1, -⟩ := idx_weights t
  unfold iblk0
  show V c (Pipeline.arrRef spec0 2) (((cfg0.win 2).blk t).view.emb (ix2 k q)) = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias block of window 6 is the whole vector, at every point. -/
theorem b6_at (c : Dev nD) (t : Fin cfg0.N) (q : Fin 128) :
    (iblk0 V c 6 t : Vec Ideal S128 .f32) (ix1 q) = (V c (Pipeline.arrRef spec0 6) : Spec.Feat.Idx → EReal) (ix1 q) := by
  obtain ⟨-, e0, -⟩ := idx_biases t
  unfold iblk0
  show V c (Pipeline.arrRef spec0 6) (((cfg0.win 6).blk t).view.emb (ix1 q)) = _
  refine congrArg _ (funext fun a => Fin.ext ?_)
  match a with
  | ⟨0, _⟩ => show win0_6.index t (0 : Fin 1) * 128 + 1 * q.val = q.val; rw [e0]; omega

/-- The weights' block of window 3 is the whole matrix, at every point. -/
theorem w3_at (c : Dev nD) (t : Fin cfg0.N) (k : Fin 128) (q : Fin 128) :
    (iblk0 V c 3 t : Vec Ideal S128x128 .f32) (ix2 k q) = (V c (Pipeline.arrRef spec0 3) : Spec.Weights.Idx → EReal) (ix2 k q) := by
  obtain ⟨-, -, -, -, e0, e1, -⟩ := idx_weights t
  unfold iblk0
  show V c (Pipeline.arrRef spec0 3) (((cfg0.win 3).blk t).view.emb (ix2 k q)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias block of window 7 is the whole vector, at every point. -/
theorem b7_at (c : Dev nD) (t : Fin cfg0.N) (q : Fin 128) :
    (iblk0 V c 7 t : Vec Ideal S128 .f32) (ix1 q) = (V c (Pipeline.arrRef spec0 7) : Spec.Feat.Idx → EReal) (ix1 q) := by
  obtain ⟨-, -, e0, -⟩ := idx_biases t
  unfold iblk0
  show V c (Pipeline.arrRef spec0 7) (((cfg0.win 7).blk t).view.emb (ix1 q)) = _
  refine congrArg _ (funext fun a => Fin.ext ?_)
  match a with
  | ⟨0, _⟩ => show win0_7.index t (0 : Fin 1) * 128 + 1 * q.val = q.val; rw [e0]; omega

/-- The weights' block of window 4 is the whole matrix, at every point. -/
theorem w4_at (c : Dev nD) (t : Fin cfg0.N) (k : Fin 128) (q : Fin 128) :
    (iblk0 V c 4 t : Vec Ideal S128x128 .f32) (ix2 k q) = (V c (Pipeline.arrRef spec0 4) : Spec.Weights.Idx → EReal) (ix2 k q) := by
  obtain ⟨-, -, -, -, -, -, e0, e1⟩ := idx_weights t
  unfold iblk0
  show V c (Pipeline.arrRef spec0 4) (((cfg0.win 4).blk t).view.emb (ix2 k q)) = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias block of window 8 is the whole vector, at every point. -/
theorem b8_at (c : Dev nD) (t : Fin cfg0.N) (q : Fin 128) :
    (iblk0 V c 8 t : Vec Ideal S128 .f32) (ix1 q) = (V c (Pipeline.arrRef spec0 8) : Spec.Feat.Idx → EReal) (ix1 q) := by
  obtain ⟨-, -, -, e0⟩ := idx_biases t
  unfold iblk0
  show V c (Pipeline.arrRef spec0 8) (((cfg0.win 8).blk t).view.emb (ix1 q)) = _
  refine congrArg _ (funext fun a => Fin.ext ?_)
  match a with
  | ⟨0, _⟩ => show win0_8.index t (0 : Fin 1) * 128 + 1 * q.val = q.val; rw [e0]; omega

/-! ## Output window 9 -/

/-- What point `t` writes back to window 9 is block `t` of the affine map of the whole arrays. -/
theorem flushed9 (c : Dev nD) (t : Fin cfg0.N) :
    (dat0 (F := Ideal) V c).flushed 9 t = ((cfg0.win 9).blk t).view.read (Elt Ideal)
      (Spec.affineN (V c (Pipeline.arrRef spec0 0)) (V c (Pipeline.arrRef spec0 1)) (V c (Pipeline.arrRef spec0 5))) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, e0, e1, -⟩ := idx_rows t
  have hemb : (((cfg0.win 9).blk t).view.emb (ix2 p q) : Spec.Nodes.Idx)
      = ix2 (⟨t.val * 5000 + p.val, by have := t_lt t; have := p.isLt; omega⟩ : Fin 50000) q := by
    funext a; apply Fin.ext
    match a with
    | ⟨0, _⟩ => show win0_9.index t (0 : Fin 2) * 5000 + 1 * p.val = t.val * 5000 + p.val; rw [e0]; omega
    | ⟨1, _⟩ => show win0_9.index t (1 : Fin 2) * 128 + 1 * q.val = q.val; rw [e1]; omega
  show k0_pay3 (F := Ideal) (iblk0 V c 0 t) (iblk0 V c 1 t) (iblk0 V c 5 t) (ix2 p q)
      = (Spec.affineN (V c (Pipeline.arrRef spec0 0)) (V c (Pipeline.arrRef spec0 1)) (V c (Pipeline.arrRef spec0 5))) (((cfg0.win 9).blk t).view.emb (ix2 p q))
  refine (pay3_at (iblk0 V c 0 t) (iblk0 V c 1 t) (iblk0 V c 5 t) p q).trans ?_
  refine Eq.trans ?_ (congrArg (Spec.affineN (V c (Pipeline.arrRef spec0 0)) (V c (Pipeline.arrRef spec0 1)) (V c (Pipeline.arrRef spec0 5))) hemb).symm
  exact congrArg₂ (· + ·) (Finset.sum_congr rfl fun k _ => congrArg₂ (· * ·) (rows_at V c t p k) (w1_at V c t k q)) (b5_at V c t q)

/-- An index of the array is in point `t`'s block iff each coordinate is in the block's range on its axis. -/
theorem mem_blk9 (t : Fin cfg0.N) (i : Spec.Nodes.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v0_0).slice (win0_9.rect t)).set ↔ _
  rw [View.set_slice_whole, Rect.mem_set_unit]
  exact Iff.rfl

/-- Every row is in the block of the point `row / 5000`. -/
theorem cover9 (i : Spec.Nodes.Idx) : ∃ t : Fin cfg0.N, (cfg0.win 9).flush t = true ∧ i ∈ ((cfg0.win 9).blk t).view.set := by
  have hi0 : (i 0).val < 50000 := idx2_lt0 i
  have hi1 : (i 1).val < 128 := idx2_lt1 i
  have hN : cfg0.N = 10 := N_0
  refine ⟨⟨(i 0).val / 5000, by omega⟩, flush0_9 _, ?_⟩
  rw [mem_blk9]
  obtain ⟨-, -, e0, e1, -⟩ := idx_rows ⟨(i 0).val / 5000, by omega⟩
  intro a
  match a with
  | ⟨0, _⟩ => show win0_9.index _ (0 : Fin 2) * 5000 ≤ (i 0).val ∧ (i 0).val < win0_9.index _ (0 : Fin 2) * 5000 + 5000; rw [e0]; show (i 0).val / 5000 * 5000 ≤ (i 0).val ∧ (i 0).val < (i 0).val / 5000 * 5000 + 5000; omega
  | ⟨1, _⟩ => show win0_9.index _ (1 : Fin 2) * 128 ≤ (i 1).val ∧ (i 1).val < win0_9.index _ (1 : Fin 2) * 128 + 128; rw [e1]; omega

/-- The array of window 9 after the region: the affine map `x · W + b` of the node rows. -/
theorem out9 (c : Dev nD) : (dat0 (F := Ideal) V c).arrAt 9 cfg0.N
    = Spec.affineN (V c (Pipeline.arrRef spec0 0)) (V c (Pipeline.arrRef spec0 1)) (V c (Pipeline.arrRef spec0 5)) :=
  (dat0 (F := Ideal) V c).arrAt_eq_of_cover 9 _ (fun t _ => flushed9 V c t) cover9

/-! ## Output window 10 -/

/-- What point `t` writes back to window 10 is block `t` of the affine map of the whole arrays. -/
theorem flushed10 (c : Dev nD) (t : Fin cfg0.N) :
    (dat0 (F := Ideal) V c).flushed 10 t = ((cfg0.win 10).blk t).view.read (Elt Ideal)
      (Spec.affineN (V c (Pipeline.arrRef spec0 0)) (V c (Pipeline.arrRef spec0 2)) (V c (Pipeline.arrRef spec0 6))) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, e0, e1, -⟩ := idx_rows t
  have hemb : (((cfg0.win 10).blk t).view.emb (ix2 p q) : Spec.Nodes.Idx)
      = ix2 (⟨t.val * 5000 + p.val, by have := t_lt t; have := p.isLt; omega⟩ : Fin 50000) q := by
    funext a; apply Fin.ext
    match a with
    | ⟨0, _⟩ => show win0_10.index t (0 : Fin 2) * 5000 + 1 * p.val = t.val * 5000 + p.val; rw [e0]; omega
    | ⟨1, _⟩ => show win0_10.index t (1 : Fin 2) * 128 + 1 * q.val = q.val; rw [e1]; omega
  show k0_pay4 (F := Ideal) (iblk0 V c 0 t) (iblk0 V c 2 t) (iblk0 V c 6 t) (ix2 p q)
      = (Spec.affineN (V c (Pipeline.arrRef spec0 0)) (V c (Pipeline.arrRef spec0 2)) (V c (Pipeline.arrRef spec0 6))) (((cfg0.win 10).blk t).view.emb (ix2 p q))
  refine (pay4_at (iblk0 V c 0 t) (iblk0 V c 2 t) (iblk0 V c 6 t) p q).trans ?_
  refine Eq.trans ?_ (congrArg (Spec.affineN (V c (Pipeline.arrRef spec0 0)) (V c (Pipeline.arrRef spec0 2)) (V c (Pipeline.arrRef spec0 6))) hemb).symm
  exact congrArg₂ (· + ·) (Finset.sum_congr rfl fun k _ => congrArg₂ (· * ·) (rows_at V c t p k) (w2_at V c t k q)) (b6_at V c t q)

/-- An index of the array is in point `t`'s block iff each coordinate is in the block's range on its axis. -/
theorem mem_blk10 (t : Fin cfg0.N) (i : Spec.Nodes.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v0_1).slice (win0_10.rect t)).set ↔ _
  rw [View.set_slice_whole, Rect.mem_set_unit]
  exact Iff.rfl

/-- Every row is in the block of the point `row / 5000`. -/
theorem cover10 (i : Spec.Nodes.Idx) : ∃ t : Fin cfg0.N, (cfg0.win 10).flush t = true ∧ i ∈ ((cfg0.win 10).blk t).view.set := by
  have hi0 : (i 0).val < 50000 := idx2_lt0 i
  have hi1 : (i 1).val < 128 := idx2_lt1 i
  have hN : cfg0.N = 10 := N_0
  refine ⟨⟨(i 0).val / 5000, by omega⟩, flush0_10 _, ?_⟩
  rw [mem_blk10]
  obtain ⟨-, -, -, -, e0, e1, -⟩ := idx_rows ⟨(i 0).val / 5000, by omega⟩
  intro a
  match a with
  | ⟨0, _⟩ => show win0_10.index _ (0 : Fin 2) * 5000 ≤ (i 0).val ∧ (i 0).val < win0_10.index _ (0 : Fin 2) * 5000 + 5000; rw [e0]; show (i 0).val / 5000 * 5000 ≤ (i 0).val ∧ (i 0).val < (i 0).val / 5000 * 5000 + 5000; omega
  | ⟨1, _⟩ => show win0_10.index _ (1 : Fin 2) * 128 ≤ (i 1).val ∧ (i 1).val < win0_10.index _ (1 : Fin 2) * 128 + 128; rw [e1]; omega

/-- The array of window 10 after the region: the affine map `x · W + b` of the node rows. -/
theorem out10 (c : Dev nD) : (dat0 (F := Ideal) V c).arrAt 10 cfg0.N
    = Spec.affineN (V c (Pipeline.arrRef spec0 0)) (V c (Pipeline.arrRef spec0 2)) (V c (Pipeline.arrRef spec0 6)) :=
  (dat0 (F := Ideal) V c).arrAt_eq_of_cover 10 _ (fun t _ => flushed10 V c t) cover10

/-! ## Output window 11 -/

/-- What point `t` writes back to window 11 is block `t` of the affine map of the whole arrays. -/
theorem flushed11 (c : Dev nD) (t : Fin cfg0.N) :
    (dat0 (F := Ideal) V c).flushed 11 t = ((cfg0.win 11).blk t).view.read (Elt Ideal)
      (Spec.affineN (V c (Pipeline.arrRef spec0 0)) (V c (Pipeline.arrRef spec0 3)) (V c (Pipeline.arrRef spec0 7))) := by
  show (cfg0.win 11).cut (grid0.coords t) ((dat0 V c).after 11 t) = _
  rw [after0_11]
  unfold out0_11
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, -, e0, e1, -⟩ := idx_rows t
  have hemb : (((cfg0.win 11).blk t).view.emb (ix2 p q) : Spec.Nodes.Idx)
      = ix2 (⟨t.val * 5000 + p.val, by have := t_lt t; have := p.isLt; omega⟩ : Fin 50000) q := by
    funext a; apply Fin.ext
    match a with
    | ⟨0, _⟩ => show win0_11.index t (0 : Fin 2) * 5000 + 1 * p.val = t.val * 5000 + p.val; rw [e0]; omega
    | ⟨1, _⟩ => show win0_11.index t (1 : Fin 2) * 128 + 1 * q.val = q.val; rw [e1]; omega
  show k0_pay5 (F := Ideal) (iblk0 V c 0 t) (iblk0 V c 3 t) (iblk0 V c 7 t) (ix2 p q)
      = (Spec.affineN (V c (Pipeline.arrRef spec0 0)) (V c (Pipeline.arrRef spec0 3)) (V c (Pipeline.arrRef spec0 7))) (((cfg0.win 11).blk t).view.emb (ix2 p q))
  refine (pay5_at (iblk0 V c 0 t) (iblk0 V c 3 t) (iblk0 V c 7 t) p q).trans ?_
  refine Eq.trans ?_ (congrArg (Spec.affineN (V c (Pipeline.arrRef spec0 0)) (V c (Pipeline.arrRef spec0 3)) (V c (Pipeline.arrRef spec0 7))) hemb).symm
  exact congrArg₂ (· + ·) (Finset.sum_congr rfl fun k _ => congrArg₂ (· * ·) (rows_at V c t p k) (w3_at V c t k q)) (b7_at V c t q)

/-- An index of the array is in point `t`'s block iff each coordinate is in the block's range on its axis. -/
theorem mem_blk11 (t : Fin cfg0.N) (i : Spec.Nodes.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v0_2).slice (win0_11.rect t)).set ↔ _
  rw [View.set_slice_whole, Rect.mem_set_unit]
  exact Iff.rfl

/-- Every row is in the block of the point `row / 5000`. -/
theorem cover11 (i : Spec.Nodes.Idx) : ∃ t : Fin cfg0.N, (cfg0.win 11).flush t = true ∧ i ∈ ((cfg0.win 11).blk t).view.set := by
  have hi0 : (i 0).val < 50000 := idx2_lt0 i
  have hi1 : (i 1).val < 128 := idx2_lt1 i
  have hN : cfg0.N = 10 := N_0
  refine ⟨⟨(i 0).val / 5000, by omega⟩, flush0_11 _, ?_⟩
  rw [mem_blk11]
  obtain ⟨-, -, -, -, -, -, e0, e1, -⟩ := idx_rows ⟨(i 0).val / 5000, by omega⟩
  intro a
  match a with
  | ⟨0, _⟩ => show win0_11.index _ (0 : Fin 2) * 5000 ≤ (i 0).val ∧ (i 0).val < win0_11.index _ (0 : Fin 2) * 5000 + 5000; rw [e0]; show (i 0).val / 5000 * 5000 ≤ (i 0).val ∧ (i 0).val < (i 0).val / 5000 * 5000 + 5000; omega
  | ⟨1, _⟩ => show win0_11.index _ (1 : Fin 2) * 128 ≤ (i 1).val ∧ (i 1).val < win0_11.index _ (1 : Fin 2) * 128 + 128; rw [e1]; omega

/-- The array of window 11 after the region: the affine map `x · W + b` of the node rows. -/
theorem out11 (c : Dev nD) : (dat0 (F := Ideal) V c).arrAt 11 cfg0.N
    = Spec.affineN (V c (Pipeline.arrRef spec0 0)) (V c (Pipeline.arrRef spec0 3)) (V c (Pipeline.arrRef spec0 7)) :=
  (dat0 (F := Ideal) V c).arrAt_eq_of_cover 11 _ (fun t _ => flushed11 V c t) cover11

/-! ## Output window 12 -/

/-- What point `t` writes back to window 12 is block `t` of the affine map of the whole arrays. -/
theorem flushed12 (c : Dev nD) (t : Fin cfg0.N) :
    (dat0 (F := Ideal) V c).flushed 12 t = ((cfg0.win 12).blk t).view.read (Elt Ideal)
      (Spec.affineN (V c (Pipeline.arrRef spec0 0)) (V c (Pipeline.arrRef spec0 4)) (V c (Pipeline.arrRef spec0 8))) := by
  show (cfg0.win 12).cut (grid0.coords t) ((dat0 V c).after 12 t) = _
  rw [after0_12]
  unfold out0_12
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, -, -, -, e0, e1⟩ := idx_rows t
  have hemb : (((cfg0.win 12).blk t).view.emb (ix2 p q) : Spec.Nodes.Idx)
      = ix2 (⟨t.val * 5000 + p.val, by have := t_lt t; have := p.isLt; omega⟩ : Fin 50000) q := by
    funext a; apply Fin.ext
    match a with
    | ⟨0, _⟩ => show win0_12.index t (0 : Fin 2) * 5000 + 1 * p.val = t.val * 5000 + p.val; rw [e0]; omega
    | ⟨1, _⟩ => show win0_12.index t (1 : Fin 2) * 128 + 1 * q.val = q.val; rw [e1]; omega
  show k0_pay1 (F := Ideal) (k0_pay6 (iblk0 V c 0 t) (iblk0 V c 4 t)) (k0_pay7 (iblk0 V c 8 t)) (ix2 p q)
      = (Spec.affineN (V c (Pipeline.arrRef spec0 0)) (V c (Pipeline.arrRef spec0 4)) (V c (Pipeline.arrRef spec0 8))) (((cfg0.win 12).blk t).view.emb (ix2 p q))
  refine (pay167_at (iblk0 V c 0 t) (iblk0 V c 4 t) (iblk0 V c 8 t) p q).trans ?_
  refine Eq.trans ?_ (congrArg (Spec.affineN (V c (Pipeline.arrRef spec0 0)) (V c (Pipeline.arrRef spec0 4)) (V c (Pipeline.arrRef spec0 8))) hemb).symm
  exact congrArg₂ (· + ·) (Finset.sum_congr rfl fun k _ => congrArg₂ (· * ·) (rows_at V c t p k) (w4_at V c t k q)) (b8_at V c t q)

/-- An index of the array is in point `t`'s block iff each coordinate is in the block's range on its axis. -/
theorem mem_blk12 (t : Fin cfg0.N) (i : Spec.Nodes.Idx) :
    i ∈ ((cfg0.win 12).blk t).view.set ↔ ∀ a : Fin 2, win0_12.index t a * S5000x128.size a ≤ (i a).val ∧ (i a).val < win0_12.index t a * S5000x128.size a + S5000x128.size a := by
  show i ∈ ((View.whole main_v0_3).slice (win0_12.rect t)).set ↔ _
  rw [View.set_slice_whole, Rect.mem_set_unit]
  exact Iff.rfl

/-- Every row is in the block of the point `row / 5000`. -/
theorem cover12 (i : Spec.Nodes.Idx) : ∃ t : Fin cfg0.N, (cfg0.win 12).flush t = true ∧ i ∈ ((cfg0.win 12).blk t).view.set := by
  have hi0 : (i 0).val < 50000 := idx2_lt0 i
  have hi1 : (i 1).val < 128 := idx2_lt1 i
  have hN : cfg0.N = 10 := N_0
  refine ⟨⟨(i 0).val / 5000, by omega⟩, flush0_12 _, ?_⟩
  rw [mem_blk12]
  obtain ⟨-, -, -, -, -, -, -, -, e0, e1⟩ := idx_rows ⟨(i 0).val / 5000, by omega⟩
  intro a
  match a with
  | ⟨0, _⟩ => show win0_12.index _ (0 : Fin 2) * 5000 ≤ (i 0).val ∧ (i 0).val < win0_12.index _ (0 : Fin 2) * 5000 + 5000; rw [e0]; show (i 0).val / 5000 * 5000 ≤ (i 0).val ∧ (i 0).val < (i 0).val / 5000 * 5000 + 5000; omega
  | ⟨1, _⟩ => show win0_12.index _ (1 : Fin 2) * 128 ≤ (i 1).val ∧ (i 1).val < win0_12.index _ (1 : Fin 2) * 128 + 128; rw [e1]; omega

/-- The array of window 12 after the region: the affine map `x · W + b` of the node rows. -/
theorem out12 (c : Dev nD) : (dat0 (F := Ideal) V c).arrAt 12 cfg0.N
    = Spec.affineN (V c (Pipeline.arrRef spec0 0)) (V c (Pipeline.arrRef spec0 4)) (V c (Pipeline.arrRef spec0 8)) :=
  (dat0 (F := Ideal) V c).arrAt_eq_of_cover 12 _ (fun t _ => flushed12 V c t) cover12

end Cert.Region0

end
-- ==== Proof.Region1Pay.lean ====
/-
  The arithmetic of the fused edge step, read entry by entry on the extended reals. Every lemma is about arbitrary
  blocks of the literal shapes: a block of 4000 edge rows by 128 features, the 128 by 128 weight matrix, the bias row,
  the two gathered node projections, the gathered message rows and the column of scale factors.

  Entry (p, q) of the logits is the p-th row of the edge block times column q of the weights, plus the bias of column
  q, plus the two gathered projections at (p, q). The gate is the logistic function of the logits; the gated message
  is the gate times the gathered message; the scaled logits are the logits times the factor of row p; the two partial
  sums add the scaled logits, and their squares, down the 4000 rows of the block.
-/
import proofs.«133196_j81149112091152_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Cert.KernelIdeal Cert.KernelIdeal.Gen Idealize.ShloMosaic Idealize.ShloMosaic.ValueIdx

namespace Cert.Region1

/-- The dimension numbers of the one matrix product: rows of the left operand against columns of the right. -/
abbrev DD := dot_S4000x128_S128x128_S4000x128_1_0_0_1_n_n

/-- A matrix product into a zero accumulator, at (p, q): the sum over the 128 shared coordinates. -/
theorem matmul_at (a : FVec Ideal S4000x128 .bf16) (b : FVec Ideal S128x128 .bf16) (p : Fin 4000) (q : Fin 128) :
    matmul DD none a b (constant (F := Ideal) S4000x128 .f32 0x00000000#32) (ix2 p q) = ∑ k : Fin 128, a (ix2 p k) * b (ix2 k q) := by
  refine (Ideal.matmul_constant_zero_apply DD none a b (ix2 p q)).trans ?_
  rw [← Equiv.sum_comp (contrEquiv1 DD 128 rfl rfl).symm]
  refine Finset.sum_congr rfl fun k _ => ?_
  have hl : DD.lhsIdx (ix2 p q) ((contrEquiv1 DD 128 rfl rfl).symm k) = ix2 p k := by
    funext d; apply Fin.ext
    match d with
    | ⟨0, _⟩ => rfl
    | ⟨1, _⟩ => rfl
  have hr : DD.rhsIdx (ix2 p q) ((contrEquiv1 DD 128 rfl rfl).symm k) = ix2 k q := by
    funext d; apply Fin.ext
    match d with
    | ⟨0, _⟩ => rfl
    | ⟨1, _⟩ => rfl
  rw [hl, hr]

/-- The bias row laid along every row of the block, at (p, q): the bias of column q. -/
theorem bias_at (x2 : Vec Ideal S128 .f32) (p : Fin 4000) (q : Fin 128) :
    broadcastTo S4000x128 (shapeCast S1x128 x2 shapeCasts_S128_S1x128) broadcasts_S1x128_S4000x128 (ix2 p q) = x2 (ix1 q) :=
  (broadcastTo_1b_ab_apply _ broadcasts_S1x128_S4000x128 p q).trans (shapeCast_a_1a_apply x2 shapeCasts_S128_S1x128 0 q)

/-- The column of factors laid along every column of the block, at (p, q): the factor of row p. -/
theorem factor_at (x6 : Vec Ideal S4000x1 .f32) (p : Fin 4000) (q : Fin 128) :
    broadcastTo S4000x128 x6 broadcasts_S4000x1_S4000x128 (ix2 p q) = x6 (ix2 p (0 : Fin 1)) := by
  refine broadcastTo_apply x6 broadcasts_S4000x1_S4000x128 (ix2 p q) (ix2 p (0 : Fin 1)) fun ax => ?_
  match ax with
  | ⟨0, _⟩ => rfl
  | ⟨1, _⟩ => rfl

/-- The logits at (p, q). -/
theorem pay2_at (x0 : Vec Ideal S4000x128 .f32) (x1 : Vec Ideal S128x128 .f32) (x2 : Vec Ideal S128 .f32)
    (x3 x4 : Vec Ideal S4000x128 .f32) (p : Fin 4000) (q : Fin 128) :
    k1_pay2 x0 x1 x2 x3 x4 (ix2 p q)
      = (((∑ k : Fin 128, x0 (ix2 p k) * x1 (ix2 k q)) + x2 (ix1 q)) + x3 (ix2 p q)) + x4 (ix2 p q) := by
  unfold k1_pay2
  simp only [shapeCast_self]
  show ((matmul DD none (truncf .bf16 x0 bitsLt_bf16_f32) (truncf .bf16 x1 bitsLt_bf16_f32) (constant (F := Ideal) S4000x128 .f32 0x00000000#32) (ix2 p q)
      + broadcastTo S4000x128 (shapeCast S1x128 x2 shapeCasts_S128_S1x128) broadcasts_S1x128_S4000x128 (ix2 p q)) + x3 (ix2 p q)) + x4 (ix2 p q) = _
  rw [matmul_at, bias_at]
  rfl

/-- The gate at (p, q): the logistic function of the logits there. -/
theorem pay3_at (x0 : Vec Ideal S4000x128 .f32) (x1 : Vec Ideal S128x128 .f32) (x2 : Vec Ideal S128 .f32)
    (x3 x4 : Vec Ideal S4000x128 .f32) (p : Fin 4000) (q : Fin 128) :
    k1_pay3 x0 x1 x2 x3 x4 (ix2 p q) = Ideal.logistic (k1_pay2 x0 x1 x2 x3 x4 (ix2 p q)) := rfl

/-- The gated message at (p, q): the gate times the gathered message. -/
theorem pay4_at (x0 : Vec Ideal S4000x128 .f32) (x1 : Vec Ideal S128x128 .f32) (x2 : Vec Ideal S128 .f32)
    (x3 x4 x5 : Vec Ideal S4000x128 .f32) (p : Fin 4000) (q : Fin 128) :
    k1_pay4 x0 x1 x2 x3 x4 x5 (ix2 p q) = Ideal.logistic (k1_pay2 x0 x1 x2 x3 x4 (ix2 p q)) * x5 (ix2 p q) := by
  unfold k1_pay4
  simp only [shapeCast_self]
  rfl

/-- The scaled logits at (p, q): the logits times the factor of row p. -/
theorem pay5_at (x0 : Vec Ideal S4000x128 .f32) (x1 : Vec Ideal S128x128 .f32) (x2 : Vec Ideal S128 .f32)
    (x3 x4 : Vec Ideal S4000x128 .f32) (x6 : Vec Ideal S4000x1 .f32) (p : Fin 4000) (q : Fin 128) :
    k1_pay5 x0 x1 x2 x3 x4 x6 (ix2 p q) = k1_pay2 x0 x1 x2 x3 x4 (ix2 p q) * x6 (ix2 p (0 : Fin 1)) := by
  unfold k1_pay5
  show k1_pay2 x0 x1 x2 x3 x4 (ix2 p q) * broadcastTo S4000x128 x6 broadcasts_S4000x1_S4000x128 (ix2 p q) = _
  rw [factor_at]

/-- The square of the scaled logits at (p, q). -/
theorem pay7_at (x0 : Vec Ideal S4000x128 .f32) (x1 : Vec Ideal S128x128 .f32) (x2 : Vec Ideal S128 .f32)
    (x3 x4 : Vec Ideal S4000x128 .f32) (x6 : Vec Ideal S4000x1 .f32) (p : Fin 4000) (q : Fin 128) :
    k1_pay7 x0 x1 x2 x3 x4 x6 (ix2 p q) = k1_pay5 x0 x1 x2 x3 x4 x6 (ix2 p q) * k1_pay5 x0 x1 x2 x3 x4 x6 (ix2 p q) := rfl

/-- A block summed down its 4000 rows, at column q. -/
theorem colSum_at (src : FVec Ideal S4000x128 .f32) (hacc : (0x00000000#32 : BitVec 32) = 0x00000000#32) (q : Fin 128) :
    multiReduction .add [0] S128 src 0x00000000#32 reduces_S4000x128_S128 (.inl rfl) hacc (ix1 q) = ∑ r : Fin 4000, src (ix2 r q) := by
  refine (Ideal.multiReduction_add_single src 0x00000000#32 reduces_S4000x128_S128 (.inl rfl) hacc (ix1 q)).trans ?_
  refine Finset.sum_congr rfl fun r _ => congrArg src ?_
  funext d; apply Fin.ext
  match d with
  | ⟨0, _⟩ => rfl
  | ⟨1, _⟩ => rfl

/-- The column sums laid out as one row of a [1, 1, 128] block. -/
theorem rowCast_at (v : FVec Ideal S128 .f32) (u w : Fin 1) (q : Fin 128) :
    shapeCast S1x1x128 (shapeCast S1x128 v shapeCasts_S128_S1x128) shapeCasts_S1x128_S1x1x128 (ix3 u w q) = v (ix1 q) :=
  (shapeCast_ab_1ab_apply _ shapeCasts_S1x128_S1x1x128 u w q).trans (shapeCast_a_1a_apply v shapeCasts_S128_S1x128 w q)

/-- The partial sums of the scaled logits: column q of the block's one row is the sum down the 4000 rows. -/
theorem pay6_at (x0 : Vec Ideal S4000x128 .f32) (x1 : Vec Ideal S128x128 .f32) (x2 : Vec Ideal S128 .f32)
    (x3 x4 : Vec Ideal S4000x128 .f32) (x6 : Vec Ideal S4000x1 .f32) (u w : Fin 1) (q : Fin 128) :
    k1_pay6 x0 x1 x2 x3 x4 x6 (ix3 u w q) = ∑ r : Fin 4000, k1_pay5 x0 x1 x2 x3 x4 x6 (ix2 r q) := by
  unfold k1_pay6
  exact (rowCast_at _ u w q).trans (colSum_at _ rfl q)

/-- The same for any block: the partial sums of its columns. -/
theorem pay1_at (v : FVec Ideal S4000x128 .f32) (u w : Fin 1) (q : Fin 128) :
    k1_pay1 v (ix3 u w q) = ∑ r : Fin 4000, v (ix2 r q) := by
  unfold k1_pay1
  exact (rowCast_at _ u w q).trans (colSum_at _ rfl q)

end Cert.Region1

end
-- ==== Proof.Region1Blk.lean ====
/-
  Where the blocks of the fused edge step sit in their arrays. The step visits 200 points; at point t every array of
  800000 edge rows is read or written through rows 4000 t … 4000 t + 3999, all columns, the weight matrix and the bias
  row are read whole at every point, and each of the two [200, 1, 128] arrays of partial sums is written at its one row t.
-/
import proofs.«133196_j81149112091152_2_alg».proof.Proof.KernelIdealFrameP
import Idealize.ShloMosaic.Lib.ValueIdx
import Idealize.ShloMosaic.Lib.Pipeline.Value

noncomputable section

open Cert.KernelIdeal Cert.KernelIdeal.Gen Idealize.ShloMosaic Idealize.ShloMosaic.TcCoe Idealize.ShloMosaic.ValueIdx Idealize.SL.Sem
open Idealize.ShloMosaic.Pipeline (Dat)

namespace Cert.Region1

/-- Row p of the block at point t is row 4000 t + p of the array. -/
abbrev erowOf (t : Fin cfg1.N) (p : Fin 4000) : Fin 800000 :=
  ⟨t.val * 4000 + p.val, by have := t.isLt; have := p.isLt; have hN : cfg1.N = 200 := N_1; omega⟩

/-- The point as a row of a [200, 1, 128] array. -/
abbrev partOf (t : Fin cfg1.N) : Fin 200 := ⟨t.val, by have := t.isLt; have hN : cfg1.N = 200 := N_1; omega⟩

/-! ## The printed index maps, decided over the 200 points -/

theorem idx_rows0 : ∀ t : Fin cfg1.N, win1_0.index t (0 : Fin 2) = t.val ∧ win1_0.index t (1 : Fin 2) = 0 :=
  (by decide +kernel : ∀ t : Fin grid1.N, _)

theorem idx_rows3 : ∀ t : Fin cfg1.N, win1_3.index t (0 : Fin 2) = t.val ∧ win1_3.index t (1 : Fin 2) = 0 :=
  (by decide +kernel : ∀ t : Fin grid1.N, _)

theorem idx_rows4 : ∀ t : Fin cfg1.N, win1_4.index t (0 : Fin 2) = t.val ∧ win1_4.index t (1 : Fin 2) = 0 :=
  (by decide +kernel : ∀ t : Fin grid1.N, _)

theorem idx_rows5 : ∀ t : Fin cfg1.N, win1_5.index t (0 : Fin 2) = t.val ∧ win1_5.index t (1 : Fin 2) = 0 :=
  (by decide +kernel : ∀ t : Fin grid1.N, _)

theorem idx_rows6 : ∀ t : Fin cfg1.N, win1_6.index t (0 : Fin 2) = t.val ∧ win1_6.index t (1 : Fin 2) = 0 :=
  (by decide +kernel : ∀ t : Fin grid1.N, _)

theorem idx_rows7 : ∀ t : Fin cfg1.N, win1_7.index t (0 : Fin 2) = t.val ∧ win1_7.index t (1 : Fin 2) = 0 :=
  (by decide +kernel : ∀ t : Fin grid1.N, _)

theorem idx_rows8 : ∀ t : Fin cfg1.N, win1_8.index t (0 : Fin 2) = t.val ∧ win1_8.index t (1 : Fin 2) = 0 :=
  (by decide +kernel : ∀ t : Fin grid1.N, _)

theorem idx_whole1 : ∀ t : Fin cfg1.N, win1_1.index t (0 : Fin 2) = 0 ∧ win1_1.index t (1 : Fin 2) = 0 :=
  (by decide +kernel : ∀ t : Fin grid1.N, _)

theorem idx_whole2 : ∀ t : Fin cfg1.N, win1_2.index t (0 : Fin 1) = 0 :=
  (by decide +kernel : ∀ t : Fin grid1.N, _)

theorem idx_part9 : ∀ t : Fin cfg1.N, win1_9.index t (0 : Fin 3) = t.val ∧ win1_9.index t (1 : Fin 3) = 0 ∧ win1_9.index t (2 : Fin 3) = 0 :=
  (by decide +kernel : ∀ t : Fin grid1.N, _)

theorem idx_part10 : ∀ t : Fin cfg1.N, win1_10.index t (0 : Fin 3) = t.val ∧ win1_10.index t (1 : Fin 3) = 0 ∧ win1_10.index t (2 : Fin 3) = 0 :=
  (by decide +kernel : ∀ t : Fin grid1.N, _)

/-! ## An entry of a block, as an entry of the array -/

theorem emb0 (t : Fin cfg1.N) (p : Fin 4000) (q : Fin 128) :
    (((cfg1.win 0).blk t).view.emb (ix2 p q) : S800000x128.Idx) = ix2 (erowOf t p) q := by
  obtain ⟨e0, e1⟩ := idx_rows0 t
  funext a; apply Fin.ext
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

theorem emb3 (t : Fin cfg1.N) (p : Fin 4000) (q : Fin 128) :
    (((cfg1.win 3).blk t).view.emb (ix2 p q) : S800000x128.Idx) = ix2 (erowOf t p) q := by
  obtain ⟨e0, e1⟩ := idx_rows3 t
  funext a; apply Fin.ext
  match a with
  | ⟨0, _⟩ => show win1_3.index t (0 : Fin 2) * 4000 + 1 * p.val = t.val * 4000 + p.val; rw [e0]; omega
  | ⟨1, _⟩ => show win1_3.index t (1 : Fin 2) * 128 + 1 * q.val = q.val; rw [e1]; omega

theorem emb4 (t : Fin cfg1.N) (p : Fin 4000) (q : Fin 128) :
    (((cfg1.win 4).blk t).view.emb (ix2 p q) : S800000x128.Idx) = ix2 (erowOf t p) q := by
  obtain ⟨e0, e1⟩ := idx_rows4 t
  funext a; apply Fin.ext
  match a with
  | ⟨0, _⟩ => show win1_4.index t (0 : Fin 2) * 4000 + 1 * p.val = t.val * 4000 + p.val; rw [e0]; omega
  | ⟨1, _⟩ => show win1_4.index t (1 : Fin 2) * 128 + 1 * q.val = q.val; rw [e1]; omega

theorem emb5 (t : Fin cfg1.N) (p : Fin 4000) (q : Fin 128) :
    (((cfg1.win 5).blk t).view.emb (ix2 p q) : S800000x128.Idx) = ix2 (erowOf t p) q := by
  obtain ⟨e0, e1⟩ := idx_rows5 t
  funext a; apply Fin.ext
  match a with
  | ⟨0, _⟩ => show win1_5.index t (0 : Fin 2) * 4000 + 1 * p.val = t.val * 4000 + p.val; rw [e0]; omega
  | ⟨1, _⟩ => show win1_5.index t (1 : Fin 2) * 128 + 1 * q.val = q.val; rw [e1]; omega

theorem emb8 (t : Fin cfg1.N) (p : Fin 4000) (q : Fin 128) :
    (((cfg1.win 8).blk t).view.emb (ix2 p q) : S800000x128.Idx) = ix2 (erowOf t p) q := by
  obtain ⟨e0, e1⟩ := idx_rows8 t
  funext a; apply Fin.ext
  match a with
  | ⟨0, _⟩ => show win1_8.index t (0 : Fin 2) * 4000 + 1 * p.val = t.val * 4000 + p.val; rw [e0]; omega
  | ⟨1, _⟩ => show win1_8.index t (1 : Fin 2) * 128 + 1 * q.val = q.val; rw [e1]; omega

theorem emb6 (t : Fin cfg1.N) (p : Fin 4000) (q : Fin 1) :
    (((cfg1.win 6).blk t).view.emb (ix2 p q) : S800000x1.Idx) = ix2 (erowOf t p) q := by
  obtain ⟨e0, e1⟩ := idx_rows6 t
  funext a; apply Fin.ext
  match a with
  | ⟨0, _⟩ => show win1_6.index t (0 : Fin 2) * 4000 + 1 * p.val = t.val * 4000 + p.val; rw [e0]; omega
  | ⟨1, _⟩ => show win1_6.index t (1 : Fin 2) * 1 + 1 * q.val = q.val; rw [e1]; omega

theorem emb7 (t : Fin cfg1.N) (p : Fin 4000) (q : Fin 256) :
    (((cfg1.win 7).blk t).view.emb (ix2 p q) : S800000x256.Idx) = ix2 (erowOf t p) q := by
  obtain ⟨e0, e1⟩ := idx_rows7 t
  funext a; apply Fin.ext
  match a with
  | ⟨0, _⟩ => show win1_7.index t (0 : Fin 2) * 4000 + 1 * p.val = t.val * 4000 + p.val; rw [e0]; omega
  | ⟨1, _⟩ => show win1_7.index t (1 : Fin 2) * 256 + 1 * q.val = q.val; rw [e1]; omega

theorem emb1 (t : Fin cfg1.N) (k : Fin 128) (q : Fin 128) :
    (((cfg1.win 1).blk t).view.emb (ix2 k q) : S128x128.Idx) = ix2 k q := by
  obtain ⟨e0, e1⟩ := idx_whole1 t
  funext a; apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

theorem emb2 (t : Fin cfg1.N) (q : Fin 128) :
    (((cfg1.win 2).blk t).view.emb (ix1 q) : S128.Idx) = ix1 q := by
  have e0 := idx_whole2 t
  funext a; apply Fin.ext
  match a with
  | ⟨0, _⟩ => show win1_2.index t (0 : Fin 1) * 128 + 1 * q.val = q.val; rw [e0]; omega

theorem emb9 (t : Fin cfg1.N) (u w : Fin 1) (q : Fin 128) :
    (((cfg1.win 9).blk t).view.emb (ix3 u w q) : S200x1x128.Idx) = ix3 (partOf t) (0 : Fin 1) q := by
  obtain ⟨e0, e1, e2⟩ := idx_part9 t
  funext a; apply Fin.ext
  match a with
  | ⟨0, _⟩ => show win1_9.index t (0 : Fin 3) * 1 + 1 * u.val = t.val; rw [e0]; omega
  | ⟨1, _⟩ => show win1_9.index t (1 : Fin 3) * 1 + 1 * w.val = 0; rw [e1]; omega
  | ⟨2, _⟩ => show win1_9.index t (2 : Fin 3) * 128 + 1 * q.val = q.val; rw [e2]; omega

theorem emb10 (t : Fin cfg1.N) (u w : Fin 1) (q : Fin 128) :
    (((cfg1.win 10).blk t).view.emb (ix3 u w q) : S200x1x128.Idx) = ix3 (partOf t) (0 : Fin 1) q := by
  obtain ⟨e0, e1, e2⟩ := idx_part10 t
  funext a; apply Fin.ext
  match a with
  | ⟨0, _⟩ => show win1_10.index t (0 : Fin 3) * 1 + 1 * u.val = t.val; rw [e0]; omega
  | ⟨1, _⟩ => show win1_10.index t (1 : Fin 3) * 1 + 1 * w.val = 0; rw [e1]; omega
  | ⟨2, _⟩ => show win1_10.index t (2 : Fin 3) * 128 + 1 * q.val = q.val; rw [e2]; omega

end Cert.Region1

end
-- ==== Proof.Region1In.lean ====
/-
  The fused edge step as whole-array mathematics. With e, W, b the edge features, the weight matrix and the bias
  row, and ds, ed, bs the node projections gathered along the edges' source and target nodes, the step leaves

    z = (e · W + b) + ds + ed                       (the gate logits, not stored)
    [ logistic z · bs | logistic z ]                 (800000 rows, 256 columns)
    z · s                                            (each row scaled by its factor)
    the column sums of z · s and of (z · s)², 4000 rows at a time   (200 parts)

  Each of the 200 points writes rows 4000 t … 4000 t + 3999 of the two wide arrays and row t of the two arrays of
  partial sums, from the same rows of its inputs; the blocks tile the arrays, so each array ends as one function.
-/
import proofs.«133196_j81149112091152_2_alg».proof.Proof.KernelIdealFrameP
import proofs.«133196_j81149112091152_2_alg».proof.Proof.Spec
import proofs.«133196_j81149112091152_2_alg».proof.Proof.Region1Pay
import proofs.«133196_j81149112091152_2_alg».proof.Proof.Region1Blk
import Idealize.ShloMosaic.Lib.ValueIdx
import Idealize.ShloMosaic.Lib.Pipeline.Value

noncomputable section

open scoped BigOperators
open Cert.KernelIdeal Cert.KernelIdeal.Gen Idealize.ShloMosaic Idealize.ShloMosaic.TcCoe Idealize.ShloMosaic.ValueIdx Idealize.SL.Sem
open Idealize.ShloMosaic.Pipeline (Dat)

namespace Cert.Region1

variable (V : (c : Dev nD) → (b : Ref sig .tc) → Buf (Elt Ideal) ((c : Thread nD τ).loc b))

/-! ## The arrays as the step finds them -/

abbrev eA (c : Dev nD) : Spec.Edges.Idx → EReal := V c (Pipeline.arrRef spec1 0)
abbrev wA (c : Dev nD) : Spec.Weights.Idx → EReal := V c (Pipeline.arrRef spec1 1)
abbrev bA (c : Dev nD) : Spec.Feat.Idx → EReal := V c (Pipeline.arrRef spec1 2)
abbrev dsA (c : Dev nD) : Spec.Edges.Idx → EReal := V c (Pipeline.arrRef spec1 3)
abbrev edA (c : Dev nD) : Spec.Edges.Idx → EReal := V c (Pipeline.arrRef spec1 4)
abbrev bsA (c : Dev nD) : Spec.Edges.Idx → EReal := V c (Pipeline.arrRef spec1 5)
abbrev snA (c : Dev nD) : Spec.EdgeCol.Idx → EReal := V c (Pipeline.arrRef spec1 6)

/-- The gate logits of every edge. -/
abbrev zA (c : Dev nD) : Spec.Edges.Idx → EReal :=
  Spec.logits (Spec.affineE (eA V c) (wA V c) (bA V c)) (dsA V c) (edA V c)

/-- The scaled logits of every edge. -/
abbrev midA (c : Dev nD) : Spec.Edges.Idx → EReal := Spec.scaleE (zA V c) (snA V c)

/-! ## The input blocks, entry by entry -/

theorem in0_at (c : Dev nD) (t : Fin cfg1.N) (p : Fin 4000) (q : Fin 128) :
    (iblk1 V c 0 t : Vec Ideal S4000x128 .f32) (ix2 p q) = eA V c (ix2 (erowOf t p) q) := by
  unfold iblk1; rw [View.read_apply]; exact congrArg (V c (Pipeline.arrRef spec1 0)) (emb0 t p q)

theorem in1_at (c : Dev nD) (t : Fin cfg1.N) (k : Fin 128) (q : Fin 128) :
    (iblk1 V c 1 t : Vec Ideal S128x128 .f32) (ix2 k q) = wA V c (ix2 k q) := by
  unfold iblk1; rw [View.read_apply]; exact congrArg (V c (Pipeline.arrRef spec1 1)) (emb1 t k q)

theorem in2_at (c : Dev nD) (t : Fin cfg1.N) (q : Fin 128) :
    (iblk1 V c 2 t : Vec Ideal S128 .f32) (ix1 q) = bA V c (ix1 q) := by
  unfold iblk1; rw [View.read_apply]; exact congrArg (V c (Pipeline.arrRef spec1 2)) (emb2 t q)

theorem in3_at (c : Dev nD) (t : Fin cfg1.N) (p : Fin 4000) (q : Fin 128) :
    (iblk1 V c 3 t : Vec Ideal S4000x128 .f32) (ix2 p q) = dsA V c (ix2 (erowOf t p) q) := by
  unfold iblk1; rw [View.read_apply]; exact congrArg (V c (Pipeline.arrRef spec1 3)) (emb3 t p q)

theorem in4_at (c : Dev nD) (t : Fin cfg1.N) (p : Fin 4000) (q : Fin 128) :
    (iblk1 V c 4 t : Vec Ideal S4000x128 .f32) (ix2 p q) = edA V c (ix2 (erowOf t p) q) := by
  unfold iblk1; rw [View.read_apply]; exact congrArg (V c (Pipeline.arrRef spec1 4)) (emb4 t p q)

theorem in5_at (c : Dev nD) (t : Fin cfg1.N) (p : Fin 4000) (q : Fin 128) :
    (iblk1 V c 5 t : Vec Ideal S4000x128 .f32) (ix2 p q) = bsA V c (ix2 (erowOf t p) q) := by
  unfold iblk1; rw [View.read_apply]; exact congrArg (V c (Pipeline.arrRef spec1 5)) (emb5 t p q)

theorem in6_at (c : Dev nD) (t : Fin cfg1.N) (p : Fin 4000) (q : Fin 1) :
    (iblk1 V c 6 t : Vec Ideal S4000x1 .f32) (ix2 p q) = snA V c (ix2 (erowOf t p) q) := by
  unfold iblk1; rw [View.read_apply]; exact congrArg (V c (Pipeline.arrRef spec1 6)) (emb6 t p q)

/-! ## The body's values at point t, entry by entry, as the whole-array functions at the block's rows -/

/-- The logits of row p of the block are the logits of edge 4000 t + p. -/
theorem logits_blk (c : Dev nD) (t : Fin cfg1.N) (p : Fin 4000) (q : Fin 128) :
    k1_pay2 (iblk1 V c 0 t) (iblk1 V c 1 t) (iblk1 V c 2 t) (iblk1 V c 3 t) (iblk1 V c 4 t) (ix2 p q)
      = zA V c (ix2 (erowOf t p) q) := by
  refine (pay2_at (iblk1 V c 0 t) (iblk1 V c 1 t) (iblk1 V c 2 t) (iblk1 V c 3 t) (iblk1 V c 4 t) p q).trans ?_
  simp only [in0_at V c t, in1_at V c t, in2_at V c t, in3_at V c t, in4_at V c t]
  rfl

/-- The scaled logits of row p of the block. -/
theorem scaled_blk (c : Dev nD) (t : Fin cfg1.N) (p : Fin 4000) (q : Fin 128) :
    k1_pay5 (iblk1 V c 0 t) (iblk1 V c 1 t) (iblk1 V c 2 t) (iblk1 V c 3 t) (iblk1 V c 4 t) (iblk1 V c 6 t) (ix2 p q)
      = midA V c (ix2 (erowOf t p) q) := by
  refine (pay5_at (iblk1 V c 0 t) (iblk1 V c 1 t) (iblk1 V c 2 t) (iblk1 V c 3 t) (iblk1 V c 4 t) (iblk1 V c 6 t) p q).trans ?_
  rw [logits_blk V c t p q, in6_at V c t p (0 : Fin 1)]
  rfl

/-! ## Zero offsets, however many axes -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.Region1

end
-- ==== Proof.Region1Mid.lean ====
/-
  The array of scaled logits after the fused edge step: point t stores the scaled logits of rows 4000 t … 4000 t + 3999,
  and the 200 blocks of rows tile the 800000 rows.
-/
import proofs.«133196_j81149112091152_2_alg».proof.Proof.KernelIdealFrameP
import proofs.«133196_j81149112091152_2_alg».proof.Proof.Spec
import proofs.«133196_j81149112091152_2_alg».proof.Proof.Region1Pay
import proofs.«133196_j81149112091152_2_alg».proof.Proof.Region1Blk
import proofs.«133196_j81149112091152_2_alg».proof.Proof.Region1In
import Idealize.ShloMosaic.Lib.ValueIdx
import Idealize.ShloMosaic.Lib.Pipeline.Value

noncomputable section

open scoped BigOperators
open Cert.KernelIdeal Cert.KernelIdeal.Gen Idealize.ShloMosaic Idealize.ShloMosaic.TcCoe Idealize.ShloMosaic.ValueIdx Idealize.SL.Sem
open Idealize.ShloMosaic.Pipeline (Dat)

namespace Cert.Region1

variable (V : (c : Dev nD) → (b : Ref sig .tc) → Buf (Elt Ideal) ((c : Thread nD τ).loc b))

/-- What point t writes back is block t of the scaled logits. -/
theorem flushed8_eq (c : Dev nD) (t : Fin cfg1.N) :
    (dat1 V c).flushed 8 t = ((cfg1.win 8).blk t).view.read (Elt Ideal) (midA V c) := by
  show (cfg1.win 8).cut (grid1.coords t) ((dat1 V c).after 8 t) = _
  rw [after1_8]
  unfold out1_8
  rw [View.canon_unit_zero hz2]
  simp only [View.ld_unit_zero (S := S4000x128) hz2, View.ld_unit_zero (S := S128x128) hz2, View.ld_unit_zero (S := S128) hz1, View.ld_unit_zero (S := S4000x1) hz2]
  refine funext fun (j : S4000x128.Idx) => ?_
  obtain ⟨p, q, rfl⟩ : ∃ (p : Fin 4000) (q : Fin 128), j = ix2 p q := ⟨j 0, j 1, eq_ix2 j⟩
  rw [View.read_apply, emb8 t p q]
  exact scaled_blk V c t p q

/-- An entry lies in point t's block iff its row lies between 4000 t and 4000 t + 3999. -/
theorem mem_blk8 (t : Fin cfg1.N) (i : S800000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v22_1).slice (win1_8.rect t)).set ↔ _
  rw [View.set_slice_whole, Rect.mem_set_unit]
  exact Iff.rfl

/-- Every entry is in the block of point (row / 4000). -/
theorem cover8 (i : S800000x128.Idx) : ∃ t : Fin cfg1.N, (cfg1.win 8).flush t = true ∧ i ∈ ((cfg1.win 8).blk t).view.set := by
  have hN : cfg1.N = 200 := N_1
  have h0 : (i 0).val < 800000 := idx2_lt0 i
  have h1 : (i 1).val < 128 := idx2_lt1 i
  obtain ⟨e0, e1⟩ := idx_rows8 ⟨(i 0).val / 4000, by omega⟩
  refine ⟨⟨(i 0).val / 4000, by omega⟩, flush1_8 _, ?_⟩
  rw [mem_blk8]
  intro a
  match a with
  | ⟨0, _⟩ =>
    show win1_8.index ⟨(i 0).val / 4000, _⟩ (0 : Fin 2) * 4000 ≤ (i 0).val ∧ (i 0).val < win1_8.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_8.index ⟨(i 0).val / 4000, _⟩ (1 : Fin 2) * 128 ≤ (i 1).val ∧ (i 1).val < win1_8.index ⟨(i 0).val / 4000, _⟩ (1 : Fin 2) * 128 + 128
    rw [e1]; omega

/-- The array of scaled logits after the step: every row of the logits times its factor. -/
theorem out8 (c : Dev nD) : (dat1 (F := Ideal) V c).arrAt 8 cfg1.N = midA V c :=
  (dat1 V c).arrAt_eq_of_cover 8 (midA V c) (fun t _ => flushed8_eq V c t) cover8

end Cert.Region1

end
-- ==== Proof.Region1Parts.lean ====
/-
  The two arrays of partial sums after the fused edge step: point t stores, in row t of each, the column sums of the
  scaled logits of rows 4000 t … 4000 t + 3999 and of their squares; the 200 rows are the whole arrays.
-/
import proofs.«133196_j81149112091152_2_alg».proof.Proof.KernelIdealFrameP
import proofs.«133196_j81149112091152_2_alg».proof.Proof.Spec
import proofs.«133196_j81149112091152_2_alg».proof.Proof.Region1Pay
import proofs.«133196_j81149112091152_2_alg».proof.Proof.Region1Blk
import proofs.«133196_j81149112091152_2_alg».proof.Proof.Region1In
import Idealize.ShloMosaic.Lib.ValueIdx
import Idealize.ShloMosaic.Lib.Pipeline.Value

noncomputable section

open scoped BigOperators
open Cert.KernelIdeal Cert.KernelIdeal.Gen Idealize.ShloMosaic Idealize.ShloMosaic.TcCoe Idealize.ShloMosaic.ValueIdx Idealize.SL.Sem
open Idealize.ShloMosaic.Pipeline (Dat)

namespace Cert.Region1

variable (V : (c : Dev nD) → (b : Ref sig .tc) → Buf (Elt Ideal) ((c : Thread nD τ).loc b))

/-- What point t writes back is row t of the partial sums. -/
theorem flushed9_eq (c : Dev nD) (t : Fin cfg1.N) :
    (dat1 V c).flushed 9 t = ((cfg1.win 9).blk t).view.read (Elt Ideal) (Spec.partSumsE (midA V c)) := by
  show (cfg1.win 9).cut (grid1.coords t) ((dat1 V c).after 9 t) = _
  rw [after1_9]
  unfold out1_9
  rw [View.canon_unit_zero hz3]
  simp only [View.ld_unit_zero (S := S4000x128) hz2, View.ld_unit_zero (S := S128x128) hz2, View.ld_unit_zero (S := S128) hz1, View.ld_unit_zero (S := S4000x1) hz2]
  refine funext fun (j : S1x1x128.Idx) => ?_
  obtain ⟨u, w, q, rfl⟩ : ∃ (u w : Fin 1) (q : Fin 128), j = ix3 u w q := ⟨j 0, j 1, j 2, eq_ix3 j⟩
  rw [View.read_apply, emb9 t u w q]
  refine (pay6_at (iblk1 V c 0 t) (iblk1 V c 1 t) (iblk1 V c 2 t) (iblk1 V c 3 t) (iblk1 V c 4 t) (iblk1 V c 6 t) u w q).trans ?_
  show _ = ∑ r : Fin 4000, midA V c (ix2 (erowOf t r) q)
  exact Finset.sum_congr rfl fun r _ => scaled_blk V c t r q

/-- An entry lies in point t's block iff it lies in row t. -/
theorem mem_blk9 (t : Fin cfg1.N) (i : S200x1x128.Idx) :
    i ∈ ((cfg1.win 9).blk t).view.set ↔ ∀ a : Fin 3, win1_9.index t a * S1x1x128.size a ≤ (i a).val ∧ (i a).val < win1_9.index t a * S1x1x128.size a + S1x1x128.size a := by
  show i ∈ ((View.whole main_v22_2).slice (win1_9.rect t)).set ↔ _
  rw [View.set_slice_whole, Rect.mem_set_unit]
  exact Iff.rfl

/-- Every entry of the [200, 1, 128] array is in the block of the point that is its row. -/
theorem cover9 (i : S200x1x128.Idx) : ∃ t : Fin cfg1.N, (cfg1.win 9).flush t = true ∧ i ∈ ((cfg1.win 9).blk t).view.set := by
  have hN : cfg1.N = 200 := N_1
  have h0 : (i 0).val < 200 := (i 0).isLt
  have h1 : (i 1).val < 1 := (i 1).isLt
  have h2 : (i 2).val < 128 := (i 2).isLt
  obtain ⟨e0, e1, e2⟩ := idx_part9 ⟨(i 0).val, by omega⟩
  refine ⟨⟨(i 0).val, by omega⟩, flush1_9 _, ?_⟩
  rw [mem_blk9]
  intro a
  match a with
  | ⟨0, _⟩ =>
    show win1_9.index ⟨(i 0).val, _⟩ (0 : Fin 3) * 1 ≤ (i 0).val ∧ (i 0).val < win1_9.index ⟨(i 0).val, _⟩ (0 : Fin 3) * 1 + 1
    rw [e0]; show (i 0).val * 1 ≤ (i 0).val ∧ (i 0).val < (i 0).val * 1 + 1; omega
  | ⟨1, _⟩ =>
    show win1_9.index ⟨(i 0).val, _⟩ (1 : Fin 3) * 1 ≤ (i 1).val ∧ (i 1).val < win1_9.index ⟨(i 0).val, _⟩ (1 : Fin 3) * 1 + 1
    rw [e1]; omega
  | ⟨2, _⟩ =>
    show win1_9.index ⟨(i 0).val, _⟩ (2 : Fin 3) * 128 ≤ (i 2).val ∧ (i 2).val < win1_9.index ⟨(i 0).val, _⟩ (2 : Fin 3) * 128 + 128
    rw [e2]; omega

/-- The partial column sums of the scaled logits after the step. -/
theorem out9 (c : Dev nD) : (dat1 (F := Ideal) V c).arrAt 9 cfg1.N = Spec.partSumsE (midA V c) :=
  (dat1 V c).arrAt_eq_of_cover 9 (Spec.partSumsE (midA V c)) (fun t _ => flushed9_eq V c t) cover9

/-- What point t writes back is row t of the partial sums. -/
theorem flushed10_eq (c : Dev nD) (t : Fin cfg1.N) :
    (dat1 V c).flushed 10 t = ((cfg1.win 10).blk t).view.read (Elt Ideal) (Spec.partSumsE (Spec.sqE (midA V c))) := by
  show (cfg1.win 10).cut (grid1.coords t) ((dat1 V c).after 10 t) = _
  rw [after1_10]
  unfold out1_10
  rw [View.canon_unit_zero hz3]
  simp only [View.ld_unit_zero (S := S4000x128) hz2, View.ld_unit_zero (S := S128x128) hz2, View.ld_unit_zero (S := S128) hz1, View.ld_unit_zero (S := S4000x1) hz2]
  refine funext fun (j : S1x1x128.Idx) => ?_
  obtain ⟨u, w, q, rfl⟩ : ∃ (u w : Fin 1) (q : Fin 128), j = ix3 u w q := ⟨j 0, j 1, j 2, eq_ix3 j⟩
  rw [View.read_apply, emb10 t u w q]
  refine (pay1_at (k1_pay7 (iblk1 V c 0 t) (iblk1 V c 1 t) (iblk1 V c 2 t) (iblk1 V c 3 t) (iblk1 V c 4 t) (iblk1 V c 6 t)) u w q).trans ?_
  show _ = ∑ r : Fin 4000, Spec.sqE (midA V c) (ix2 (erowOf t r) q)
  refine Finset.sum_congr rfl fun r _ => ?_
  refine (pay7_at (iblk1 V c 0 t) (iblk1 V c 1 t) (iblk1 V c 2 t) (iblk1 V c 3 t) (iblk1 V c 4 t) (iblk1 V c 6 t) r q).trans ?_
  rw [scaled_blk V c t r q]
  rfl

/-- An entry lies in point t's block iff it lies in row t. -/
theorem mem_blk10 (t : Fin cfg1.N) (i : S200x1x128.Idx) :
    i ∈ ((cfg1.win 10).blk t).view.set ↔ ∀ a : Fin 3, win1_10.index t a * S1x1x128.size a ≤ (i a).val ∧ (i a).val < win1_10.index t a * S1x1x128.size a + S1x1x128.size a := by
  show i ∈ ((View.whole main_v22_3).slice (win1_10.rect t)).set ↔ _
  rw [View.set_slice_whole, Rect.mem_set_unit]
  exact Iff.rfl

/-- Every entry of the [200, 1, 128] array is in the block of the point that is its row. -/
theorem cover10 (i : S200x1x128.Idx) : ∃ t : Fin cfg1.N, (cfg1.win 10).flush t = true ∧ i ∈ ((cfg1.win 10).blk t).view.set := by
  have hN : cfg1.N = 200 := N_1
  have h0 : (i 0).val < 200 := (i 0).isLt
  have h1 : (i 1).val < 1 := (i 1).isLt
  have h2 : (i 2).val < 128 := (i 2).isLt
  obtain ⟨e0, e1, e2⟩ := idx_part10 ⟨(i 0).val, by omega⟩
  refine ⟨⟨(i 0).val, by omega⟩, flush1_10 _, ?_⟩
  rw [mem_blk10]
  intro a
  match a with
  | ⟨0, _⟩ =>
    show win1_10.index ⟨(i 0).val, _⟩ (0 : Fin 3) * 1 ≤ (i 0).val ∧ (i 0).val < win1_10.index ⟨(i 0).val, _⟩ (0 : Fin 3) * 1 + 1
    rw [e0]; show (i 0).val * 1 ≤ (i 0).val ∧ (i 0).val < (i 0).val * 1 + 1; omega
  | ⟨1, _⟩ =>
    show win1_10.index ⟨(i 0).val, _⟩ (1 : Fin 3) * 1 ≤ (i 1).val ∧ (i 1).val < win1_10.index ⟨(i 0).val, _⟩ (1 : Fin 3) * 1 + 1
    rw [e1]; omega
  | ⟨2, _⟩ =>
    show win1_10.index ⟨(i 0).val, _⟩ (2 : Fin 3) * 128 ≤ (i 2).val ∧ (i 2).val < win1_10.index ⟨(i 0).val, _⟩ (2 : Fin 3) * 128 + 128
    rw [e2]; omega

/-- The partial column sums of the squared scaled logits after the step. -/
theorem out10 (c : Dev nD) : (dat1 (F := Ideal) V c).arrAt 10 cfg1.N = Spec.partSumsE (Spec.sqE (midA V c)) :=
  (dat1 V c).arrAt_eq_of_cover 10 (Spec.partSumsE (Spec.sqE (midA V c))) (fun t _ => flushed10_eq V c t) cover10

end Cert.Region1

end
-- ==== Proof.Region1Pair.lean ====
/-
  The paired array after the fused edge step: 800000 rows of 256 columns, the gate times the gathered message in
  columns 0–127 and the gate in columns 128–255. Point t fills its 4000 rows by two stores, one per half; together
  they are block t of one function, and the 200 blocks of rows tile the array.
-/
import proofs.«133196_j81149112091152_2_alg».proof.Proof.KernelIdealFrameP
import proofs.«133196_j81149112091152_2_alg».proof.Proof.Spec
import proofs.«133196_j81149112091152_2_alg».proof.Proof.Region1Pay
import proofs.«133196_j81149112091152_2_alg».proof.Proof.Region1Blk
import proofs.«133196_j81149112091152_2_alg».proof.Proof.Region1In
import Idealize.ShloMosaic.Lib.ValueIdx
import Idealize.ShloMosaic.Lib.Pipeline.Value

noncomputable section

open scoped BigOperators
open Cert.KernelIdeal Cert.KernelIdeal.Gen Idealize.ShloMosaic Idealize.ShloMosaic.TcCoe Idealize.ShloMosaic.ValueIdx Idealize.SL.Sem
open Idealize.ShloMosaic.Pipeline (Dat)

namespace Cert.Region1

variable (V : (c : Dev nD) → (b : Ref sig .tc) → Buf (Elt Ideal) ((c : Thread nD τ).loc b))

/-! ## The paired array at explicit coordinates -/

/-- In the left 128 columns the paired array holds the gate times the gathered message. -/
theorem paired_left (z bs : Spec.Edges.Idx → EReal) (R : Fin 800000) (q : Fin 256) (q' : Fin 128) (h : q.val = q'.val) :
    Spec.paired z bs (ix2 R q) = Ideal.logistic (z (ix2 R q')) * bs (ix2 R q') := by
  unfold Spec.paired
  have hp : (ix2 R q (1 : Fin 2)).val < 128 := by show q.val < 128; omega
  rw [dif_pos hp]
  have e : (⟨(ix2 R q (1 : Fin 2)).val, hp⟩ : Fin 128) = q' := Fin.ext (by show q.val = q'.val; exact h)
  rw [e]

/-- In the right 128 columns it holds the gate. -/
theorem paired_right (z bs : Spec.Edges.Idx → EReal) (R : Fin 800000) (q : Fin 256) (q' : Fin 128) (h : q.val = 128 + q'.val) :
    Spec.paired z bs (ix2 R q) = Ideal.logistic (z (ix2 R q')) := by
  unfold Spec.paired
  have hn : ¬ (ix2 R q (1 : Fin 2)).val < 128 := by show ¬ q.val < 128; omega
  rw [dif_neg hn]
  refine congrArg (fun k : Fin 128 => Ideal.logistic (z (ix2 R k))) (Fin.ext ?_)
  show q.val - 128 = q'.val
  omega

/-! ## The two stores of a point: the gate into the right half, the gated message into the left half -/

theorem emb_right (p' : Fin 4000) (q' : Fin 128) :
    (r1_4.emb (ix2 p' q') : S4000x256.Idx) = ix2 p' (⟨128 + q'.val, by have := q'.isLt; omega⟩ : Fin 256) := by
  funext a; apply Fin.ext
  match a with
  | ⟨0, _⟩ => show 0 + 1 * p'.val = p'.val; omega
  | ⟨1, _⟩ => show 128 + 1 * q'.val = 128 + q'.val; omega

theorem emb_left (p' : Fin 4000) (q' : Fin 128) :
    (r1_3.emb (ix2 p' q') : S4000x256.Idx) = ix2 p' (⟨q'.val, by have := q'.isLt; omega⟩ : Fin 256) := by
  funext a; apply Fin.ext
  match a with
  | ⟨0, _⟩ => show 0 + 1 * p'.val = p'.val; omega
  | ⟨1, _⟩ => show 0 + 1 * q'.val = q'.val; omega

/-- The gate of row p of the block. -/
theorem gate_blk (c : Dev nD) (t : Fin cfg1.N) (p : Fin 4000) (q : Fin 128) :
    k1_pay3 (iblk1 V c 0 t) (iblk1 V c 1 t) (iblk1 V c 2 t) (iblk1 V c 3 t) (iblk1 V c 4 t) (ix2 p q) = Ideal.logistic (zA V c (ix2 (erowOf t p) q)) :=
  (pay3_at (iblk1 V c 0 t) (iblk1 V c 1 t) (iblk1 V c 2 t) (iblk1 V c 3 t) (iblk1 V c 4 t) p q).trans (congrArg Ideal.logistic (logits_blk V c t p q))

/-- The gated message of row p of the block. -/
theorem msg_blk (c : Dev nD) (t : Fin cfg1.N) (p : Fin 4000) (q : Fin 128) :
    k1_pay4 (iblk1 V c 0 t) (iblk1 V c 1 t) (iblk1 V c 2 t) (iblk1 V c 3 t) (iblk1 V c 4 t) (iblk1 V c 5 t) (ix2 p q)
      = Ideal.logistic (zA V c (ix2 (erowOf t p) q)) * bsA V c (ix2 (erowOf t p) q) := by
  refine (pay4_at (iblk1 V c 0 t) (iblk1 V c 1 t) (iblk1 V c 2 t) (iblk1 V c 3 t) (iblk1 V c 4 t) (iblk1 V c 5 t) p q).trans ?_
  rw [logits_blk V c t p q, in5_at V c t p q]

/-- Block t of the paired array, as a function of the block's own index. -/
def pairBlk (c : Dev nD) (t : Fin cfg1.N) : S4000x256.Idx → EReal := fun y =>
  Spec.paired (zA V c) (bsA V c) (ix2 (erowOf t ⟨(y 0).val, idx2_lt0 y⟩) (⟨(y 1).val, idx2_lt1 y⟩ : Fin 256))

/-- Each of the two stores holds the part of that block its rectangle names. -/
theorem pieces7 (c : Dev nD) (t : Fin cfg1.N) :
    ∀ pc ∈ ([⟨r1_4, k1_pay3 (iblk1 V c 0 t) (iblk1 V c 1 t) (iblk1 V c 2 t) (iblk1 V c 3 t) (iblk1 V c 4 t)⟩, ⟨r1_3, k1_pay4 (iblk1 V c 0 t) (iblk1 V c 1 t) (iblk1 V c 2 t) (iblk1 V c 3 t) (iblk1 V c 4 t) (iblk1 V c 5 t)⟩] : List (View.Piece (Elt Ideal) S4000x256 .f32)),
      ∀ x : pc.1.shape.Idx, pc.2 x = pairBlk V c t (pc.1.emb x) := by
  intro pc hpc
  rcases List.mem_cons.mp hpc with rfl | hpc
  · intro x
    obtain ⟨p', q', rfl⟩ : ∃ (p' : Fin 4000) (q' : Fin 128), x = ix2 p' q' := ⟨x 0, x 1, eq_ix2 x⟩
    show k1_pay3 (iblk1 V c 0 t) (iblk1 V c 1 t) (iblk1 V c 2 t) (iblk1 V c 3 t) (iblk1 V c 4 t) (ix2 p' q') = pairBlk V c t (r1_4.emb (ix2 p' q'))
    rw [emb_right p' q', gate_blk V c t p' q']
    exact (paired_right (zA V c) (bsA V c) (erowOf t p') _ q' rfl).symm
  · rcases List.mem_cons.mp hpc with rfl | hpc
    · intro x
      obtain ⟨p', q', rfl⟩ : ∃ (p' : Fin 4000) (q' : Fin 128), x = ix2 p' q' := ⟨x 0, x 1, eq_ix2 x⟩
      show k1_pay4 (iblk1 V c 0 t) (iblk1 V c 1 t) (iblk1 V c 2 t) (iblk1 V c 3 t) (iblk1 V c 4 t) (iblk1 V c 5 t) (ix2 p' q') = pairBlk V c t (r1_3.emb (ix2 p' q'))
      rw [emb_left p' q', msg_blk V c t p' q']
      exact (paired_left (zA V c) (bsA V c) (erowOf t p') _ q' rfl).symm
    · exact absurd hpc (List.not_mem_nil)

/-- What point t writes back is block t of the paired array. -/
theorem flushed7_eq (c : Dev nD) (t : Fin cfg1.N) :
    (dat1 V c).flushed 7 t = ((cfg1.win 7).blk t).view.read (Elt Ideal) (Spec.paired (zA V c) (bsA V c)) := by
  show (cfg1.win 7).cut (grid1.coords t) ((dat1 V c).after 7 t) = _
  rw [after1_7]
  unfold out1_7
  simp only [View.ld_unit_zero (S := S4000x128) hz2, View.ld_unit_zero (S := S128x128) hz2, View.ld_unit_zero (S := S128) hz1]
  refine funext fun (j : S4000x256.Idx) => ?_
  obtain ⟨p, q, rfl⟩ : ∃ (p : Fin 4000) (q : Fin 256), j = ix2 p q := ⟨j 0, j 1, eq_ix2 j⟩
  rw [View.read_apply, emb7 t p q]
  show View.canon ([⟨r1_4, k1_pay3 (iblk1 V c 0 t) (iblk1 V c 1 t) (iblk1 V c 2 t) (iblk1 V c 3 t) (iblk1 V c 4 t)⟩, ⟨r1_3, k1_pay4 (iblk1 V c 0 t) (iblk1 V c 1 t) (iblk1 V c 2 t) (iblk1 V c 3 t) (iblk1 V c 4 t) (iblk1 V c 5 t)⟩] : List (View.Piece (Elt Ideal) S4000x256 .f32)) (ix2 p q) = _
  refine (View.canon_apply_of_pieces (pairBlk V c t) _ (pieces7 V c t) (ix2 p q) (cover1_7 _ _ (ix2 p q))).trans ?_
  rfl

/-- An entry lies in point t's block iff its row lies between 4000 t and 4000 t + 3999. -/
theorem mem_blk7 (t : Fin cfg1.N) (i : S800000x256.Idx) :
    i ∈ ((cfg1.win 7).blk t).view.set ↔ ∀ a : Fin 2, win1_7.index t a * S4000x256.size a ≤ (i a).val ∧ (i a).val < win1_7.index t a * S4000x256.size a + S4000x256.size a := by
  show i ∈ ((View.whole main_v22_0).slice (win1_7.rect t)).set ↔ _
  rw [View.set_slice_whole, Rect.mem_set_unit]
  exact Iff.rfl

/-- Every entry is in the block of point (row / 4000). -/
theorem cover7 (i : S800000x256.Idx) : ∃ t : Fin cfg1.N, (cfg1.win 7).flush t = true ∧ i ∈ ((cfg1.win 7).blk t).view.set := by
  have hN : cfg1.N = 200 := N_1
  have h0 : (i 0).val < 800000 := idx2_lt0 i
  have h1 : (i 1).val < 256 := idx2_lt1 i
  obtain ⟨e0, e1⟩ := idx_rows7 ⟨(i 0).val / 4000, by omega⟩
  refine ⟨⟨(i 0).val / 4000, by omega⟩, flush1_7 _, ?_⟩
  rw [mem_blk7]
  intro a
  match a with
  | ⟨0, _⟩ =>
    show win1_7.index ⟨(i 0).val / 4000, _⟩ (0 : Fin 2) * 4000 ≤ (i 0).val ∧ (i 0).val < win1_7.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, _⟩ (1 : Fin 2) * 256 ≤ (i 1).val ∧ (i 1).val < win1_7.index ⟨(i 0).val / 4000, _⟩ (1 : Fin 2) * 256 + 256
    rw [e1]; omega

/-- The paired array after the step. -/
theorem out7 (c : Dev nD) : (dat1 (F := Ideal) V c).arrAt 7 cfg1.N = Spec.paired (zA V c) (bsA V c) :=
  (dat1 V c).arrAt_eq_of_cover 7 (Spec.paired (zA V c) (bsA V c)) (fun t _ => flushed7_eq V c t) cover7

end Cert.Region1

end
-- ==== Proof.Region1.lean ====
/-
  The fused edge step, whole: the four arrays it writes, each as one function of the arrays it reads
  (the paired gate array, the scaled logits, and the two arrays of partial column sums).
-/
import proofs.«133196_j81149112091152_2_alg».proof.Proof.Region1Mid
import proofs.«133196_j81149112091152_2_alg».proof.Proof.Region1Parts
import proofs.«133196_j81149112091152_2_alg».proof.Proof.Region1Pair
-- ==== Proof.Region2Pay.lean ====
/-
  The node pre-mix block body read at an index, on the extended reals: the stored block is
  `(a + num / (den + ε)) · s` entry by entry (the row factor `s` read at the entry's row), and the two
  one-row outputs are the column sums of that block and of its entrywise square over the block's 5000 rows.
  Everything here is over VARIABLES of the literal block types; no window and no array appears.
-/
import proofs.«133196_j81149112091152_2_alg».proof.Proof.Gen.KernelIdeal.Skeleton
import proofs.«133196_j81149112091152_2_alg».proof.Proof.Spec
import Idealize.ShloMosaic.PureOps.Ideal.Laws
import Idealize.ShloMosaic.Lib.ValueIdx
import Idealize.ShloMosaic.Lib.Pipeline.Value

noncomputable section

open scoped BigOperators

namespace Cert.Region2

open Cert.KernelIdeal Cert.KernelIdeal.Gen
open Idealize.ShloMosaic Idealize.ShloMosaic.ValueIdx

/-- The pre-mix of four blocks at an entry `(p, q)` of the block: `(a + num / (den + ε)) · s`, the factor `s`
    taken at row `p` of the one-column block. -/
def mixAt (x0 x1 x2 : Vec Ideal S5000x128 .f32) (x3 : Vec Ideal S5000x1 .f32) (p : Fin 5000) (q : Fin 128) : EReal :=
  (x0 (ix2 p q) + Ideal.div (x1 (ix2 p q)) (x2 (ix2 p q) + Spec.epsGate)) * x3 (ix2 p (0 : Fin 1))

/-- The stored block at `(p, q)` is the pre-mix there: the same-shape casts are the identity, the constant is
    the same word, and the broadcast of the one-column block reads row `p`, column `0`. -/
theorem pay1_apply (x0 x1 x2 : Vec Ideal S5000x128 .f32) (x3 : Vec Ideal S5000x1 .f32) (p : Fin 5000) (q : Fin 128) :
    k2_pay1 (F := Ideal) x0 x1 x2 x3 (ix2 p q) = mixAt x0 x1 x2 x3 p q := by
  unfold k2_pay1 mixAt
  simp only [shapeCast_self]
  show (x0 (ix2 p q) + Ideal.div (x1 (ix2 p q)) (x2 (ix2 p q) + _)) * broadcastTo S5000x128 x3 broadcasts_S5000x1_S5000x128 (ix2 p q) = _
  rw [broadcastTo_apply x3 broadcasts_S5000x1_S5000x128 (ix2 p q) (ix2 p (0 : Fin 1)) (fun a => by
    match a with
    | ⟨0, _⟩ => rfl
    | ⟨1, _⟩ => rfl)]
  rfl

/-- The row the column reduction inserts at: the reduced index `q` with the row `r` put in front. -/
theorem lift_eq (r : Fin 5000) (q : Fin 128) :
    (reduces_S5000x128_S128.lift (ix1 q) r : S5000x128.Idx) = ix2 r q :=
  funext fun a => Fin.ext (by match a with | ⟨0, _⟩ => rfl | ⟨1, _⟩ => rfl)

/-- A column reduction of a block, re-laid as one row of a `[1, 1, 128]` block, read at column `q`: the sum over
    the block's 5000 rows of column `q`. -/
theorem colsum_apply (z : FVec Ideal S5000x128 .f32) (q : Fin 128) :
    shapeCast S1x1x128 (shapeCast S1x128
        (multiReduction (F := Ideal) .add [0] S128 z 0x00000000#32 reduces_S5000x128_S128 (.inl rfl) rfl)
        shapeCasts_S128_S1x128) shapeCasts_S1x128_S1x1x128 (ix3 (0 : Fin 1) (0 : Fin 1) q)
      = ∑ r : Fin 5000, z (ix2 r q) := by
  refine (shapeCast_apply _ shapeCasts_S1x128_S1x1x128 (ix3 (0 : Fin 1) (0 : Fin 1) q) (ix2 (0 : Fin 1) q) ?_).trans ?_
  · rw [Shape.rowMajor_val_two, Shape.rowMajor_val_three]; rfl
  refine (shapeCast_apply _ shapeCasts_S128_S1x128 (ix2 (0 : Fin 1) q) (ix1 q) ?_).trans ?_
  · rw [Shape.rowMajor_val_one, Shape.rowMajor_val_two]
    show q.val = 0 * 128 + q.val
    omega
  refine (Ideal.multiReduction_add_single z _ reduces_S5000x128_S128 (.inl rfl) rfl (ix1 q)).trans ?_
  show ∑ r : Fin 5000, z (reduces_S5000x128_S128.lift (ix1 q) r) = _
  exact Finset.sum_congr rfl fun r _ => congrArg z (lift_eq r q)

/-- The first one-row output at column `q`: the column sum of the stored block. -/
theorem pay2_apply (x0 x1 x2 : Vec Ideal S5000x128 .f32) (x3 : Vec Ideal S5000x1 .f32) (q : Fin 128) :
    k2_pay2 (F := Ideal) x0 x1 x2 x3 (ix3 (0 : Fin 1) (0 : Fin 1) q) = ∑ r : Fin 5000, mixAt x0 x1 x2 x3 r q := by
  unfold k2_pay2
  refine (colsum_apply (k2_pay1 (F := Ideal) x0 x1 x2 x3) q).trans ?_
  exact Finset.sum_congr rfl fun r _ => pay1_apply x0 x1 x2 x3 r q

/-- The second one-row output at column `q`: the column sum of the stored block's entrywise square. -/
theorem pay3_apply (x0 x1 x2 : Vec Ideal S5000x128 .f32) (x3 : Vec Ideal S5000x1 .f32) (q : Fin 128) :
    k2_pay3 (F := Ideal) x0 x1 x2 x3 (ix3 (0 : Fin 1) (0 : Fin 1) q)
      = ∑ r : Fin 5000, mixAt x0 x1 x2 x3 r q * mixAt x0 x1 x2 x3 r q := by
  unfold k2_pay3
  refine (colsum_apply (mulf (k2_pay1 (F := Ideal) x0 x1 x2 x3) (k2_pay1 (F := Ideal) x0 x1 x2 x3)) q).trans ?_
  refine Finset.sum_congr rfl fun r _ => ?_
  rw [mulf_apply, pay1_apply]

end Cert.Region2

end
-- ==== Proof.Region2Blocks.lean ====
/-
  The node pre-mix region, block by block. The region runs over ten points; point `t` reads rows
  `5000 t … 5000 t + 4999` of the four input arrays and writes the same rows of the pre-mixed array, and row `t` of
  each of the two arrays of per-block column sums. Here: each input block as rows of its array, where an output
  block's entry sits in its array, and each point's write-back as the matching block of ONE whole-array function of
  the input arrays as the region finds them (the pre-mix, its per-block column sums, those of its entrywise square).
-/
import proofs.«133196_j81149112091152_2_alg».proof.Proof.KernelIdealFrameP
import proofs.«133196_j81149112091152_2_alg».proof.Proof.Spec
import proofs.«133196_j81149112091152_2_alg».proof.Proof.Region2Pay
import Idealize.ShloMosaic.Lib.Pipeline.Value
import Idealize.ShloMosaic.Lib.ValueIdx

set_option maxRecDepth 16384

noncomputable section

open scoped BigOperators

namespace Cert.Region2

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

/-- The pre-mixed array as a function of the four input arrays as the region finds them. -/
abbrev mid (c : Dev nD) : Spec.Nodes.Idx → EReal :=
  Spec.premix (V c (Pipeline.arrRef spec2 0)) (V c (Pipeline.arrRef spec2 1)) (V c (Pipeline.arrRef spec2 2))
    (V c (Pipeline.arrRef spec2 3))

theorem hz2 : (![0, 0] : Fin 2 → Nat) = fun _ => 0 := funext fun a => by fin_cases a <;> rfl
theorem hz3 : (![0, 0, 0] : Fin 3 → Nat) = fun _ => 0 := funext fun a => by fin_cases a <;> rfl

/-- The region has ten points. -/
theorem pt_lt (t : Fin cfg2.N) : t.val < 10 := lt_of_lt_of_eq t.isLt N_2

/-- Row `p` of point `t`'s block is row `5000 t + p` of the array. -/
def rowAt (t : Fin cfg2.N) (p : Fin 5000) : Fin 50000 := ⟨t.val * 5000 + p.val, by have := pt_lt t; omega⟩

/-- Point `t` as a row of the arrays of per-block sums. -/
def partAt (t : Fin cfg2.N) : Fin 10 := ⟨t.val, pt_lt t⟩

/-- The printed index maps, decided over the ten points: every window's block index is the point on the row axis and
    zero on the others. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 3) = t.val ∧ win2_5.index t (1 : Fin 3) = 0 ∧ win2_5.index t (2 : Fin 3) = 0)
    ∧ (win2_6.index t (0 : Fin 3) = t.val ∧ win2_6.index t (1 : Fin 3) = 0 ∧ win2_6.index t (2 : Fin 3) = 0) :=
  (by decide +kernel : ∀ t : Fin grid2.N, _)

/-! ## The input blocks as rows of the arrays -/

theorem iblk0_apply (c : Dev nD) (t : Fin cfg2.N) (p : Fin 5000) (q : Fin 128) :
    (iblk2 (F := Ideal) V c 0 t : Vec Ideal S5000x128 .f32) (ix2 p q)
      = (V c (Pipeline.arrRef spec2 0) : Spec.Nodes.Idx → EReal) (ix2 (rowAt t p) q) := by
  obtain ⟨⟨e0, e1⟩, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

theorem iblk1_apply (c : Dev nD) (t : Fin cfg2.N) (p : Fin 5000) (q : Fin 128) :
    (iblk2 (F := Ideal) V c 1 t : Vec Ideal S5000x128 .f32) (ix2 p q)
      = (V c (Pipeline.arrRef spec2 1) : Spec.Nodes.Idx → EReal) (ix2 (rowAt t p) q) := by
  obtain ⟨-, ⟨e0, e1⟩, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * q.val = q.val; rw [e1]; omega

theorem iblk2_apply (c : Dev nD) (t : Fin cfg2.N) (p : Fin 5000) (q : Fin 128) :
    (iblk2 (F := Ideal) V c 2 t : Vec Ideal S5000x128 .f32) (ix2 p q)
      = (V c (Pipeline.arrRef spec2 2) : Spec.Nodes.Idx → EReal) (ix2 (rowAt t p) q) := by
  obtain ⟨-, -, ⟨e0, e1⟩, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * p.val = t.val * 5000 + p.val; rw [e0]; omega
  | ⟨1, _⟩ => show win2_2.index t (1 : Fin 2) * 128 + 1 * q.val = q.val; rw [e1]; omega

theorem iblk3_apply (c : Dev nD) (t : Fin cfg2.N) (p : Fin 5000) :
    (iblk2 (F := Ideal) V c 3 t : Vec Ideal S5000x1 .f32) (ix2 p (0 : Fin 1))
      = (V c (Pipeline.arrRef spec2 3) : Spec.NodeCol.Idx → EReal) (ix2 (rowAt t p) (0 : Fin 1)) := by
  obtain ⟨-, -, -, ⟨e0, e1⟩, -⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 5000 + 1 * p.val = t.val * 5000 + p.val; rw [e0]; omega
  | ⟨1, _⟩ => show win2_3.index t (1 : Fin 2) * 1 + 1 * 0 = 0; rw [e1]

/-- The pre-mix of point `t`'s four input blocks at `(p, q)` is the pre-mixed array at row `5000 t + p`, column `q`. -/
theorem mixAt_blocks (c : Dev nD) (t : Fin cfg2.N) (p : Fin 5000) (q : Fin 128) :
    mixAt (iblk2 (F := Ideal) V c 0 t) (iblk2 (F := Ideal) V c 1 t) (iblk2 (F := Ideal) V c 2 t) (iblk2 (F := Ideal) V c 3 t) p q
      = mid V c (ix2 (rowAt t p) q) := by
  unfold mixAt
  rw [iblk0_apply V c t p q, iblk1_apply V c t p q, iblk2_apply V c t p q, iblk3_apply V c t p]
  rfl

/-! ## Where an output block's entry sits in its array -/

theorem emb4 (t : Fin cfg2.N) (p : Fin 5000) (q : Fin 128) :
    (((cfg2.win 4).blk t).view.emb (ix2 p q) : Spec.Nodes.Idx) = ix2 (rowAt t p) q := by
  obtain ⟨-, -, -, -, ⟨e0, e1⟩, -⟩ := idx_facts t
  funext a
  apply Fin.ext
  match a with
  | ⟨0, _⟩ => show win2_4.index t (0 : Fin 2) * 5000 + 1 * p.val = t.val * 5000 + p.val; rw [e0]; omega
  | ⟨1, _⟩ => show win2_4.index t (1 : Fin 2) * 128 + 1 * q.val = q.val; rw [e1]; omega

theorem emb5 (t : Fin cfg2.N) (q : Fin 128) :
    (((cfg2.win 5).blk t).view.emb (ix3 (0 : Fin 1) (0 : Fin 1) q) : Spec.NodeParts.Idx) = ix3 (partAt t) (0 : Fin 1) q := by
  obtain ⟨-, -, -, -, -, ⟨e0, e1, e2⟩, -⟩ := idx_facts t
  funext a
  apply Fin.ext
  match a with
  | ⟨0, _⟩ => show win2_5.index t (0 : Fin 3) * 1 + 1 * 0 = t.val; rw [e0]; omega
  | ⟨1, _⟩ => show win2_5.index t (1 : Fin 3) * 1 + 1 * 0 = 0; rw [e1]
  | ⟨2, _⟩ => show win2_5.index t (2 : Fin 3) * 128 + 1 * q.val = q.val; rw [e2]; omega

theorem emb6 (t : Fin cfg2.N) (q : Fin 128) :
    (((cfg2.win 6).blk t).view.emb (ix3 (0 : Fin 1) (0 : Fin 1) q) : Spec.NodeParts.Idx) = ix3 (partAt t) (0 : Fin 1) q := by
  obtain ⟨-, -, -, -, -, -, ⟨e0, e1, e2⟩⟩ := idx_facts t
  funext a
  apply Fin.ext
  match a with
  | ⟨0, _⟩ => show win2_6.index t (0 : Fin 3) * 1 + 1 * 0 = t.val; rw [e0]; omega
  | ⟨1, _⟩ => show win2_6.index t (1 : Fin 3) * 1 + 1 * 0 = 0; rw [e1]
  | ⟨2, _⟩ => show win2_6.index t (2 : Fin 3) * 128 + 1 * q.val = q.val; rw [e2]; omega

/-- Part `t` of the per-block column sums of an array, at column `q`: the sum over the block's rows. -/
theorem partSums_at (y : Spec.Nodes.Idx → EReal) (t : Fin cfg2.N) (q : Fin 128) :
    Spec.partSumsN y (ix3 (partAt t) (0 : Fin 1) q) = ∑ r : Fin 5000, y (ix2 (rowAt t r) q) := rfl

/-! ## What each point writes back -/

theorem flushed4_eq (c : Dev nD) (t : Fin cfg2.N) :
    (dat2 (F := Ideal) V c).flushed 4 t = ((cfg2.win 4).blk t).view.read (Elt Ideal) (mid V c) := by
  show (cfg2.win 4).cut (grid2.coords t) ((dat2 (F := Ideal) V c).after 4 t) = _
  rw [after2_4]
  unfold out2_4
  rw [View.canon_unit_zero hz2]
  simp only [View.ld_unit_zero (S := S5000x128) hz2, View.ld_unit_zero (S := S5000x1) hz2]
  funext j
  obtain ⟨p, q, rfl⟩ : ∃ (p : Fin 5000) (q : Fin 128), j = ix2 p q := ⟨j 0, j 1, eq_ix2 j⟩
  rw [View.read_apply, emb4 t p q]
  refine (pay1_apply (iblk2 (F := Ideal) V c 0 t) (iblk2 (F := Ideal) V c 1 t) (iblk2 (F := Ideal) V c 2 t) (iblk2 (F := Ideal) V c 3 t) p q).trans ?_
  exact mixAt_blocks V c t p q

theorem flushed5_eq (c : Dev nD) (t : Fin cfg2.N) :
    (dat2 (F := Ideal) V c).flushed 5 t = ((cfg2.win 5).blk t).view.read (Elt Ideal) (Spec.partSumsN (mid V c)) := by
  show (cfg2.win 5).cut (grid2.coords t) ((dat2 (F := Ideal) V c).after 5 t) = _
  rw [after2_5]
  unfold out2_5
  rw [View.canon_unit_zero hz3]
  simp only [View.ld_unit_zero (S := S5000x128) hz2, View.ld_unit_zero (S := S5000x1) hz2]
  funext j
  obtain ⟨a0, a1, q, rfl⟩ : ∃ (a0 : Fin 1) (a1 : Fin 1) (q : Fin 128), j = ix3 a0 a1 q := ⟨j 0, j 1, j 2, eq_ix3 j⟩
  obtain rfl : a0 = 0 := Subsingleton.elim _ _
  obtain rfl : a1 = 0 := Subsingleton.elim _ _
  rw [View.read_apply, emb5 t q]
  refine (pay2_apply (iblk2 (F := Ideal) V c 0 t) (iblk2 (F := Ideal) V c 1 t) (iblk2 (F := Ideal) V c 2 t) (iblk2 (F := Ideal) V c 3 t) q).trans ?_
  refine Eq.trans ?_ (partSums_at (mid V c) t q).symm
  exact Finset.sum_congr rfl fun r _ => mixAt_blocks V c t r q

theorem flushed6_eq (c : Dev nD) (t : Fin cfg2.N) :
    (dat2 (F := Ideal) V c).flushed 6 t = ((cfg2.win 6).blk t).view.read (Elt Ideal) (Spec.partSumsN (Spec.sqN (mid V c))) := by
  show (cfg2.win 6).cut (grid2.coords t) ((dat2 (F := Ideal) V c).after 6 t) = _
  rw [after2_6]
  unfold out2_6
  rw [View.canon_unit_zero hz3]
  simp only [View.ld_unit_zero (S := S5000x128) hz2, View.ld_unit_zero (S := S5000x1) hz2]
  funext j
  obtain ⟨a0, a1, q, rfl⟩ : ∃ (a0 : Fin 1) (a1 : Fin 1) (q : Fin 128), j = ix3 a0 a1 q := ⟨j 0, j 1, j 2, eq_ix3 j⟩
  obtain rfl : a0 = 0 := Subsingleton.elim _ _
  obtain rfl : a1 = 0 := Subsingleton.elim _ _
  rw [View.read_apply, emb6 t q]
  refine (pay3_apply (iblk2 (F := Ideal) V c 0 t) (iblk2 (F := Ideal) V c 1 t) (iblk2 (F := Ideal) V c 2 t) (iblk2 (F := Ideal) V c 3 t) q).trans ?_
  refine Eq.trans ?_ (partSums_at (Spec.sqN (mid V c)) t q).symm
  refine Finset.sum_congr rfl fun r _ => ?_
  rw [mixAt_blocks V c t r q]
  rfl

end Cert.Region2

end
-- ==== Proof.Region2.lean ====
/-
  The node pre-mix region, from its blocks to its arrays: the ten points' blocks cover each output array (row `r` of
  the pre-mixed array is written by point `r / 5000`, row `t` of each array of per-block sums by point `t`), and each
  write-back is the matching block of one whole-array function, so after the last point each output array IS that
  function of the input arrays as the region finds them.
-/
import proofs.«133196_j81149112091152_2_alg».proof.Proof.KernelIdealFrameP
import proofs.«133196_j81149112091152_2_alg».proof.Proof.Spec
import proofs.«133196_j81149112091152_2_alg».proof.Proof.Region2Blocks
import Idealize.ShloMosaic.Lib.Pipeline.Value
import Idealize.ShloMosaic.Lib.ValueIdx

set_option maxRecDepth 16384

noncomputable section

open scoped BigOperators

namespace Cert.Region2

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

/-! ## The blocks cover the arrays -/

theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v28_0).slice (win2_4.rect t)).set ↔ _
  rw [View.set_slice_whole, Rect.mem_set_unit]
  exact Iff.rfl

theorem mem_blk5 (t : Fin cfg2.N) (i : S10x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v28_1).slice (win2_5.rect t)).set ↔ _
  rw [View.set_slice_whole, Rect.mem_set_unit]
  exact Iff.rfl

theorem mem_blk6 (t : Fin cfg2.N) (i : S10x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v28_2).slice (win2_6.rect t)).set ↔ _
  rw [View.set_slice_whole, Rect.mem_set_unit]
  exact Iff.rfl

/-- Row `r` of the pre-mixed array is written by point `r / 5000`. -/
theorem cover4 (i : S50000x128.Idx) :
    ∃ t : Fin cfg2.N, (cfg2.win 4).flush t = true ∧ i ∈ ((cfg2.win 4).blk t).view.set := by
  have h0 : (i 0).val < 50000 := (i 0).isLt
  have h1 : (i 1).val < 128 := (i 1).isLt
  have ht : (i 0).val / 5000 < cfg2.N := by rw [show cfg2.N = 10 from N_2]; omega
  obtain ⟨-, -, -, -, ⟨e0, e1⟩, -⟩ := idx_facts ⟨(i 0).val / 5000, ht⟩
  refine ⟨⟨(i 0).val / 5000, ht⟩, flush2_4 _, ?_⟩
  rw [mem_blk4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    rw [e1]; omega

/-- Row `t` of each array of per-block sums is written by point `t`. -/
theorem cover5 (i : S10x1x128.Idx) :
    ∃ t : Fin cfg2.N, (cfg2.win 5).flush t = true ∧ i ∈ ((cfg2.win 5).blk t).view.set := by
  have h0 : (i 0).val < 10 := (i 0).isLt
  have h1 : (i 1).val < 1 := (i 1).isLt
  have h2 : (i 2).val < 128 := (i 2).isLt
  have ht : (i 0).val < cfg2.N := by rw [show cfg2.N = 10 from N_2]; omega
  obtain ⟨-, -, -, -, -, ⟨e0, e1, e2⟩, -⟩ := idx_facts ⟨(i 0).val, ht⟩
  refine ⟨⟨(i 0).val, ht⟩, flush2_5 _, ?_⟩
  rw [mem_blk5]
  intro a
  match a with
  | ⟨0, _⟩ =>
    show win2_5.index ⟨(i 0).val, ht⟩ (0 : Fin 3) * 1 ≤ (i 0).val ∧ (i 0).val < win2_5.index ⟨(i 0).val, ht⟩ (0 : Fin 3) * 1 + 1
    rw [e0]; show (i 0).val * 1 ≤ (i 0).val ∧ (i 0).val < (i 0).val * 1 + 1; omega
  | ⟨1, _⟩ =>
    show win2_5.index ⟨(i 0).val, ht⟩ (1 : Fin 3) * 1 ≤ (i 1).val ∧ (i 1).val < win2_5.index ⟨(i 0).val, ht⟩ (1 : Fin 3) * 1 + 1
    rw [e1]; omega
  | ⟨2, _⟩ =>
    show win2_5.index ⟨(i 0).val, ht⟩ (2 : Fin 3) * 128 ≤ (i 2).val ∧ (i 2).val < win2_5.index ⟨(i 0).val, ht⟩ (2 : Fin 3) * 128 + 128
    rw [e2]; omega

theorem cover6 (i : S10x1x128.Idx) :
    ∃ t : Fin cfg2.N, (cfg2.win 6).flush t = true ∧ i ∈ ((cfg2.win 6).blk t).view.set := by
  have h0 : (i 0).val < 10 := (i 0).isLt
  have h1 : (i 1).val < 1 := (i 1).isLt
  have h2 : (i 2).val < 128 := (i 2).isLt
  have ht : (i 0).val < cfg2.N := by rw [show cfg2.N = 10 from N_2]; omega
  obtain ⟨-, -, -, -, -, -, ⟨e0, e1, e2⟩⟩ := idx_facts ⟨(i 0).val, ht⟩
  refine ⟨⟨(i 0).val, ht⟩, flush2_6 _, ?_⟩
  rw [mem_blk6]
  intro a
  match a with
  | ⟨0, _⟩ =>
    show win2_6.index ⟨(i 0).val, ht⟩ (0 : Fin 3) * 1 ≤ (i 0).val ∧ (i 0).val < win2_6.index ⟨(i 0).val, ht⟩ (0 : Fin 3) * 1 + 1
    rw [e0]; show (i 0).val * 1 ≤ (i 0).val ∧ (i 0).val < (i 0).val * 1 + 1; omega
  | ⟨1, _⟩ =>
    show win2_6.index ⟨(i 0).val, ht⟩ (1 : Fin 3) * 1 ≤ (i 1).val ∧ (i 1).val < win2_6.index ⟨(i 0).val, ht⟩ (1 : Fin 3) * 1 + 1
    rw [e1]; omega
  | ⟨2, _⟩ =>
    show win2_6.index ⟨(i 0).val, ht⟩ (2 : Fin 3) * 128 ≤ (i 2).val ∧ (i 2).val < win2_6.index ⟨(i 0).val, ht⟩ (2 : Fin 3) * 128 + 128
    rw [e2]; omega

/-! ## The arrays after the region -/

/-- The pre-mixed array. -/
theorem out4 (c : Dev nD) : (dat2 (F := Ideal) V c).arrAt 4 cfg2.N
    = Spec.premix (V c (Pipeline.arrRef spec2 0)) (V c (Pipeline.arrRef spec2 1)) (V c (Pipeline.arrRef spec2 2)) (V c (Pipeline.arrRef spec2 3)) :=
  (dat2 (F := Ideal) V c).arrAt_eq_of_cover 4 (mid V c) (fun t _ => flushed4_eq V c t) cover4

/-- Its per-block column sums. -/
theorem out5 (c : Dev nD) : (dat2 (F := Ideal) V c).arrAt 5 cfg2.N
    = Spec.partSumsN (Spec.premix (V c (Pipeline.arrRef spec2 0)) (V c (Pipeline.arrRef spec2 1)) (V c (Pipeline.arrRef spec2 2)) (V c (Pipeline.arrRef spec2 3))) :=
  (dat2 (F := Ideal) V c).arrAt_eq_of_cover 5 (Spec.partSumsN (mid V c)) (fun t _ => flushed5_eq V c t) cover5

/-- The per-block column sums of its entrywise square. -/
theorem out6 (c : Dev nD) : (dat2 (F := Ideal) V c).arrAt 6 cfg2.N
    = Spec.partSumsN (Spec.sqN (Spec.premix (V c (Pipeline.arrRef spec2 0)) (V c (Pipeline.arrRef spec2 1)) (V c (Pipeline.arrRef spec2 2)) (V c (Pipeline.arrRef spec2 3)))) :=
  (dat2 (F := Ideal) V c).arrAt_eq_of_cover 6 (Spec.partSumsN (Spec.sqN (mid V c))) (fun t _ => flushed6_eq V c t) cover6

end Cert.Region2

end
-- ==== Proof.Region34Pay.lean ====
/-
  The two finishing bodies read at a row and a column: batch normalisation with one mean and one variance per column,
  the affine scale and shift, the rectifier and the residual.
-/
import proofs.«133196_j81149112091152_2_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.Region34

open Cert.KernelIdeal Cert.KernelIdeal.Gen Idealize.ShloMosaic Idealize.ShloMosaic.ValueIdx

/-- The body's value of region 3 at row `p`, column `q`: normalise with the column's mean and variance, scale and shift,
    rectify, and add the residual. -/
theorem finish3_at (var : Vec Ideal S1x128 .f32) (mid : Vec Ideal S5000x128 .f32) (mean : Vec Ideal S1x128 .f32)
    (γ β : Vec Ideal S128 .f32) (xin : Vec Ideal S5000x128 .f32) (p : Fin 5000) (q : Fin 128) :
    k3_pay1 (F := Ideal) var mid mean γ β xin (ix2 p q)
      = xin (ix2 p q) + max ((((mid (ix2 p q) - mean (ix2 (0 : Fin 1) q))
          * Ideal.rsqrt (var (ix2 (0 : Fin 1) q) + Ideal.ofBits .f32 0x3727C5AC#32)) * γ (ix1 q)) + β (ix1 q))
          (Ideal.ofBits .f32 0x00000000#32) := by
  show xin (ix2 p q) + max ((((shapeCast S5000x128 mid shapeCasts_S5000x128_S5000x128 (ix2 p q)
        - broadcastTo S5000x128 (shapeCast S1x128 mean shapeCasts_S1x128_S1x128) broadcasts_S1x128_S5000x128 (ix2 p q))
      * broadcastTo S5000x128 (rsqrt (addf (shapeCast S1x128 var shapeCasts_S1x128_S1x128) (broadcast S1x128 (Scalar.ofBits (F := Ideal) .f32 0x3727C5AC#32)))) broadcasts_S1x128_S5000x128 (ix2 p q))
      * broadcastTo S5000x128 (shapeCast S1x128 γ shapeCasts_S128_S1x128) broadcasts_S1x128_S5000x128 (ix2 p q))
      + broadcastTo S5000x128 (shapeCast S1x128 β shapeCasts_S128_S1x128) broadcasts_S1x128_S5000x128 (ix2 p q))
      (Ideal.ofBits .f32 0x00000000#32) = _
  rw [broadcastTo_1b_ab_apply, broadcastTo_1b_ab_apply, broadcastTo_1b_ab_apply, broadcastTo_1b_ab_apply,
    shapeCast_a_1a_apply, shapeCast_a_1a_apply, shapeCast_self, shapeCast_self, shapeCast_self]
  rfl

/-- The body's value of region 4 at row `p`, column `q`: normalise with the column's mean and variance, scale and shift,
    rectify, and add the residual. -/
theorem finish4_at (var : Vec Ideal S1x128 .f32) (mid : Vec Ideal S10000x128 .f32) (mean : Vec Ideal S1x128 .f32)
    (γ β : Vec Ideal S128 .f32) (xin : Vec Ideal S10000x128 .f32) (p : Fin 10000) (q : Fin 128) :
    k4_pay1 (F := Ideal) var mid mean γ β xin (ix2 p q)
      = xin (ix2 p q) + max ((((mid (ix2 p q) - mean (ix2 (0 : Fin 1) q))
          * Ideal.rsqrt (var (ix2 (0 : Fin 1) q) + Ideal.ofBits .f32 0x3727C5AC#32)) * γ (ix1 q)) + β (ix1 q))
          (Ideal.ofBits .f32 0x00000000#32) := by
  show xin (ix2 p q) + max ((((shapeCast S10000x128 mid shapeCasts_S10000x128_S10000x128 (ix2 p q)
        - broadcastTo S10000x128 (shapeCast S1x128 mean shapeCasts_S1x128_S1x128) broadcasts_S1x128_S10000x128 (ix2 p q))
      * broadcastTo S10000x128 (rsqrt (addf (shapeCast S1x128 var shapeCasts_S1x128_S1x128) (broadcast S1x128 (Scalar.ofBits (F := Ideal) .f32 0x3727C5AC#32)))) broadcasts_S1x128_S10000x128 (ix2 p q))
      * broadcastTo S10000x128 (shapeCast S1x128 γ shapeCasts_S128_S1x128) broadcasts_S1x128_S10000x128 (ix2 p q))
      + broadcastTo S10000x128 (shapeCast S1x128 β shapeCasts_S128_S1x128) broadcasts_S1x128_S10000x128 (ix2 p q))
      (Ideal.ofBits .f32 0x00000000#32) = _
  rw [broadcastTo_1b_ab_apply, broadcastTo_1b_ab_apply, broadcastTo_1b_ab_apply, broadcastTo_1b_ab_apply,
    shapeCast_a_1a_apply, shapeCast_a_1a_apply, shapeCast_self, shapeCast_self, shapeCast_self]
  rfl

end Cert.Region34

end
-- ==== Proof.Region34.lean ====
/-
  Regions 3 and 4: normalise, scale and shift, rectify, add the residual — for the node rows (10 blocks of 5000 rows)
  and for the edge rows (80 blocks of 10000 rows). Each point writes back one block of rows; its entry at a row and a
  column is the finishing formula of the inputs' entries there, and the blocks tile the rows.
-/
import proofs.«133196_j81149112091152_2_alg».proof.Proof.KernelIdealFrameP
import proofs.«133196_j81149112091152_2_alg».proof.Proof.Spec
import proofs.«133196_j81149112091152_2_alg».proof.Proof.Region34Pay
import Idealize.ShloMosaic.Lib.Pipeline.Value
import Idealize.ShloMosaic.Lib.ValueIdx

noncomputable section

open scoped BigOperators

namespace Cert.Region34

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The finishing formula respects equality of each of its six inputs. -/
theorem finish_congr {x x' a a' m m' v v' g g' b b' : EReal} (hx : x = x') (ha : a = a') (hm : m = m') (hv : v = v')
    (hg : g = g') (hb : b = b') (e z : EReal) :
    x + max ((((a - m) * Ideal.rsqrt (v + e)) * g) + b) z = x' + max ((((a' - m') * Ideal.rsqrt (v' + e)) * g') + b') z := by
  rw [hx, ha, hm, hv, hg, hb]

/-! # Region 3: 10 points, blocks of 5000 rows -/

/-- The two row inputs and the output sit at row block `t`, column block 0. -/
theorem idx_rows3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)

/-- The mean, the variance, the scale and the shift are one block each, at every point. -/
theorem idx_small3 : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0 :=
  (by decide +kernel : ∀ t : Fin grid3.N, _)

theorem t_lt3 (t : Fin cfg3.N) : t.val < 10 := by have := t.isLt; have hN : cfg3.N = 10 := N_3; omega

/-- Block `t` of the pre-normalisation rows holds rows `5000 t … 5000 t + 4999`. -/
theorem mid3_at (c : Dev nD) (t : Fin cfg3.N) (p : Fin 5000) (q : Fin 128) :
    (iblk3 V c 0 t : Vec Ideal S5000x128 .f32) (ix2 p q)
      = (V c (Pipeline.arrRef spec3 0) : Spec.Nodes.Idx → EReal) (ix2 (⟨t.val * 5000 + p.val, by have := t_lt3 t; have := p.isLt; omega⟩ : Fin 50000) q) := by
  obtain ⟨e0, e1, -⟩ := idx_rows3 t
  unfold iblk3
  show V c (Pipeline.arrRef spec3 0) (((cfg3.win 0).blk t).view.emb (ix2 p q)) = _
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- So does block `t` of the residual input. -/
theorem xin3_at (c : Dev nD) (t : Fin cfg3.N) (p : Fin 5000) (q : Fin 128) :
    (iblk3 V c 1 t : Vec Ideal S5000x128 .f32) (ix2 p q)
      = (V c (Pipeline.arrRef spec3 1) : Spec.Nodes.Idx → EReal) (ix2 (⟨t.val * 5000 + p.val, by have := t_lt3 t; have := p.isLt; omega⟩ : Fin 50000) q) := by
  obtain ⟨-, -, e0, e1, -⟩ := idx_rows3 t
  unfold iblk3
  show V c (Pipeline.arrRef spec3 1) (((cfg3.win 1).blk t).view.emb (ix2 p q)) = _
  refine congrArg _ (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

/-- The mean's block is the whole row, at every point. -/
theorem mean3_at (c : Dev nD) (t : Fin cfg3.N) (q : Fin 128) :
    (iblk3 V c 2 t : Vec Ideal S1x128 .f32) (ix2 (0 : Fin 1) q) = (V c (Pipeline.arrRef spec3 2) : Spec.Row.Idx → EReal) (ix2 (0 : Fin 1) q) := by
  obtain ⟨e0, e1, -⟩ := idx_small3 t
  unfold iblk3
  show V c (Pipeline.arrRef spec3 2) (((cfg3.win 2).blk t).view.emb (ix2 (0 : Fin 1) q)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-- The variance's block is the whole row, at every point. -/
theorem var3_at (c : Dev nD) (t : Fin cfg3.N) (q : Fin 128) :
    (iblk3 V c 3 t : Vec Ideal S1x128 .f32) (ix2 (0 : Fin 1) q) = (V c (Pipeline.arrRef spec3 3) : Spec.Row.Idx → EReal) (ix2 (0 : Fin 1) q) := by
  obtain ⟨-, -, e0, e1, -⟩ := idx_small3 t
  unfold iblk3
  show V c (Pipeline.arrRef spec3 3) (((cfg3.win 3).blk t).view.emb (ix2 (0 : Fin 1) q)) = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- The scale's block is the whole vector, at every point. -/
theorem gam3_at (c : Dev nD) (t : Fin cfg3.N) (q : Fin 128) :
    (iblk3 V c 4 t : Vec Ideal S128 .f32) (ix1 q) = (V c (Pipeline.arrRef spec3 4) : Spec.Feat.Idx → EReal) (ix1 q) := by
  obtain ⟨-, -, -, -, e0, -⟩ := idx_small3 t
  unfold iblk3
  show V c (Pipeline.arrRef spec3 4) (((cfg3.win 4).blk t).view.emb (ix1 q)) = _
  refine congrArg _ (funext fun a => Fin.ext ?_)
  match a with
  | ⟨0, _⟩ => show win3_4.index t (0 : Fin 1) * 128 + 1 * q.val = q.val; rw [e0]; omega

/-- The shift's block is the whole vector, at every point. -/
theorem bet3_at (c : Dev nD) (t : Fin cfg3.N) (q : Fin 128) :
    (iblk3 V c 5 t : Vec Ideal S128 .f32) (ix1 q) = (V c (Pipeline.arrRef spec3 5) : Spec.Feat.Idx → EReal) (ix1 q) := by
  obtain ⟨-, -, -, -, -, e0⟩ := idx_small3 t
  unfold iblk3
  show V c (Pipeline.arrRef spec3 5) (((cfg3.win 5).blk t).view.emb (ix1 q)) = _
  refine congrArg _ (funext fun a => Fin.ext ?_)
  match a with
  | ⟨0, _⟩ => show win3_5.index t (0 : Fin 1) * 128 + 1 * q.val = q.val; rw [e0]; omega

/-- What point `t` writes back is block `t` of ANY whole-array function `G` that the body's value agrees with, row
    `5000 t + p` against the block's row `p`. -/
theorem flushed3_of (c : Dev nD) (t : Fin cfg3.N) (G : Spec.Nodes.Idx → EReal)
    (hG : ∀ (p : Fin 5000) (q : Fin 128), k3_pay1 (F := Ideal) (iblk3 V c 3 t) (iblk3 V c 0 t) (iblk3 V c 2 t) (iblk3 V c 4 t) (iblk3 V c 5 t) (iblk3 V c 1 t) (ix2 p q)
      = G (ix2 (⟨t.val * 5000 + p.val, by have := t_lt3 t; have := p.isLt; omega⟩ : Fin 50000) q)) :
    (dat3 (F := Ideal) V c).flushed 6 t = ((cfg3.win 6).blk t).view.read (Elt Ideal) G := by
  show (cfg3.win 6).cut (grid3.coords t) ((dat3 V c).after 6 t) = _
  rw [after3_6]
  unfold out3_6
  rw [View.canon_unit_zero hz2]
  simp only [View.ld_unit_zero (S := S5000x128) hz2, View.ld_unit_zero (S := S1x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, e0, e1⟩ := idx_rows3 t
  have hemb : (((cfg3.win 6).blk t).view.emb (ix2 p q) : Spec.Nodes.Idx)
      = ix2 (⟨t.val * 5000 + p.val, by have := t_lt3 t; have := p.isLt; omega⟩ : Fin 50000) q := by
    funext a; apply Fin.ext
    match a with
    | ⟨0, _⟩ => show win3_6.index t (0 : Fin 2) * 5000 + 1 * p.val = t.val * 5000 + p.val; rw [e0]; omega
    | ⟨1, _⟩ => show win3_6.index t (1 : Fin 2) * 128 + 1 * q.val = q.val; rw [e1]; omega
  show k3_pay1 (F := Ideal) (iblk3 V c 3 t) (iblk3 V c 0 t) (iblk3 V c 2 t) (iblk3 V c 4 t) (iblk3 V c 5 t) (iblk3 V c 1 t) (ix2 p q) = G (((cfg3.win 6).blk t).view.emb (ix2 p q))
  exact (hG p q).trans (congrArg G hemb).symm

/-- The finishing map of whole arrays at a row and a column, spelt out. -/
theorem finishN_at (mid xin : Spec.Nodes.Idx → EReal) (mean var : Spec.Row.Idx → EReal) (γ β : Spec.Feat.Idx → EReal)
    (r : Fin 50000) (q : Fin 128) :
    Spec.finishN mid xin mean var γ β (ix2 r q)
      = xin (ix2 r q) + max ((((mid (ix2 r q) - mean (ix2 (0 : Fin 1) q))
          * Ideal.rsqrt (var (ix2 (0 : Fin 1) q) + Ideal.ofBits .f32 0x3727C5AC#32)) * γ (ix1 q)) + β (ix1 q))
          (Ideal.ofBits .f32 0x00000000#32) := rfl

/-- What point `t` writes back is block `t` of the finishing map of the whole arrays. -/
theorem flushed3 (c : Dev nD) (t : Fin cfg3.N) :
    (dat3 (F := Ideal) V c).flushed 6 t = ((cfg3.win 6).blk t).view.read (Elt Ideal)
      (Spec.finishN (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) :=
  flushed3_of V c t _ fun p q =>
    (finish3_at (iblk3 V c 3 t) (iblk3 V c 0 t) (iblk3 V c 2 t) (iblk3 V c 4 t) (iblk3 V c 5 t) (iblk3 V c 1 t) p q).trans
      ((finish_congr (xin3_at V c t p q) (mid3_at V c t p q) (mean3_at V c t q) (var3_at V c t q) (gam3_at V c t q) (bet3_at V c t q) _ _).trans
        (finishN_at (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) _ q).symm)

/-- An index of the array is in point `t`'s block iff each coordinate is in the block's range on its axis. -/
theorem mem_blk3 (t : Fin cfg3.N) (i : Spec.Nodes.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v49).slice (win3_6.rect t)).set ↔ _
  rw [View.set_slice_whole, Rect.mem_set_unit]
  exact Iff.rfl

/-- Every row is in the block of the point `row / 5000`. -/
theorem cover3 (i : Spec.Nodes.Idx) : ∃ t : Fin cfg3.N, (cfg3.win 6).flush t = true ∧ i ∈ ((cfg3.win 6).blk t).view.set := by
  have hi0 : (i 0).val < 50000 := idx2_lt0 i
  have hi1 : (i 1).val < 128 := idx2_lt1 i
  have hN : cfg3.N = 10 := N_3
  refine ⟨⟨(i 0).val / 5000, by omega⟩, flush3_6 _, ?_⟩
  rw [mem_blk3]
  obtain ⟨-, -, -, -, e0, e1⟩ := idx_rows3 ⟨(i 0).val / 5000, by omega⟩
  intro a
  match a with
  | ⟨0, _⟩ => show win3_6.index _ (0 : Fin 2) * 5000 ≤ (i 0).val ∧ (i 0).val < win3_6.index _ (0 : Fin 2) * 5000 + 5000; rw [e0]; show (i 0).val / 5000 * 5000 ≤ (i 0).val ∧ (i 0).val < (i 0).val / 5000 * 5000 + 5000; omega
  | ⟨1, _⟩ => show win3_6.index _ (1 : Fin 2) * 128 ≤ (i 1).val ∧ (i 1).val < win3_6.index _ (1 : Fin 2) * 128 + 128; rw [e1]; omega

/-- The output array after region 3: the finishing map of the region's six input arrays, entry by entry. -/
theorem out3 (c : Dev nD) : (dat3 (F := Ideal) V c).arrAt 6 cfg3.N
    = Spec.finishN (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3 V c t) cover3

/-! # Region 4: 80 points, blocks of 10000 rows -/

/-- The two row inputs and the output sit at row block `t`, column block 0. -/
theorem idx_rows4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0 :=
  (by decide +kernel : ∀ t : Fin grid4.N, _)

/-- The mean, the variance, the scale and the shift are one block each, at every point. -/
theorem idx_small4 : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 1) = 0 ∧ win4_5.index t (0 : Fin 1) = 0 :=
  (by decide +kernel : ∀ t : Fin grid4.N, _)

theorem t_lt4 (t : Fin cfg4.N) : t.val < 80 := by have := t.isLt; have hN : cfg4.N = 80 := N_4; omega

/-- Block `t` of the pre-normalisation rows holds rows `10000 t … 10000 t + 9999`. -/
theorem mid4_at (c : Dev nD) (t : Fin cfg4.N) (p : Fin 10000) (q : Fin 128) :
    (iblk4 V c 0 t : Vec Ideal S10000x128 .f32) (ix2 p q)
      = (V c (Pipeline.arrRef spec4 0) : Spec.Edges.Idx → EReal) (ix2 (⟨t.val * 10000 + p.val, by have := t_lt4 t; have := p.isLt; omega⟩ : Fin 800000) q) := by
  obtain ⟨e0, e1, -⟩ := idx_rows4 t
  unfold iblk4
  show V c (Pipeline.arrRef spec4 0) (((cfg4.win 0).blk t).view.emb (ix2 p q)) = _
  refine congrArg _ (funext fun a => Fin.ext ?_)
  match a with
  | ⟨0, _⟩ => show win4_0.index t (0 : Fin 2) * 10000 + 1 * p.val = t.val * 10000 + p.val; rw [e0]; omega
  | ⟨1, _⟩ => show win4_0.index t (1 : Fin 2) * 128 + 1 * q.val = q.val; rw [e1]; omega

/-- So does block `t` of the residual input. -/
theorem xin4_at (c : Dev nD) (t : Fin cfg4.N) (p : Fin 10000) (q : Fin 128) :
    (iblk4 V c 1 t : Vec Ideal S10000x128 .f32) (ix2 p q)
      = (V c (Pipeline.arrRef spec4 1) : Spec.Edges.Idx → EReal) (ix2 (⟨t.val * 10000 + p.val, by have := t_lt4 t; have := p.isLt; omega⟩ : Fin 800000) q) := by
  obtain ⟨-, -, e0, e1, -⟩ := idx_rows4 t
  unfold iblk4
  show V c (Pipeline.arrRef spec4 1) (((cfg4.win 1).blk t).view.emb (ix2 p q)) = _
  refine congrArg _ (funext fun a => Fin.ext ?_)
  match a with
  | ⟨0, _⟩ => show win4_1.index t (0 : Fin 2) * 10000 + 1 * p.val = t.val * 10000 + p.val; rw [e0]; omega
  | ⟨1, _⟩ => show win4_1.index t (1 : Fin 2) * 128 + 1 * q.val = q.val; rw [e1]; omega

/-- The mean's block is the whole row, at every point. -/
theorem mean4_at (c : Dev nD) (t : Fin cfg4.N) (q : Fin 128) :
    (iblk4 V c 2 t : Vec Ideal S1x128 .f32) (ix2 (0 : Fin 1) q) = (V c (Pipeline.arrRef spec4 2) : Spec.Row.Idx → EReal) (ix2 (0 : Fin 1) q) := by
  obtain ⟨e0, e1, -⟩ := idx_small4 t
  unfold iblk4
  show V c (Pipeline.arrRef spec4 2) (((cfg4.win 2).blk t).view.emb (ix2 (0 : Fin 1) q)) = _
  refine congrArg _ (funext fun a => Fin.ext ?_)
  match a with
  | ⟨0, _⟩ => show win4_2.index t (0 : Fin 2) * 1 + 1 * 0 = 0; rw [e0]
  | ⟨1, _⟩ => show win4_2.index t (1 : Fin 2) * 128 + 1 * q.val = q.val; rw [e1]; omega

/-- The variance's block is the whole row, at every point. -/
theorem var4_at (c : Dev nD) (t : Fin cfg4.N) (q : Fin 128) :
    (iblk4 V c 3 t : Vec Ideal S1x128 .f32) (ix2 (0 : Fin 1) q) = (V c (Pipeline.arrRef spec4 3) : Spec.Row.Idx → EReal) (ix2 (0 : Fin 1) q) := by
  obtain ⟨-, -, e0, e1, -⟩ := idx_small4 t
  unfold iblk4
  show V c (Pipeline.arrRef spec4 3) (((cfg4.win 3).blk t).view.emb (ix2 (0 : Fin 1) q)) = _
  refine congrArg _ (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

/-- The scale's block is the whole vector, at every point. -/
theorem gam4_at (c : Dev nD) (t : Fin cfg4.N) (q : Fin 128) :
    (iblk4 V c 4 t : Vec Ideal S128 .f32) (ix1 q) = (V c (Pipeline.arrRef spec4 4) : Spec.Feat.Idx → EReal) (ix1 q) := by
  obtain ⟨-, -, -, -, e0, -⟩ := idx_small4 t
  unfold iblk4
  show V c (Pipeline.arrRef spec4 4) (((cfg4.win 4).blk t).view.emb (ix1 q)) = _
  refine congrArg _ (funext fun a => Fin.ext ?_)
  match a with
  | ⟨0, _⟩ => show win4_4.index t (0 : Fin 1) * 128 + 1 * q.val = q.val; rw [e0]; omega

/-- The shift's block is the whole vector, at every point. -/
theorem bet4_at (c : Dev nD) (t : Fin cfg4.N) (q : Fin 128) :
    (iblk4 V c 5 t : Vec Ideal S128 .f32) (ix1 q) = (V c (Pipeline.arrRef spec4 5) : Spec.Feat.Idx → EReal) (ix1 q) := by
  obtain ⟨-, -, -, -, -, e0⟩ := idx_small4 t
  unfold iblk4
  show V c (Pipeline.arrRef spec4 5) (((cfg4.win 5).blk t).view.emb (ix1 q)) = _
  refine congrArg _ (funext fun a => Fin.ext ?_)
  match a with
  | ⟨0, _⟩ => show win4_5.index t (0 : Fin 1) * 128 + 1 * q.val = q.val; rw [e0]; omega

/-- What point `t` writes back is block `t` of ANY whole-array function `G` that the body's value agrees with, row
    `10000 t + p` against the block's row `p`. -/
theorem flushed4_of (c : Dev nD) (t : Fin cfg4.N) (G : Spec.Edges.Idx → EReal)
    (hG : ∀ (p : Fin 10000) (q : Fin 128), k4_pay1 (F := Ideal) (iblk4 V c 3 t) (iblk4 V c 0 t) (iblk4 V c 2 t) (iblk4 V c 4 t) (iblk4 V c 5 t) (iblk4 V c 1 t) (ix2 p q)
      = G (ix2 (⟨t.val * 10000 + p.val, by have := t_lt4 t; have := p.isLt; omega⟩ : Fin 800000) q)) :
    (dat4 (F := Ideal) V c).flushed 6 t = ((cfg4.win 6).blk t).view.read (Elt Ideal) G := by
  show (cfg4.win 6).cut (grid4.coords t) ((dat4 V c).after 6 t) = _
  rw [after4_6]
  unfold out4_6
  rw [View.canon_unit_zero hz2]
  simp only [View.ld_unit_zero (S := S10000x128) hz2, View.ld_unit_zero (S := S1x128) hz2, View.ld_unit_zero (S := S128) hz1]
  funext j
  obtain ⟨p, q, rfl⟩ : ∃ (p : Fin 10000) (q : Fin 128), j = ix2 p q := ⟨j 0, j 1, eq_ix2 j⟩
  obtain ⟨-, -, -, -, e0, e1⟩ := idx_rows4 t
  have hemb : (((cfg4.win 6).blk t).view.emb (ix2 p q) : Spec.Edges.Idx)
      = ix2 (⟨t.val * 10000 + p.val, by have := t_lt4 t; have := p.isLt; omega⟩ : Fin 800000) q := by
    funext a; apply Fin.ext
    match a with
    | ⟨0, _⟩ => show win4_6.index t (0 : Fin 2) * 10000 + 1 * p.val = t.val * 10000 + p.val; rw [e0]; omega
    | ⟨1, _⟩ => show win4_6.index t (1 : Fin 2) * 128 + 1 * q.val = q.val; rw [e1]; omega
  show k4_pay1 (F := Ideal) (iblk4 V c 3 t) (iblk4 V c 0 t) (iblk4 V c 2 t) (iblk4 V c 4 t) (iblk4 V c 5 t) (iblk4 V c 1 t) (ix2 p q) = G (((cfg4.win 6).blk t).view.emb (ix2 p q))
  exact (hG p q).trans (congrArg G hemb).symm

/-- The finishing map of whole arrays at a row and a column, spelt out. -/
theorem finishE_at (mid xin : Spec.Edges.Idx → EReal) (mean var : Spec.Row.Idx → EReal) (γ β : Spec.Feat.Idx → EReal)
    (r : Fin 800000) (q : Fin 128) :
    Spec.finishE mid xin mean var γ β (ix2 r q)
      = xin (ix2 r q) + max ((((mid (ix2 r q) - mean (ix2 (0 : Fin 1) q))
          * Ideal.rsqrt (var (ix2 (0 : Fin 1) q) + Ideal.ofBits .f32 0x3727C5AC#32)) * γ (ix1 q)) + β (ix1 q))
          (Ideal.ofBits .f32 0x00000000#32) := rfl

/-- What point `t` writes back is block `t` of the finishing map of the whole arrays. -/
theorem flushed4 (c : Dev nD) (t : Fin cfg4.N) :
    (dat4 (F := Ideal) V c).flushed 6 t = ((cfg4.win 6).blk t).view.read (Elt Ideal)
      (Spec.finishE (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  flushed4_of V c t _ fun p q =>
    (finish4_at (iblk4 V c 3 t) (iblk4 V c 0 t) (iblk4 V c 2 t) (iblk4 V c 4 t) (iblk4 V c 5 t) (iblk4 V c 1 t) p q).trans
      ((finish_congr (xin4_at V c t p q) (mid4_at V c t p q) (mean4_at V c t q) (var4_at V c t q) (gam4_at V c t q) (bet4_at V c t q) _ _).trans
        (finishE_at (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) _ q).symm)

/-- An index of the array is in point `t`'s block iff each coordinate is in the block's range on its axis. -/
theorem mem_blk4 (t : Fin cfg4.N) (i : Spec.Edges.Idx) :
    i ∈ ((cfg4.win 6).blk t).view.set ↔ ∀ a : Fin 2, win4_6.index t a * S10000x128.size a ≤ (i a).val ∧ (i a).val < win4_6.index t a * S10000x128.size a + S10000x128.size a := by
  show i ∈ ((View.whole main_v50).slice (win4_6.rect t)).set ↔ _
  rw [View.set_slice_whole, Rect.mem_set_unit]
  exact Iff.rfl

/-- Every row is in the block of the point `row / 10000`. -/
theorem cover4 (i : Spec.Edges.Idx) : ∃ t : Fin cfg4.N, (cfg4.win 6).flush t = true ∧ i ∈ ((cfg4.win 6).blk t).view.set := by
  have hi0 : (i 0).val < 800000 := idx2_lt0 i
  have hi1 : (i 1).val < 128 := idx2_lt1 i
  have hN : cfg4.N = 80 := N_4
  refine ⟨⟨(i 0).val / 10000, by omega⟩, flush4_6 _, ?_⟩
  rw [mem_blk4]
  obtain ⟨-, -, -, -, e0, e1⟩ := idx_rows4 ⟨(i 0).val / 10000, by omega⟩
  intro a
  match a with
  | ⟨0, _⟩ => show win4_6.index _ (0 : Fin 2) * 10000 ≤ (i 0).val ∧ (i 0).val < win4_6.index _ (0 : Fin 2) * 10000 + 10000; rw [e0]; show (i 0).val / 10000 * 10000 ≤ (i 0).val ∧ (i 0).val < (i 0).val / 10000 * 10000 + 10000; omega
  | ⟨1, _⟩ => show win4_6.index _ (1 : Fin 2) * 128 ≤ (i 1).val ∧ (i 1).val < win4_6.index _ (1 : Fin 2) * 128 + 128; rw [e1]; omega

/-- The output array after region 4: the finishing map of the region's six input arrays, entry by entry. -/
theorem out4 (c : Dev nD) : (dat4 (F := Ideal) V c).arrAt 6 cfg4.N
    = Spec.finishE (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6 _ (fun t _ => flushed4 V c t) cover4

end Cert.Region34

end
-- ==== Proof.KernelValue.lean ====
/-
  What the idealized kernel computes, as one composition: the four node projections, the three gathers, the edge
  path (logits, the gated pair, the scaled logits and their per-block column sums), the aggregation and its halves,
  the node pre-mix and its per-block column sums, the column statistics, and the two normalised, rectified residual
  results. Each lemma reads one buffer at one boundary of @main as a function of the launch memory.
-/
import proofs.«133196_j81149112091152_2_alg».proof.Proof.KernelChain
import proofs.«133196_j81149112091152_2_alg».proof.Proof.KernelDefs
import proofs.«133196_j81149112091152_2_alg».proof.Proof.Region0
import proofs.«133196_j81149112091152_2_alg».proof.Proof.Region1
import proofs.«133196_j81149112091152_2_alg».proof.Proof.Region2
import proofs.«133196_j81149112091152_2_alg».proof.Proof.Region34
import proofs.«133196_j81149112091152_2_alg».proof.Proof.Spec

set_option maxRecDepth 16384

noncomputable section

namespace Cert.KernelValue

open Cert.KernelIdeal Cert.KernelIdeal.Gen Cert.KernelHost Cert.KernelChain
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## Region 0: the projections -/

theorem W1_nodeA : W1 m ρ c (Proc.devRef .tc main_v0_0) = nodeA m c := (W1_arr m ρ c 9).trans (Cert.Region0.out9 (V0 m ρ) c)
theorem W1_nodeB : W1 m ρ c (Proc.devRef .tc main_v0_1) = nodeB m c := (W1_arr m ρ c 10).trans (Cert.Region0.out10 (V0 m ρ) c)
theorem W1_nodeD : W1 m ρ c (Proc.devRef .tc main_v0_2) = nodeD m c := (W1_arr m ρ c 11).trans (Cert.Region0.out11 (V0 m ρ) c)
theorem W1_nodeE : W1 m ρ c (Proc.devRef .tc main_v0_3) = nodeE m c := (W1_arr m ρ c 12).trans (Cert.Region0.out12 (V0 m ρ) c)

/-! ## The gathers -/

theorem W2_srcD : W2 m ρ c (Proc.devRef .tc main_v7) = srcD m c := by
  show StableHlo.after hostOps1 (W1 m ρ c) (Proc.devRef .tc main_v7) = _
  rw [gatherD, W1_nodeD, W1_arg2]; rfl
theorem W2_dstE : W2 m ρ c (Proc.devRef .tc main_v14) = dstE m c := by
  show StableHlo.after hostOps1 (W1 m ρ c) (Proc.devRef .tc main_v14) = _
  rw [gatherE, W1_nodeE, W1_arg3]; rfl
theorem W2_srcB : W2 m ρ c (Proc.devRef .tc main_v21) = srcB m c := by
  show StableHlo.after hostOps1 (W1 m ρ c) (Proc.devRef .tc main_v21) = _
  rw [gatherB, W1_nodeB, W1_arg2]; rfl

/-! ## Region 1: the edge path -/

section Region1Reads
variable (X : Spec.Edges.Idx → EReal)

theorem V2_e : V2 m ρ c (Pipeline.arrRef spec1 0) = m ((c : Thread nD τ).loc main_arg1) := W2_arg1 m ρ c
theorem V2_wc : V2 m ρ c (Pipeline.arrRef spec1 1) = m ((c : Thread nD τ).loc main_arg10) := W2_arg10 m ρ c
theorem V2_bc : V2 m ρ c (Pipeline.arrRef spec1 2) = m ((c : Thread nD τ).loc main_arg11) := W2_arg11 m ρ c
theorem V2_srcD : V2 m ρ c (Pipeline.arrRef spec1 3) = srcD m c := W2_srcD m ρ c
theorem V2_dstE : V2 m ρ c (Pipeline.arrRef spec1 4) = dstE m c := W2_dstE m ρ c
theorem V2_srcB : V2 m ρ c (Pipeline.arrRef spec1 5) = srcB m c := W2_srcB m ρ c
theorem V2_se : V2 m ρ c (Pipeline.arrRef spec1 6) = m ((c : Thread nD τ).loc main_arg5) := W2_arg5 m ρ c
end Region1Reads

theorem W3_pair : W3 m ρ c (Proc.devRef .tc main_v22_0) = Spec.paired (z m c) (srcB m c) := by
  refine (W3_arr m ρ c 7).trans ((Cert.Region1.out7 (V2 m ρ) c).trans ?_)
  dsimp only [Cert.Region1.zA, Cert.Region1.midA, Cert.Region1.eA, Cert.Region1.wA, Cert.Region1.bA, Cert.Region1.dsA, Cert.Region1.edA, Cert.Region1.bsA, Cert.Region1.snA]
  rw [V2_e, V2_wc, V2_bc, V2_srcD, V2_dstE, V2_srcB]; rfl
theorem W3_edgeMid : W3 m ρ c (Proc.devRef .tc main_v22_1) = edgeMid m c := by
  refine (W3_arr m ρ c 8).trans ((Cert.Region1.out8 (V2 m ρ) c).trans ?_)
  dsimp only [Cert.Region1.zA, Cert.Region1.midA, Cert.Region1.eA, Cert.Region1.wA, Cert.Region1.bA, Cert.Region1.dsA, Cert.Region1.edA, Cert.Region1.bsA, Cert.Region1.snA]
  rw [V2_e, V2_wc, V2_bc, V2_srcD, V2_dstE, V2_se]; rfl
theorem W3_sumE : W3 m ρ c (Proc.devRef .tc main_v22_2) = Spec.partSumsE (edgeMid m c) := by
  refine (W3_arr m ρ c 9).trans ((Cert.Region1.out9 (V2 m ρ) c).trans ?_)
  dsimp only [Cert.Region1.zA, Cert.Region1.midA, Cert.Region1.eA, Cert.Region1.wA, Cert.Region1.bA, Cert.Region1.dsA, Cert.Region1.edA, Cert.Region1.bsA, Cert.Region1.snA]
  rw [V2_e, V2_wc, V2_bc, V2_srcD, V2_dstE, V2_se]; rfl
theorem W3_sqSumE : W3 m ρ c (Proc.devRef .tc main_v22_3) = Spec.partSumsE (Spec.sqE (edgeMid m c)) := by
  refine (W3_arr m ρ c 10).trans ((Cert.Region1.out10 (V2 m ρ) c).trans ?_)
  dsimp only [Cert.Region1.zA, Cert.Region1.midA, Cert.Region1.eA, Cert.Region1.wA, Cert.Region1.bA, Cert.Region1.dsA, Cert.Region1.edA, Cert.Region1.bsA, Cert.Region1.snA]
  rw [V2_e, V2_wc, V2_bc, V2_srcD, V2_dstE, V2_se]; rfl

/-! ## The aggregation -/

theorem W4_num : W4 m ρ c (Proc.devRef .tc main_v26) = num m c := by
  show StableHlo.after hostOps2 (W3 m ρ c) (Proc.devRef .tc main_v26) = _
  rw [numer, W3_pair, W3_arg3]; rfl
theorem W4_den : W4 m ρ c (Proc.devRef .tc main_v27) = den m c := by
  show StableHlo.after hostOps2 (W3 m ρ c) (Proc.devRef .tc main_v27) = _
  rw [denom, W3_pair, W3_arg3]; rfl

/-! ## Region 2: the node pre-mix -/

theorem V4_a : V4 m ρ c (Pipeline.arrRef spec2 0) = nodeA m c := (W4_v0_0 m ρ c).trans (W1_nodeA m ρ c)
theorem V4_num : V4 m ρ c (Pipeline.arrRef spec2 1) = num m c := W4_num m ρ c
theorem V4_den : V4 m ρ c (Pipeline.arrRef spec2 2) = den m c := W4_den m ρ c
theorem V4_sn : V4 m ρ c (Pipeline.arrRef spec2 3) = m ((c : Thread nD τ).loc main_arg4) := W4_arg4 m ρ c

theorem W5_nodeMid : W5 m ρ c (Proc.devRef .tc main_v28_0) = nodeMid m c := by
  refine (W5_arr m ρ c 4).trans ((Cert.Region2.out4 (V4 m ρ) c).trans ?_)
  rw [V4_a, V4_num, V4_den, V4_sn]; rfl
theorem W5_sumN : W5 m ρ c (Proc.devRef .tc main_v28_1) = Spec.partSumsN (nodeMid m c) := by
  refine (W5_arr m ρ c 5).trans ((Cert.Region2.out5 (V4 m ρ) c).trans ?_)
  rw [V4_a, V4_num, V4_den, V4_sn]; rfl
theorem W5_sqSumN : W5 m ρ c (Proc.devRef .tc main_v28_2) = Spec.partSumsN (Spec.sqN (nodeMid m c)) := by
  refine (W5_arr m ρ c 6).trans ((Cert.Region2.out6 (V4 m ρ) c).trans ?_)
  rw [V4_a, V4_num, V4_den, V4_sn]; rfl

/-! ## The column statistics -/

theorem W6_meanN : W6 m ρ c (Proc.devRef .tc main_v32) = meanN m c := by
  show StableHlo.after hostOps3 (W5 m ρ c) (Proc.devRef .tc main_v32) = _
  rw [KernelHost.meanN, W5_sumN]; rfl
theorem W6_varN : W6 m ρ c (Proc.devRef .tc main_v38) = varN m c := by
  show StableHlo.after hostOps3 (W5 m ρ c) (Proc.devRef .tc main_v38) = _
  rw [KernelHost.varN, W5_sumN, W5_sqSumN]; rfl
theorem W6_meanE : W6 m ρ c (Proc.devRef .tc main_v42) = meanE m c := by
  show StableHlo.after hostOps3 (W5 m ρ c) (Proc.devRef .tc main_v42) = _
  rw [KernelHost.meanE, W5_v22_2, W3_sumE]; rfl
theorem W6_varE : W6 m ρ c (Proc.devRef .tc main_v48) = varE m c := by
  show StableHlo.after hostOps3 (W5 m ρ c) (Proc.devRef .tc main_v48) = _
  rw [KernelHost.varE, W5_v22_2, W5_v22_3, W3_sumE, W3_sqSumE]; rfl

/-! ## Regions 3 and 4: the two results -/

theorem V6_mid : V6 m ρ c (Pipeline.arrRef spec3 0) = nodeMid m c := (W6_v28_0 m ρ c).trans (W5_nodeMid m ρ c)
theorem V6_x : V6 m ρ c (Pipeline.arrRef spec3 1) = m ((c : Thread nD τ).loc main_arg0) := W6_arg0 m ρ c
theorem V6_mean : V6 m ρ c (Pipeline.arrRef spec3 2) = meanN m c := W6_meanN m ρ c
theorem V6_var : V6 m ρ c (Pipeline.arrRef spec3 3) = varN m c := W6_varN m ρ c
theorem V6_gamma : V6 m ρ c (Pipeline.arrRef spec3 4) = m ((c : Thread nD τ).loc main_arg16) := W6_arg16 m ρ c
theorem V6_beta : V6 m ρ c (Pipeline.arrRef spec3 5) = m ((c : Thread nD τ).loc main_arg17) := W6_arg17 m ρ c

/-- The first result: the node output. -/
theorem W8_outN : W8 m ρ c (Proc.devRef .tc main_v49) = outN m c := by
  refine (W8_v49 m ρ c).trans ((W7_arr m ρ c 6).trans ((Cert.Region34.out3 (V6 m ρ) c).trans ?_))
  rw [V6_mid, V6_x, V6_mean, V6_var, V6_gamma, V6_beta]; rfl

theorem V7_mid : V7 m ρ c (Pipeline.arrRef spec4 0) = edgeMid m c := (W7_v22_1 m ρ c).trans (W3_edgeMid m ρ c)
theorem V7_x : V7 m ρ c (Pipeline.arrRef spec4 1) = m ((c : Thread nD τ).loc main_arg1) := W7_arg1 m ρ c
theorem V7_mean : V7 m ρ c (Pipeline.arrRef spec4 2) = meanE m c := (W7_v42 m ρ c).trans (W6_meanE m ρ c)
theorem V7_var : V7 m ρ c (Pipeline.arrRef spec4 3) = varE m c := (W7_v48 m ρ c).trans (W6_varE m ρ c)
theorem V7_gamma : V7 m ρ c (Pipeline.arrRef spec4 4) = m ((c : Thread nD τ).loc main_arg18) := W7_arg18 m ρ c
theorem V7_beta : V7 m ρ c (Pipeline.arrRef spec4 5) = m ((c : Thread nD τ).loc main_arg19) := W7_arg19 m ρ c

/-- The second result: the edge output. -/
theorem W8_outE : W8 m ρ c (Proc.devRef .tc main_v50) = outE m c := by
  refine (W8_arr m ρ c 6).trans ((Cert.Region34.out4 (V7 m ρ) c).trans ?_)
  rw [V7_mid, V7_x, V7_mean, V7_var, V7_gamma, V7_beta]; rfl

end Cert.KernelValue

end
-- ==== Proof.RefRunOps.lean ====
/- The reference program's operations, copied line by line from its printed form into lists: nine consecutive
   stretches wA … wI (a called function's lines stand at its call, over the call's buffer record), and beside each
   the buffers its operations write, in order. A table: nothing is proved in this module. -/
import proofs.«133196_j81149112091152_2_alg».proof.ReferenceIdeal
import proofs.«133196_j81149112091152_2_alg».proof.Proof.Gen.ReferenceIdeal
import Idealize.ShloMosaic.Lib.StableHlo.Run

set_option maxRecDepth 8192

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev wA : List (HloOp τ sig (Elt F)) :=
  [ StableHlo.binary main_arg0 main_arg6 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg0 main_arg8 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.binary main_arg1 main_arg10 main_v8 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg11 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S800000x128 ![0, 1] bcast_S1x128_S800000x128_0_1 : (⟨S1x128, .f32⟩ : BufTy).Contents (Elt F) → (⟨S800000x128, .f32⟩ : BufTy).Contents (Elt F)),
    StableHlo.binary main_v8 main_v10 main_v11 (addf : (⟨S800000x128, .f32⟩ : BufTy).Contents (Elt F) → (⟨S800000x128, .f32⟩ : BufTy).Contents (Elt F) → (⟨S800000x128, .f32⟩ : BufTy).Contents (Elt F)),
    StableHlo.binary main_arg0 main_arg12 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.binary main_arg0 main_arg14 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)) ]

abbrev wA_W : List (Ref sig .tc) :=
  [main_v0, main_v1, main_v2, main_v3, main_v4, main_v5, main_v6, main_v7, main_v8, main_v9, main_v10, main_v11, main_v12, main_v13, main_v14, main_v15, main_v16, main_v17, main_v18, main_v19]

-- kinds of wA: buubbuubbuubbuubbuub

abbrev wB : List (HloOp τ sig (Elt F)) :=
  [ StableHlo.nullary main_c (constantI S_ 32 0#32),
    StableHlo.unary main_c main_v20 (broadcastInDim S800000 ![] bcast_S_S800000 : (⟨S_, .i32⟩ : BufTy).Contents (Elt F) → (⟨S800000, .i32⟩ : BufTy).Contents (Elt F)),
    StableHlo.binary main_arg2 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v22 (broadcastInDim S800000 ![] bcast_S_S800000 : (⟨S_, .i32⟩ : BufTy).Contents (Elt F) → (⟨S800000, .i32⟩ : BufTy).Contents (Elt F)),
    StableHlo.binary main_arg2 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_arg2 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v15 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v11 main_v26 main_v27 (addf : (⟨S800000x128, .f32⟩ : BufTy).Contents (Elt F) → (⟨S800000x128, .f32⟩ : BufTy).Contents (Elt F) → (⟨S800000x128, .f32⟩ : BufTy).Contents (Elt F)),
    StableHlo.nullary main_c_1 (constantI S_ 32 0#32),
    StableHlo.unary main_c_1 main_v28 (broadcastInDim S800000 ![] bcast_S_S800000 : (⟨S_, .i32⟩ : BufTy).Contents (Elt F) → (⟨S800000, .i32⟩ : BufTy).Contents (Elt F)),
    StableHlo.binary main_arg3 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v30 (broadcastInDim S800000 ![] bcast_S_S800000 : (⟨S_, .i32⟩ : BufTy).Contents (Elt F) → (⟨S800000, .i32⟩ : BufTy).Contents (Elt F)),
    StableHlo.binary main_arg3 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_arg3 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v19 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v27 main_v34 main_v35 (addf : (⟨S800000x128, .f32⟩ : BufTy).Contents (Elt F) → (⟨S800000x128, .f32⟩ : BufTy).Contents (Elt F) → (⟨S800000x128, .f32⟩ : BufTy).Contents (Elt F)) ]

abbrev wB_W : List (Ref sig .tc) :=
  [main_c, main_v20, main_v21, main_c_0, main_v22, main_v23, main_v24, main_v25, main_v26, main_v27, main_c_1, main_v28, main_v29, main_c_2, main_v30, main_v31, main_v32, main_v33, main_v34, main_v35]

-- kinds of wB: nubnubtubbnubnubtubb

abbrev wC : List (HloOp τ sig (Elt F)) :=
  [ StableHlo.unary main_v35 main_v36 (Host.negf : (⟨S800000x128, .f32⟩ : BufTy).Contents (Elt F) → (⟨S800000x128, .f32⟩ : BufTy).Contents (Elt F)),
    StableHlo.unary main_v36 main_v37 (Host.exp : (⟨S800000x128, .f32⟩ : BufTy).Contents (Elt F) → (⟨S800000x128, .f32⟩ : BufTy).Contents (Elt F)),
    StableHlo.nullary main_cst (constant S_ .f32 0x3F800000#32),
    StableHlo.unary main_cst main_v38 (broadcastInDim S800000x128 ![] bcast_S_S800000x128 : (⟨S_, .f32⟩ : BufTy).Contents (Elt F) → (⟨S800000x128, .f32⟩ : BufTy).Contents (Elt F)),
    StableHlo.binary main_v38 main_v37 main_v39 (addf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x3F800000#32),
    StableHlo.unary main_cst_3 main_v40 (broadcastInDim S800000x128 ![] bcast_S_S800000x128 : (⟨S_, .f32⟩ : BufTy).Contents (Elt F) → (⟨S800000x128, .f32⟩ : BufTy).Contents (Elt F)),
    StableHlo.binary main_v40 main_v39 main_v41 (Host.divf : (⟨S800000x128, .f32⟩ : BufTy).Contents (Elt F) → (⟨S800000x128, .f32⟩ : BufTy).Contents (Elt F) → (⟨S800000x128, .f32⟩ : BufTy).Contents (Elt F)),
    StableHlo.nullary main_c_4 (constantI S_ 32 0#32),
    StableHlo.unary main_c_4 main_v42 (broadcastInDim S800000 ![] bcast_S_S800000 : (⟨S_, .i32⟩ : BufTy).Contents (Elt F) → (⟨S800000, .i32⟩ : BufTy).Contents (Elt F)),
    StableHlo.binary main_arg2 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v44 (broadcastInDim S800000 ![] bcast_S_S800000 : (⟨S_, .i32⟩ : BufTy).Contents (Elt F) → (⟨S800000, .i32⟩ : BufTy).Contents (Elt F)),
    StableHlo.binary main_arg2 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_arg2 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v7 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v41 main_v48 main_v49 (mulf : (⟨S800000x128, .f32⟩ : BufTy).Contents (Elt F) → (⟨S800000x128, .f32⟩ : BufTy).Contents (Elt F) → (⟨S800000x128, .f32⟩ : BufTy).Contents (Elt F)),
    StableHlo.nullary main_cst_6 (constant S_ .f32 0x00000000#32),
    StableHlo.unary main_cst_6 main_v50 (broadcastInDim S50000x128 ![] bcast_S_S50000x128 : (⟨S_, .f32⟩ : BufTy).Contents (Elt F) → (⟨S50000x128, .f32⟩ : BufTy).Contents (Elt F)) ]

abbrev wC_W : List (Ref sig .tc) :=
  [main_v36, main_v37, main_cst, main_v38, main_v39, main_cst_3, main_v40, main_v41, main_c_4, main_v42, main_v43, main_c_5, main_v44, main_v45, main_v46, main_v47, main_v48, main_v49, main_cst_6, main_v50]

-- kinds of wC: uunubnubnubnubtubbnu

abbrev wD : List (HloOp τ sig (Elt F)) :=
  [ StableHlo.unary main_arg3 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_v49 main_v52 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0x00000000#32),
    StableHlo.unary main_cst_7 main_v53 (broadcastInDim S50000x128 ![] bcast_S_S50000x128 : (⟨S_, .f32⟩ : BufTy).Contents (Elt F) → (⟨S50000x128, .f32⟩ : BufTy).Contents (Elt F)),
    StableHlo.unary main_arg3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v41 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_8 (constant S_ .f32 0x358637BD#32),
    StableHlo.unary main_cst_8 main_v56 (broadcastInDim S50000x128 ![] bcast_S_S50000x128 : (⟨S_, .f32⟩ : BufTy).Contents (Elt F) → (⟨S50000x128, .f32⟩ : BufTy).Contents (Elt F)),
    StableHlo.binary main_v55 main_v56 main_v57 (addf : (⟨S50000x128, .f32⟩ : BufTy).Contents (Elt F) → (⟨S50000x128, .f32⟩ : BufTy).Contents (Elt F) → (⟨S50000x128, .f32⟩ : BufTy).Contents (Elt F)),
    StableHlo.binary main_v52 main_v57 main_v58 (Host.divf : (⟨S50000x128, .f32⟩ : BufTy).Contents (Elt F) → (⟨S50000x128, .f32⟩ : BufTy).Contents (Elt F) → (⟨S50000x128, .f32⟩ : BufTy).Contents (Elt F)),
    StableHlo.binary main_v3 main_v58 main_v59 (addf : (⟨S50000x128, .f32⟩ : BufTy).Contents (Elt F) → (⟨S50000x128, .f32⟩ : BufTy).Contents (Elt F) → (⟨S50000x128, .f32⟩ : BufTy).Contents (Elt F)),
    StableHlo.unary main_arg4 main_v60 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg5 main_v62 (broadcastInDim S800000x128 ![0, 1] bcast_S800000x1_S800000x128_0_1 : (⟨S800000x1, .f32⟩ : BufTy).Contents (Elt F) → (⟨S800000x128, .f32⟩ : BufTy).Contents (Elt F)),
    StableHlo.binary main_v35 main_v62 main_v63 (mulf : (⟨S800000x128, .f32⟩ : BufTy).Contents (Elt F) → (⟨S800000x128, .f32⟩ : BufTy).Contents (Elt F) → (⟨S800000x128, .f32⟩ : BufTy).Contents (Elt F)) ]

abbrev wD_W : List (Ref sig .tc) :=
  [main_v51, main_v52, main_cst_7, main_v53, main_v54, main_v55, main_cst_8, main_v56, main_v57, main_v58, main_v59, main_v60, main_v61, main_v62, main_v63]

-- kinds of wD: utnuutnubbbubub

abbrev wE : List (HloOp τ sig (Elt F)) :=
  [ StableHlo.nullary main_cst_9 (constant S_ .f32 0x00000000#32),
    StableHlo.binary main_v61 main_cst_9 main_v64 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call0.cst (constant S_ .f32 0x00000000#32),
    StableHlo.TRef.binary (.of main_v61 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v61 : StableHlo.TRef sig ⟨S50000x128, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

abbrev wE_W : List (Ref sig .tc) :=
  [main_cst_9, main_v64, main_cst_10, main_v65, main_v66, main_c_11, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

-- kinds of wE: nbnubnnbunububbunbnbubnbnuut

abbrev wF : List (HloOp τ sig (Elt F)) :=
  [ StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v69 main_v70 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_arg16 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_arg17 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)) ]

abbrev wF_W : List (Ref sig .tc) :=
  [main_v68, main_v69, main_v70, main_cst_12, main_v71, main_v72, main_v73, main_v74, main_v75, main_v76, main_v77, main_v78, main_v79, main_v80, main_v81, main_v82]

-- kinds of wF: uubnubuuubuubuub

abbrev wG : List (HloOp τ sig (Elt F)) :=
  [ StableHlo.nullary main_cst_13 (constant S_ .f32 0x00000000#32),
    StableHlo.binary main_v63 main_cst_13 main_v83 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_14 (constant S_ .f32 0x49435000#32),
    StableHlo.unary main_cst_14 main_v84 (broadcastInDim S128 ![] bcast_S_S128 : (⟨S_, .f32⟩ : BufTy).Contents (Elt F) → (⟨S128, .f32⟩ : BufTy).Contents (Elt F)),
    StableHlo.binary main_v83 main_v84 main_v85 (Host.divf : (⟨S128, .f32⟩ : BufTy).Contents (Elt F) → (⟨S128, .f32⟩ : BufTy).Contents (Elt F) → (⟨S128, .f32⟩ : BufTy).Contents (Elt F)),
    StableHlo.nullary main_c_15 (constantI S_ 32 0#32),
    StableHlo.TRef.nullary main_call1.cst (constant S_ .f32 0x00000000#32),
    StableHlo.TRef.binary (.of main_v63 : StableHlo.TRef sig ⟨S800000x128, .f32⟩) main_call1.cst main_call1.v0 (fun x v => Host.reduceAdd x v reducesTo_S800000x128_S128_d0 h_S_),
    StableHlo.TRef.unary main_call1.v0 main_call1.v1 (broadcastInDim S1x128 ![1] bcast_S128_S1x128_1),
    StableHlo.TRef.nullary main_call1.cst_0 (constant S_ .f32 0x49435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S800000x128 ![0, 1] bcast_S1x128_S800000x128_0_1),
    StableHlo.TRef.binary (.of main_v63 : StableHlo.TRef sig ⟨S800000x128, .f32⟩) main_call1.v4 main_call1.v5 subf,
    StableHlo.TRef.binary main_call1.v5 main_call1.v5 main_call1.v6 mulf,
    StableHlo.TRef.unary (.of main_c_15 : StableHlo.TRef sig ⟨S_, .i32⟩) main_call1.v7 (sitofp .f32),
    StableHlo.TRef.nullary main_call1.cst_1 (constant S_ .f32 0x49435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S800000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

abbrev wG_W : List (Ref sig .tc) :=
  [main_cst_13, main_v83, main_cst_14, main_v84, main_v85, main_c_15, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]

-- kinds of wG: nbnubnnbunububbunbnbubnbnuut

abbrev wH : List (HloOp τ sig (Elt F)) :=
  [ StableHlo.unary main_v85 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S800000x128 ![0, 1] bcast_S1x128_S800000x128_0_1 : (⟨S1x128, .f32⟩ : BufTy).Contents (Elt F) → (⟨S800000x128, .f32⟩ : BufTy).Contents (Elt F)),
    StableHlo.binary main_v63 main_v88 main_v89 (subf : (⟨S800000x128, .f32⟩ : BufTy).Contents (Elt F) → (⟨S800000x128, .f32⟩ : BufTy).Contents (Elt F) → (⟨S800000x128, .f32⟩ : BufTy).Contents (Elt F)),
    StableHlo.nullary main_cst_16 (constant S_ .f32 0x3727C5AC#32),
    StableHlo.unary main_cst_16 main_v90 (broadcastInDim S128 ![] bcast_S_S128 : (⟨S_, .f32⟩ : BufTy).Contents (Elt F) → (⟨S128, .f32⟩ : BufTy).Contents (Elt F)),
    StableHlo.binary main_v86 main_v90 main_v91 (addf : (⟨S128, .f32⟩ : BufTy).Contents (Elt F) → (⟨S128, .f32⟩ : BufTy).Contents (Elt F) → (⟨S128, .f32⟩ : BufTy).Contents (Elt F)),
    StableHlo.unary main_v91 main_v92 (Host.rsqrt : (⟨S128, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S800000x128 ![0, 1] bcast_S1x128_S800000x128_0_1 : (⟨S1x128, .f32⟩ : BufTy).Contents (Elt F) → (⟨S800000x128, .f32⟩ : BufTy).Contents (Elt F)),
    StableHlo.binary main_v89 main_v94 main_v95 (mulf : (⟨S800000x128, .f32⟩ : BufTy).Contents (Elt F) → (⟨S800000x128, .f32⟩ : BufTy).Contents (Elt F) → (⟨S800000x128, .f32⟩ : BufTy).Contents (Elt F)),
    StableHlo.unary main_arg18 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S800000x128 ![0, 1] bcast_S1x128_S800000x128_0_1 : (⟨S1x128, .f32⟩ : BufTy).Contents (Elt F) → (⟨S800000x128, .f32⟩ : BufTy).Contents (Elt F)),
    StableHlo.binary main_v95 main_v97 main_v98 (mulf : (⟨S800000x128, .f32⟩ : BufTy).Contents (Elt F) → (⟨S800000x128, .f32⟩ : BufTy).Contents (Elt F) → (⟨S800000x128, .f32⟩ : BufTy).Contents (Elt F)),
    StableHlo.unary main_arg19 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S800000x128 ![0, 1] bcast_S1x128_S800000x128_0_1 : (⟨S1x128, .f32⟩ : BufTy).Contents (Elt F) → (⟨S800000x128, .f32⟩ : BufTy).Contents (Elt F)) ]

abbrev wH_W : List (Ref sig .tc) :=
  [main_v87, main_v88, main_v89, main_cst_16, main_v90, main_v91, main_v92, main_v93, main_v94, main_v95, main_v96, main_v97, main_v98, main_v99, main_v100]

-- kinds of wH: uubnubuuubuubuu

abbrev wI : List (HloOp τ sig (Elt F)) :=
  [ StableHlo.binary main_v98 main_v100 main_v101 (addf : (⟨S800000x128, .f32⟩ : BufTy).Contents (Elt F) → (⟨S800000x128, .f32⟩ : BufTy).Contents (Elt F) → (⟨S800000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v82 : StableHlo.TRef sig ⟨S50000x128, .f32⟩) main_call2.v0 main_call2.v1 maximumf,
    StableHlo.TRef.nullary main_call3.cst (constant S_ .f32 0x00000000#32),
    StableHlo.TRef.unary main_call3.cst main_call3.v0 (broadcastInDim S800000x128 ![] bcast_S_S800000x128),
    StableHlo.TRef.binary (.of main_v101 : StableHlo.TRef sig ⟨S800000x128, .f32⟩) main_call3.v0 main_call3.v1 maximumf,
    StableHlo.binary main_arg0 main_v102 main_v104 (addf : (⟨S50000x128, .f32⟩ : BufTy).Contents (Elt F) → (⟨S50000x128, .f32⟩ : BufTy).Contents (Elt F) → (⟨S50000x128, .f32⟩ : BufTy).Contents (Elt F)),
    StableHlo.binary main_arg1 main_v103 main_v105 (addf : (⟨S800000x128, .f32⟩ : BufTy).Contents (Elt F) → (⟨S800000x128, .f32⟩ : BufTy).Contents (Elt F) → (⟨S800000x128, .f32⟩ : BufTy).Contents (Elt F)) ]

abbrev wI_W : List (Ref sig .tc) :=
  [main_v101, main_call2.cst.ref, main_call2.v0.ref, main_call2.v1.ref, main_call3.cst.ref, main_call3.v0.ref, main_call3.v1.ref, main_v104, main_v105]

-- kinds of wI: bnubnubbb

end Cert.RefRun

end
-- ==== Proof.RefRunMain.lean ====
/-
  The reference program is the straight line of its operations: @main, window by window, is the sequence of the nine
  stretches of operations; every operation touches TensorCore buffers only; and each stretch writes exactly the buffers
  listed beside it, so a buffer outside that list keeps its contents through the stretch.
-/
import proofs.«133196_j81149112091152_2_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The three printed windows of @main as lists, and @main's whole line. -/
abbrev p0 : List (HloOp τ sig (Elt F)) := wA ++ (wB ++ wC)
abbrev p1 : List (HloOp τ sig (Elt F)) := wD ++ (wE ++ (wF ++ (wG ++ wH)))
abbrev p2 : List (HloOp τ sig (Elt F)) := wI
abbrev ops : List (HloOp τ sig (Elt F)) := p0 ++ (p1 ++ p2)

set_option maxRecDepth 8192 in
set_option maxHeartbeats 4000000 in
theorem part0_eq (c : Dev nD) : main_part0 (F := F) c = seq p0 := rfl

set_option maxRecDepth 8192 in
set_option maxHeartbeats 4000000 in
theorem part1_eq (c : Dev nD) : main_part1 (F := F) c = seq p1 := by
  simp only [main_part1, fn_var.body, fn_var_0.body, fn_where.body, bind_assoc, pure_bind]
  rfl

set_option maxRecDepth 8192 in
set_option maxHeartbeats 4000000 in
theorem part2_eq (c : Dev nD) : main_part2 (F := F) c = seq p2 := by
  simp only [main_part2, fn_relu.body, fn_relu_1.body, bind_assoc, pure_bind]
  rfl

/-- @main is the sequence of all the operations: its three windows one after the other. -/
theorem main_eq (c : Dev nD) : main (F := F) c = seq ops :=
  calc main (F := F) c = (main_part0 c >>= fun _ => main_part1 c >>= fun _ => main_part2 c) := rfl
    _ = (seq p0 >>= fun _ => seq p1 >>= fun _ => seq p2) := by rw [part0_eq c, part1_eq c, part2_eq c]
    _ = seq ops := by rw [← seq_append p1 p2, ← seq_append p0 (p1 ++ p2)]

theorem scopedRefs_eq : (Finset.univ.filter fun b : Ref sig .tc => b.isScoped) = ∅ := by decide
theorem scopedSems_eq : (Finset.univ.filter fun sm : SemLoc sig => sm.isScoped .tc) = ∅ := by decide

end Cert.RefRun

end
-- ==== Proof.RefRunKeep.lean ====
/-
  What each stretch of the reference's operations touches and writes, and the buffer contents after each stretch.
  Every operation touches TensorCore buffers only. Each stretch writes exactly the buffers listed beside it, so a buffer
  outside that list keeps its contents through the stretch; the argument buffers are in none of the lists.
-/
import proofs.«133196_j81149112091152_2_alg».proof.Proof.RefRunMain

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines folded one after the other are their concatenation folded as one. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Every operation touches TensorCore buffers only -/

/-- Each operation of a literal list is one of the four builders, whose buffers are TensorCore references. -/
macro "bufs_sub_tac" : tactic =>
  `(tactic| simp only [List.Forall, nullary_bufs_sub, unary_bufs_sub, binary_bufs_sub, ternary_bufs_sub, and_self])

set_option maxRecDepth 8192 in
theorem wA_sub : (wA : List (HloOp τ sig (Elt F))).Forall fun op => op.bufs ⊆ tcRefs τ sig := by bufs_sub_tac
set_option maxRecDepth 8192 in
theorem wB_sub : (wB : List (HloOp τ sig (Elt F))).Forall fun op => op.bufs ⊆ tcRefs τ sig := by bufs_sub_tac
set_option maxRecDepth 8192 in
theorem wC_sub : (wC : List (HloOp τ sig (Elt F))).Forall fun op => op.bufs ⊆ tcRefs τ sig := by bufs_sub_tac
set_option maxRecDepth 8192 in
theorem wD_sub : (wD : List (HloOp τ sig (Elt F))).Forall fun op => op.bufs ⊆ tcRefs τ sig := by bufs_sub_tac
set_option maxRecDepth 8192 in
theorem wE_sub : (wE : List (HloOp τ sig (Elt F))).Forall fun op => op.bufs ⊆ tcRefs τ sig := by bufs_sub_tac
set_option maxRecDepth 8192 in
theorem wF_sub : (wF : List (HloOp τ sig (Elt F))).Forall fun op => op.bufs ⊆ tcRefs τ sig := by bufs_sub_tac
set_option maxRecDepth 8192 in
theorem wG_sub : (wG : List (HloOp τ sig (Elt F))).Forall fun op => op.bufs ⊆ tcRefs τ sig := by bufs_sub_tac
set_option maxRecDepth 8192 in
theorem wH_sub : (wH : List (HloOp τ sig (Elt F))).Forall fun op => op.bufs ⊆ tcRefs τ sig := by bufs_sub_tac
set_option maxRecDepth 8192 in
theorem wI_sub : (wI : List (HloOp τ sig (Elt F))).Forall fun op => op.bufs ⊆ tcRefs τ sig := by bufs_sub_tac

/-- The whole line touches TensorCore buffers only: an operation of it is in one of the nine stretches. -/
theorem ops_sub : (ops : List (HloOp τ sig (Elt F))).Forall fun op => op.bufs ⊆ tcRefs τ sig :=
  List.forall_iff_forall_mem.mpr fun op h => by
    simp only [ops, p0, p1, p2, List.mem_append] at h
    rcases h with (h | h | h) | (h | h | h | h | h) | h
    exacts [List.forall_iff_forall_mem.mp wA_sub op h, List.forall_iff_forall_mem.mp wB_sub op h,
      List.forall_iff_forall_mem.mp wC_sub op h, List.forall_iff_forall_mem.mp wD_sub op h,
      List.forall_iff_forall_mem.mp wE_sub op h, List.forall_iff_forall_mem.mp wF_sub op h,
      List.forall_iff_forall_mem.mp wG_sub op h, List.forall_iff_forall_mem.mp wH_sub op h,
      List.forall_iff_forall_mem.mp wI_sub op h]

/-! ## What each stretch writes -/

/-- Each operation of a literal list writes its one result buffer, which stands in the list beside it. -/
macro "writes_tac" : tactic =>
  `(tactic| simp only [List.Forall, nullary_writes, unary_writes, binary_writes, ternary_writes,
    Finset.singleton_subset_iff, List.mem_toFinset, List.map_cons, List.map_nil, List.mem_cons, true_or, or_true, and_self])

set_option maxRecDepth 8192 in
theorem wA_writes : (wA : List (HloOp τ sig (Elt F))).Forall fun op =>
    op.writes ⊆ (wA_W.map (Proc.devRef (τ := τ) .tc)).toFinset := by writes_tac
set_option maxRecDepth 8192 in
theorem wB_writes : (wB : List (HloOp τ sig (Elt F))).Forall fun op =>
    op.writes ⊆ (wB_W.map (Proc.devRef (τ := τ) .tc)).toFinset := by writes_tac
set_option maxRecDepth 8192 in
theorem wC_writes : (wC : List (HloOp τ sig (Elt F))).Forall fun op =>
    op.writes ⊆ (wC_W.map (Proc.devRef (τ := τ) .tc)).toFinset := by writes_tac
set_option maxRecDepth 8192 in
theorem wD_writes : (wD : List (HloOp τ sig (Elt F))).Forall fun op =>
    op.writes ⊆ (wD_W.map (Proc.devRef (τ := τ) .tc)).toFinset := by writes_tac
set_option maxRecDepth 8192 in
theorem wE_writes : (wE : List (HloOp τ sig (Elt F))).Forall fun op =>
    op.writes ⊆ (wE_W.map (Proc.devRef (τ := τ) .tc)).toFinset := by writes_tac
set_option maxRecDepth 8192 in
theorem wF_writes : (wF : List (HloOp τ sig (Elt F))).Forall fun op =>
    op.writes ⊆ (wF_W.map (Proc.devRef (τ := τ) .tc)).toFinset := by writes_tac
set_option maxRecDepth 8192 in
theorem wG_writes : (wG : List (HloOp τ sig (Elt F))).Forall fun op =>
    op.writes ⊆ (wG_W.map (Proc.devRef (τ := τ) .tc)).toFinset := by writes_tac
set_option maxRecDepth 8192 in
theorem wH_writes : (wH : List (HloOp τ sig (Elt F))).Forall fun op =>
    op.writes ⊆ (wH_W.map (Proc.devRef (τ := τ) .tc)).toFinset := by writes_tac
set_option maxRecDepth 8192 in
theorem wI_writes : (wI : List (HloOp τ sig (Elt F))).Forall fun op =>
    op.writes ⊆ (wI_W.map (Proc.devRef (τ := τ) .tc)).toFinset := by writes_tac

/-! ## The contents after each stretch -/

def val1 (V : Valuation τ sig (Elt F)) : Valuation τ sig (Elt F) := after wA V
def val2 (V : Valuation τ sig (Elt F)) : Valuation τ sig (Elt F) := after wB (val1 V)
def val3 (V : Valuation τ sig (Elt F)) : Valuation τ sig (Elt F) := after wC (val2 V)
def val4 (V : Valuation τ sig (Elt F)) : Valuation τ sig (Elt F) := after wD (val3 V)
def val5 (V : Valuation τ sig (Elt F)) : Valuation τ sig (Elt F) := after wE (val4 V)
def val6 (V : Valuation τ sig (Elt F)) : Valuation τ sig (Elt F) := after wF (val5 V)
def val7 (V : Valuation τ sig (Elt F)) : Valuation τ sig (Elt F) := after wG (val6 V)
def val8 (V : Valuation τ sig (Elt F)) : Valuation τ sig (Elt F) := after wH (val7 V)
def val9 (V : Valuation τ sig (Elt F)) : Valuation τ sig (Elt F) := after wI (val8 V)

/-- The contents after the whole line are those after the ninth stretch. -/
theorem after_ops (V : Valuation τ sig (Elt F)) : after ops V = val9 V := by
  simp only [ops, p0, p1, p2, after_app]
  rfl

/-! ## A buffer a stretch does not write keeps its contents through it -/

theorem val1_keep (V : Valuation τ sig (Elt F)) (r : Ref sig .tc) (h : r ∉ wA_W) :
    val1 V (Proc.devRef .tc r) = V (Proc.devRef .tc r) := after_of_writes_sub wA V wA_writes h
theorem val2_keep (V : Valuation τ sig (Elt F)) (r : Ref sig .tc) (h : r ∉ wB_W) :
    val2 V (Proc.devRef .tc r) = val1 V (Proc.devRef .tc r) := after_of_writes_sub wB _ wB_writes h
theorem val3_keep (V : Valuation τ sig (Elt F)) (r : Ref sig .tc) (h : r ∉ wC_W) :
    val3 V (Proc.devRef .tc r) = val2 V (Proc.devRef .tc r) := after_of_writes_sub wC _ wC_writes h
theorem val4_keep (V : Valuation τ sig (Elt F)) (r : Ref sig .tc) (h : r ∉ wD_W) :
    val4 V (Proc.devRef .tc r) = val3 V (Proc.devRef .tc r) := after_of_writes_sub wD _ wD_writes h
theorem val5_keep (V : Valuation τ sig (Elt F)) (r : Ref sig .tc) (h : r ∉ wE_W) :
    val5 V (Proc.devRef .tc r) = val4 V (Proc.devRef .tc r) := after_of_writes_sub wE _ wE_writes h
theorem val6_keep (V : Valuation τ sig (Elt F)) (r : Ref sig .tc) (h : r ∉ wF_W) :
    val6 V (Proc.devRef .tc r) = val5 V (Proc.devRef .tc r) := after_of_writes_sub wF _ wF_writes h
theorem val7_keep (V : Valuation τ sig (Elt F)) (r : Ref sig .tc) (h : r ∉ wG_W) :
    val7 V (Proc.devRef .tc r) = val6 V (Proc.devRef .tc r) := after_of_writes_sub wG _ wG_writes h
theorem val8_keep (V : Valuation τ sig (Elt F)) (r : Ref sig .tc) (h : r ∉ wH_W) :
    val8 V (Proc.devRef .tc r) = val7 V (Proc.devRef .tc r) := after_of_writes_sub wH _ wH_writes h
theorem val9_keep (V : Valuation τ sig (Elt F)) (r : Ref sig .tc) (h : r ∉ wI_W) :
    val9 V (Proc.devRef .tc r) = val8 V (Proc.devRef .tc r) := after_of_writes_sub wI _ wI_writes h

/-! ## A buffer no stretch so far writes still has its launch contents -/

abbrev W1 : List (Ref sig .tc) := wA_W
abbrev W2 : List (Ref sig .tc) := W1 ++ wB_W
abbrev W3 : List (Ref sig .tc) := W2 ++ wC_W
abbrev W4 : List (Ref sig .tc) := W3 ++ wD_W
abbrev W5 : List (Ref sig .tc) := W4 ++ wE_W
abbrev W6 : List (Ref sig .tc) := W5 ++ wF_W
abbrev W7 : List (Ref sig .tc) := W6 ++ wG_W
abbrev W8 : List (Ref sig .tc) := W7 ++ wH_W
abbrev W9 : List (Ref sig .tc) := W8 ++ wI_W

theorem val1_arg (V : Valuation τ sig (Elt F)) (r : Ref sig .tc) (h : r ∉ W1) :
    val1 V (Proc.devRef .tc r) = V (Proc.devRef .tc r) := val1_keep V r h
theorem val2_arg (V : Valuation τ sig (Elt F)) (r : Ref sig .tc) (h : r ∉ W2) :
    val2 V (Proc.devRef .tc r) = V (Proc.devRef .tc r) :=
  (val2_keep V r fun m => h (List.mem_append_right _ m)).trans (val1_arg V r fun m => h (List.mem_append_left _ m))
theorem val3_arg (V : Valuation τ sig (Elt F)) (r : Ref sig .tc) (h : r ∉ W3) :
    val3 V (Proc.devRef .tc r) = V (Proc.devRef .tc r) :=
  (val3_keep V r fun m => h (List.mem_append_right _ m)).trans (val2_arg V r fun m => h (List.mem_append_left _ m))
theorem val4_arg (V : Valuation τ sig (Elt F)) (r : Ref sig .tc) (h : r ∉ W4) :
    val4 V (Proc.devRef .tc r) = V (Proc.devRef .tc r) :=
  (val4_keep V r fun m => h (List.mem_append_right _ m)).trans (val3_arg V r fun m => h (List.mem_append_left _ m))
theorem val5_arg (V : Valuation τ sig (Elt F)) (r : Ref sig .tc) (h : r ∉ W5) :
    val5 V (Proc.devRef .tc r) = V (Proc.devRef .tc r) :=
  (val5_keep V r fun m => h (List.mem_append_right _ m)).trans (val4_arg V r fun m => h (List.mem_append_left _ m))
theorem val6_arg (V : Valuation τ sig (Elt F)) (r : Ref sig .tc) (h : r ∉ W6) :
    val6 V (Proc.devRef .tc r) = V (Proc.devRef .tc r) :=
  (val6_keep V r fun m => h (List.mem_append_right _ m)).trans (val5_arg V r fun m => h (List.mem_append_left _ m))
theorem val7_arg (V : Valuation τ sig (Elt F)) (r : Ref sig .tc) (h : r ∉ W7) :
    val7 V (Proc.devRef .tc r) = V (Proc.devRef .tc r) :=
  (val7_keep V r fun m => h (List.mem_append_right _ m)).trans (val6_arg V r fun m => h (List.mem_append_left _ m))
theorem val8_arg (V : Valuation τ sig (Elt F)) (r : Ref sig .tc) (h : r ∉ W8) :
    val8 V (Proc.devRef .tc r) = V (Proc.devRef .tc r) :=
  (val8_keep V r fun m => h (List.mem_append_right _ m)).trans (val7_arg V r fun m => h (List.mem_append_left _ m))
theorem val9_arg (V : Valuation τ sig (Elt F)) (r : Ref sig .tc) (h : r ∉ W9) :
    val9 V (Proc.devRef .tc r) = V (Proc.devRef .tc r) :=
  (val9_keep V r fun m => h (List.mem_append_right _ m)).trans (val8_arg V r fun m => h (List.mem_append_left _ m))

end Cert.RefRun

end
-- ==== Proof.RefRunStages.lean ====
/-
  The reference's host computation as named pure terms of its argument arrays, written with the reference's own
  printed operators and dimension records: one gated graph-convolution step. Every definition is a whole-array term;
  nothing here runs anything. Rows are nodes (50000) or edges (800000); columns are the 128 features.
-/
import proofs.«133196_j81149112091152_2_alg».proof.ReferenceIdeal
import proofs.«133196_j81149112091152_2_alg».proof.Proof.Gen.ReferenceIdeal

noncomputable section

namespace Cert.RefRun

open Cert.ReferenceIdeal Cert.ReferenceIdeal.Gen Idealize.ShloMosaic

variable {F : FTy → Type} [FloatOps F]

/-! ## Small combinators: constants spread over an array, a feature row spread over the rows -/

/-- The float word w in every entry of a node array. -/
def fillN (w : BitVec 32) : Vec F S50000x128 .f32 := broadcastInDim S50000x128 ![] bcast_S_S50000x128 (constant S_ .f32 w)
/-- The float word w in every entry of an edge array. -/
def fillE (w : BitVec 32) : Vec F S800000x128 .f32 := broadcastInDim S800000x128 ![] bcast_S_S800000x128 (constant S_ .f32 w)
/-- The float word w in every entry of a feature row. -/
def fillF (w : BitVec 32) : Vec F S128 .f32 := broadcastInDim S128 ![] bcast_S_S128 (constant S_ .f32 w)
/-- A feature row repeated down the 50000 node rows. -/
def rowsN (v : Vec F S128 .f32) : Vec F S50000x128 .f32 :=
  broadcastInDim S50000x128 ![0, 1] bcast_S1x128_S50000x128_0_1 (broadcastInDim S1x128 ![1] bcast_S128_S1x128_1 v)
/-- A feature row repeated down the 800000 edge rows. -/
def rowsE (v : Vec F S128 .f32) : Vec F S800000x128 .f32 :=
  broadcastInDim S800000x128 ![0, 1] bcast_S1x128_S800000x128_0_1 (broadcastInDim S1x128 ![1] bcast_S128_S1x128_1 v)

/-! ## The affine maps x · W + b -/

/-- x · W + b on node rows. -/
def affN (x : Vec F S50000x128 .f32) (W : Vec F S128x128 .f32) (b : Vec F S128 .f32) : Vec F S50000x128 .f32 :=
  addf (Host.dotGeneral dot_S50000x128_S128x128_S50000x128_1_0_0_1_n_n none x W) (rowsN b)
/-- x · W + b on edge rows. -/
def affEd (x : Vec F S800000x128 .f32) (W : Vec F S128x128 .f32) (b : Vec F S128 .f32) : Vec F S800000x128 .f32 :=
  addf (Host.dotGeneral dot_S800000x128_S128x128_S800000x128_1_0_0_1_n_n none x W) (rowsE b)

/-! ## Index columns -/

/-- A node index made non-negative: a negative index counts from the end (50000 is added to it). -/
def normIdx (s : Vec F S800000 .i32) : Vec F S800000 .i32 :=
  select (cmpi .slt s (broadcastInDim S800000 ![] bcast_S_S800000 (constantI S_ 32 0#32)))
    (addi s (broadcastInDim S800000 ![] bcast_S_S800000 (constantI S_ 32 50000#32))) s
/-- An index vector as a one-column array. -/
def asCol (s : Vec F S800000 .i32) : Vec F S800000x1 .i32 := broadcastInDim S800000x1 ![0] bcast_S800000_S800000x1_0 s
/-- Row e of the result is row (i e) of y. -/
def gath (y : Vec F S50000x128 .f32) (i : Vec F S800000x1 .i32) : Vec F S800000x128 .f32 :=
  Host.gather gather_S50000x128_S800000x1_S800000x128_1_0_n_n_0_1_1128 y i
/-- Row n of the result is the sum of the rows e of u with i e = n, added to row n of x. -/
def scat (x : Vec F S50000x128 .f32) (i : Vec F S800000x1 .i32) (u : Vec F S800000x128 .f32) : Vec F S50000x128 .f32 :=
  Host.scatterAdd scatter_S50000x128_S800000x1_S800000x128_1_0_0_1 x i u

/-! ## The edge path -/

/-- The logistic function as the reference computes it: 1 / (1 + exp (−z)). -/
def gateOf (z : Vec F S800000x128 .f32) : Vec F S800000x128 .f32 :=
  Host.divf (fillE 0x3F800000#32) (addf (fillE 0x3F800000#32) (Host.exp (Host.negf z)))

/-! ## Mean and variance of the columns, normalisation, rectifier -/

/-- Column means of a node array: the column sums over 50000. -/
def meanN (y : Vec F S50000x128 .f32) : Vec F S128 .f32 :=
  Host.divf (Host.reduceAdd y (constant S_ .f32 0x00000000#32) reducesTo_S50000x128_S128_d0 h_S_) (fillF 0x47435000#32)
/-- Column means of an edge array: the column sums over 800000. -/
def meanE (y : Vec F S800000x128 .f32) : Vec F S128 .f32 :=
  Host.divf (Host.reduceAdd y (constant S_ .f32 0x00000000#32) reducesTo_S800000x128_S128_d0 h_S_) (fillF 0x49435000#32)

/-- The divisor of the node variance: 50000 minus the zero correction. -/
def cntN : Vec F S_ .f32 := subf (constant S_ .f32 0x47435000#32) (sitofp .f32 (constantI S_ 32 0#32))
/-- The divisor of the edge variance: 800000 minus the zero correction. -/
def cntE : Vec F S_ .f32 := subf (constant S_ .f32 0x49435000#32) (sitofp .f32 (constantI S_ 32 0#32))

/-- A node array minus its column means (the means taken as the variance computes them: sums spread to a row, then divided). -/
def devN (y : Vec F S50000x128 .f32) : Vec F S50000x128 .f32 :=
  subf y (broadcastInDim S50000x128 ![0, 1] bcast_S1x128_S50000x128_0_1
    (Host.divf (broadcastInDim S1x128 ![1] bcast_S128_S1x128_1
        (Host.reduceAdd y (constant S_ .f32 0x00000000#32) reducesTo_S50000x128_S128_d0 h_S_))
      (broadcastInDim S1x128 ![] bcast_S_S1x128 (constant S_ .f32 0x47435000#32))))
/-- An edge array minus its column means. -/
def devE (y : Vec F S800000x128 .f32) : Vec F S800000x128 .f32 :=
  subf y (broadcastInDim S800000x128 ![0, 1] bcast_S1x128_S800000x128_0_1
    (Host.divf (broadcastInDim S1x128 ![1] bcast_S128_S1x128_1
        (Host.reduceAdd y (constant S_ .f32 0x00000000#32) reducesTo_S800000x128_S128_d0 h_S_))
      (broadcastInDim S1x128 ![] bcast_S_S1x128 (constant S_ .f32 0x49435000#32))))

/-- Column variances of a node array: the column sums of the squared deviations over the divisor, where the divisor is
    positive, and the not-a-number word otherwise. -/
def varN (y : Vec F S50000x128 .f32) : Vec F S128 .f32 :=
  select (broadcastInDim S128 ![] bcast_S_S128 (cmpf .ogt (cntN : Vec F S_ .f32) (constant S_ .f32 0x00000000#32)))
    (Host.divf (Host.reduceAdd (mulf (devN y) (devN y)) (constant S_ .f32 0x00000000#32) reducesTo_S50000x128_S128_d0 h_S_)
      (broadcastInDim S128 ![] bcast_S_S128 cntN))
    (fillF 0x7FC00000#32)
/-- Column variances of an edge array. -/
def varE (y : Vec F S800000x128 .f32) : Vec F S128 .f32 :=
  select (broadcastInDim S128 ![] bcast_S_S128 (cmpf .ogt (cntE : Vec F S_ .f32) (constant S_ .f32 0x00000000#32)))
    (Host.divf (Host.reduceAdd (mulf (devE y) (devE y)) (constant S_ .f32 0x00000000#32) reducesTo_S800000x128_S128_d0 h_S_)
      (broadcastInDim S128 ![] bcast_S_S128 cntE))
    (fillF 0x7FC00000#32)

/-- ((y − mean) · rsqrt (var + ε)) · γ + β on node rows, mean and var one number per column. -/
def normN (y : Vec F S50000x128 .f32) (mean var g b : Vec F S128 .f32) : Vec F S50000x128 .f32 :=
  addf (mulf (mulf (subf y (rowsN mean)) (rowsN (Host.rsqrt (addf var (fillF 0x3727C5AC#32))))) (rowsN g)) (rowsN b)
/-- The same on edge rows. -/
def normE (y : Vec F S800000x128 .f32) (mean var g b : Vec F S128 .f32) : Vec F S800000x128 .f32 :=
  addf (mulf (mulf (subf y (rowsE mean)) (rowsE (Host.rsqrt (addf var (fillF 0x3727C5AC#32))))) (rowsE g)) (rowsE b)

/-- max (y, 0) entrywise. -/
def reluN (y : Vec F S50000x128 .f32) : Vec F S50000x128 .f32 := maximumf y (fillN 0x00000000#32)
def reluE (y : Vec F S800000x128 .f32) : Vec F S800000x128 .f32 := maximumf y (fillE 0x00000000#32)

/-! ## The stages, over the argument arrays

a0 node features, a1 edge features, a2 source index, a3 target index, a4 node scaling column, a5 edge scaling column,
a6/a7 … a14/a15 the five weight matrices and biases (A, B, C, D, E), a16/a17 the node normalisation's scale and shift,
a18/a19 the edge normalisation's. -/

section Stages

variable (a0 : Vec F S50000x128 .f32) (a1 : Vec F S800000x128 .f32) (a2 a3 : Vec F S800000 .i32)
  (a4 : Vec F S50000x1 .f32) (a5 : Vec F S800000x1 .f32)
  (a6 : Vec F S128x128 .f32) (a7 : Vec F S128 .f32) (a8 : Vec F S128x128 .f32) (a9 : Vec F S128 .f32)
  (a10 : Vec F S128x128 .f32) (a11 : Vec F S128 .f32) (a12 : Vec F S128x128 .f32) (a13 : Vec F S128 .f32)
  (a14 : Vec F S128x128 .f32) (a15 : Vec F S128 .f32) (a16 a17 a18 a19 : Vec F S128 .f32)

def affA : Vec F S50000x128 .f32 := affN a0 a6 a7
def affB : Vec F S50000x128 .f32 := affN a0 a8 a9
def affC : Vec F S800000x128 .f32 := affEd a1 a10 a11
def affD : Vec F S50000x128 .f32 := affN a0 a12 a13
def affE : Vec F S50000x128 .f32 := affN a0 a14 a15

/-- The source column, indices made non-negative. -/
def idxS : Vec F S800000x1 .i32 := asCol (normIdx a2)
/-- The target column, indices made non-negative. -/
def idxD : Vec F S800000x1 .i32 := asCol (normIdx a3)
/-- The target column as given. -/
def dstCol : Vec F S800000x1 .i32 := asCol a3

/-- Row e: row (source e) of the D projection. -/
def gD : Vec F S800000x128 .f32 := gath (affD a0 a12 a13) (idxS a2)
/-- Row e: row (target e) of the E projection. -/
def gE : Vec F S800000x128 .f32 := gath (affE a0 a14 a15) (idxD a3)
/-- Row e: row (source e) of the B projection. -/
def gB : Vec F S800000x128 .f32 := gath (affB a0 a8 a9) (idxS a2)

/-- The gate logits: the edge's own projection plus the source's and the target's. -/
def z : Vec F S800000x128 .f32 := addf (addf (affC a1 a10 a11) (gD a0 a2 a12 a13)) (gE a0 a3 a14 a15)
/-- The gate. -/
def sg : Vec F S800000x128 .f32 := gateOf (z a0 a1 a2 a3 a10 a11 a12 a13 a14 a15)
/-- The gated message. -/
def msg : Vec F S800000x128 .f32 := mulf (sg a0 a1 a2 a3 a10 a11 a12 a13 a14 a15) (gB a0 a2 a8 a9)
/-- The messages summed at their targets. -/
def num : Vec F S50000x128 .f32 := scat (fillN 0x00000000#32) (dstCol a3) (msg a0 a1 a2 a3 a8 a9 a10 a11 a12 a13 a14 a15)
/-- The gates summed at their targets. -/
def den : Vec F S50000x128 .f32 := scat (fillN 0x00000000#32) (dstCol a3) (sg a0 a1 a2 a3 a10 a11 a12 a13 a14 a15)

/-- The node rows before normalisation: (A projection + num / (den + ε)) scaled row-wise. -/
def hMid : Vec F S50000x128 .f32 :=
  mulf (addf (affA a0 a6 a7)
      (Host.divf (num a0 a1 a2 a3 a8 a9 a10 a11 a12 a13 a14 a15)
        (addf (den a0 a1 a2 a3 a10 a11 a12 a13 a14 a15) (fillN 0x358637BD#32))))
    (broadcastInDim S50000x128 ![0, 1] bcast_S50000x1_S50000x128_0_1 a4)
/-- The edge rows before normalisation: the logits scaled row-wise. -/
def eMid : Vec F S800000x128 .f32 :=
  mulf (z a0 a1 a2 a3 a10 a11 a12 a13 a14 a15) (broadcastInDim S800000x128 ![0, 1] bcast_S800000x1_S800000x128_0_1 a5)

def meanH : Vec F S128 .f32 := meanN (hMid a0 a1 a2 a3 a4 a6 a7 a8 a9 a10 a11 a12 a13 a14 a15)
def varH : Vec F S128 .f32 := varN (hMid a0 a1 a2 a3 a4 a6 a7 a8 a9 a10 a11 a12 a13 a14 a15)
def meanEd : Vec F S128 .f32 := meanE (eMid a0 a1 a2 a3 a5 a10 a11 a12 a13 a14 a15)
def varEd : Vec F S128 .f32 := varE (eMid a0 a1 a2 a3 a5 a10 a11 a12 a13 a14 a15)

end Stages

/-! ## The two results, over all twenty argument arrays in the program's order (each reads the ones it needs) -/

/-- The first result: node features plus the rectified normalised node rows. -/
def outH (a0 : Vec F S50000x128 .f32) (a1 : Vec F S800000x128 .f32) (a2 a3 : Vec F S800000 .i32)
    (a4 : Vec F S50000x1 .f32) (a5 : Vec F S800000x1 .f32)
    (a6 : Vec F S128x128 .f32) (a7 : Vec F S128 .f32) (a8 : Vec F S128x128 .f32) (a9 : Vec F S128 .f32)
    (a10 : Vec F S128x128 .f32) (a11 : Vec F S128 .f32) (a12 : Vec F S128x128 .f32) (a13 : Vec F S128 .f32)
    (a14 : Vec F S128x128 .f32) (a15 : Vec F S128 .f32) (a16 a17 a18 a19 : Vec F S128 .f32) : Vec F S50000x128 .f32 :=
  addf a0 (reluN (normN (hMid a0 a1 a2 a3 a4 a6 a7 a8 a9 a10 a11 a12 a13 a14 a15)
    (meanH a0 a1 a2 a3 a4 a6 a7 a8 a9 a10 a11 a12 a13 a14 a15) (varH a0 a1 a2 a3 a4 a6 a7 a8 a9 a10 a11 a12 a13 a14 a15) a16 a17))
/-- The second result: edge features plus the rectified normalised edge rows. -/
def outE (a0 : Vec F S50000x128 .f32) (a1 : Vec F S800000x128 .f32) (a2 a3 : Vec F S800000 .i32)
    (a4 : Vec F S50000x1 .f32) (a5 : Vec F S800000x1 .f32)
    (a6 : Vec F S128x128 .f32) (a7 : Vec F S128 .f32) (a8 : Vec F S128x128 .f32) (a9 : Vec F S128 .f32)
    (a10 : Vec F S128x128 .f32) (a11 : Vec F S128 .f32) (a12 : Vec F S128x128 .f32) (a13 : Vec F S128 .f32)
    (a14 : Vec F S128x128 .f32) (a15 : Vec F S128 .f32) (a16 a17 a18 a19 : Vec F S128 .f32) : Vec F S800000x128 .f32 :=
  addf a1 (reluE (normE (eMid a0 a1 a2 a3 a5 a10 a11 a12 a13 a14 a15)
    (meanEd a0 a1 a2 a3 a5 a10 a11 a12 a13 a14 a15) (varEd a0 a1 a2 a3 a5 a10 a11 a12 a13 a14 a15) a18 a19))

end Cert.RefRun

end
-- ==== Proof.RefRunVals.lean ====
/-
  The buffer contents after each stretch of the reference's operations, read as the named stages of the computation:
  after the first stretch the five affine maps, after the second the gate logits, then the gate, the gated message,
  the two aggregates' common zero start, the two arrays before normalisation, their column means and variances, the
  normalised node rows, and at the end the two results. Each lemma unfolds one stretch of operations, reads every
  operation's result off at its own buffer, and replaces what the stretch reads from earlier stretches by its stage.
-/
import proofs.«133196_j81149112091152_2_alg».proof.Proof.RefRunKeep
import proofs.«133196_j81149112091152_2_alg».proof.Proof.RefRunStages

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-! ## The argument arrays read off the buffer contents -/

abbrev A0 : Vec F S50000x128 .f32 := V (Proc.devRef .tc main_arg0)
abbrev A1 : Vec F S800000x128 .f32 := V (Proc.devRef .tc main_arg1)
abbrev A2 : Vec F S800000 .i32 := V (Proc.devRef .tc main_arg2)
abbrev A3 : Vec F S800000 .i32 := V (Proc.devRef .tc main_arg3)
abbrev A4 : Vec F S50000x1 .f32 := V (Proc.devRef .tc main_arg4)
abbrev A5 : Vec F S800000x1 .f32 := V (Proc.devRef .tc main_arg5)
abbrev A6 : Vec F S128x128 .f32 := V (Proc.devRef .tc main_arg6)
abbrev A7 : Vec F S128 .f32 := V (Proc.devRef .tc main_arg7)
abbrev A8 : Vec F S128x128 .f32 := V (Proc.devRef .tc main_arg8)
abbrev A9 : Vec F S128 .f32 := V (Proc.devRef .tc main_arg9)
abbrev A10 : Vec F S128x128 .f32 := V (Proc.devRef .tc main_arg10)
abbrev A11 : Vec F S128 .f32 := V (Proc.devRef .tc main_arg11)
abbrev A12 : Vec F S128x128 .f32 := V (Proc.devRef .tc main_arg12)
abbrev A13 : Vec F S128 .f32 := V (Proc.devRef .tc main_arg13)
abbrev A14 : Vec F S128x128 .f32 := V (Proc.devRef .tc main_arg14)
abbrev A15 : Vec F S128 .f32 := V (Proc.devRef .tc main_arg15)
abbrev A16 : Vec F S128 .f32 := V (Proc.devRef .tc main_arg16)
abbrev A17 : Vec F S128 .f32 := V (Proc.devRef .tc main_arg17)
abbrev A18 : Vec F S128 .f32 := V (Proc.devRef .tc main_arg18)
abbrev A19 : Vec F S128 .f32 := V (Proc.devRef .tc main_arg19)

/-! ## The stages at those arrays -/

abbrev zV : Vec F S800000x128 .f32 := z (A0 V) (A1 V) (A2 V) (A3 V) (A10 V) (A11 V) (A12 V) (A13 V) (A14 V) (A15 V)
abbrev sgV : Vec F S800000x128 .f32 := sg (A0 V) (A1 V) (A2 V) (A3 V) (A10 V) (A11 V) (A12 V) (A13 V) (A14 V) (A15 V)
abbrev msgV : Vec F S800000x128 .f32 :=
  msg (A0 V) (A1 V) (A2 V) (A3 V) (A8 V) (A9 V) (A10 V) (A11 V) (A12 V) (A13 V) (A14 V) (A15 V)
abbrev hMidV : Vec F S50000x128 .f32 :=
  hMid (A0 V) (A1 V) (A2 V) (A3 V) (A4 V) (A6 V) (A7 V) (A8 V) (A9 V) (A10 V) (A11 V) (A12 V) (A13 V) (A14 V) (A15 V)
abbrev eMidV : Vec F S800000x128 .f32 :=
  eMid (A0 V) (A1 V) (A2 V) (A3 V) (A5 V) (A10 V) (A11 V) (A12 V) (A13 V) (A14 V) (A15 V)
abbrev meanHV : Vec F S128 .f32 :=
  meanH (A0 V) (A1 V) (A2 V) (A3 V) (A4 V) (A6 V) (A7 V) (A8 V) (A9 V) (A10 V) (A11 V) (A12 V) (A13 V) (A14 V) (A15 V)
abbrev varHV : Vec F S128 .f32 :=
  varH (A0 V) (A1 V) (A2 V) (A3 V) (A4 V) (A6 V) (A7 V) (A8 V) (A9 V) (A10 V) (A11 V) (A12 V) (A13 V) (A14 V) (A15 V)
abbrev meanEV : Vec F S128 .f32 :=
  meanEd (A0 V) (A1 V) (A2 V) (A3 V) (A5 V) (A10 V) (A11 V) (A12 V) (A13 V) (A14 V) (A15 V)
abbrev varEV : Vec F S128 .f32 :=
  varEd (A0 V) (A1 V) (A2 V) (A3 V) (A5 V) (A10 V) (A11 V) (A12 V) (A13 V) (A14 V) (A15 V)
abbrev outHV : Vec F S50000x128 .f32 :=
  outH (A0 V) (A1 V) (A2 V) (A3 V) (A4 V) (A5 V) (A6 V) (A7 V) (A8 V) (A9 V) (A10 V) (A11 V) (A12 V) (A13 V) (A14 V) (A15 V)
    (A16 V) (A17 V) (A18 V) (A19 V)
abbrev outEV : Vec F S800000x128 .f32 :=
  outE (A0 V) (A1 V) (A2 V) (A3 V) (A4 V) (A5 V) (A6 V) (A7 V) (A8 V) (A9 V) (A10 V) (A11 V) (A12 V) (A13 V) (A14 V) (A15 V)
    (A16 V) (A17 V) (A18 V) (A19 V)

/-! ## After the first stretch: the five affine maps -/

set_option maxRecDepth 8192 in
set_option maxHeartbeats 2000000 in
theorem val1_v3 : val1 V (no_index (Proc.devRef .tc main_v3)) = affA (A0 V) (A6 V) (A7 V) := by
  unfold val1
  simp only [wA]
  after_results_simp
  rfl

set_option maxRecDepth 8192 in
set_option maxHeartbeats 2000000 in
theorem val1_v7 : val1 V (no_index (Proc.devRef .tc main_v7)) = affB (A0 V) (A8 V) (A9 V) := by
  unfold val1
  simp only [wA]
  after_results_simp
  rfl

set_option maxRecDepth 8192 in
set_option maxHeartbeats 2000000 in
theorem val1_v11 : val1 V (no_index (Proc.devRef .tc main_v11)) = affC (A1 V) (A10 V) (A11 V) := by
  unfold val1
  simp only [wA]
  after_results_simp
  rfl

set_option maxRecDepth 8192 in
set_option maxHeartbeats 2000000 in
theorem val1_v15 : val1 V (no_index (Proc.devRef .tc main_v15)) = affD (A0 V) (A12 V) (A13 V) := by
  unfold val1
  simp only [wA]
  after_results_simp
  rfl

set_option maxRecDepth 8192 in
set_option maxHeartbeats 2000000 in
theorem val1_v19 : val1 V (no_index (Proc.devRef .tc main_v19)) = affE (A0 V) (A14 V) (A15 V) := by
  unfold val1
  simp only [wA]
  after_results_simp
  rfl

theorem val1_A2 : val1 V (no_index (Proc.devRef .tc main_arg2)) = A2 V := val1_arg V main_arg2 (by decide)
theorem val1_A3 : val1 V (no_index (Proc.devRef .tc main_arg3)) = A3 V := val1_arg V main_arg3 (by decide)

/-! ## After the second stretch: the gate logits -/

set_option maxRecDepth 8192 in
set_option maxHeartbeats 2000000 in
theorem val2_v35 : val2 V (no_index (Proc.devRef .tc main_v35)) = zV V := by
  unfold val2
  simp only [wB]
  after_results_simp
  simp only [val1_v11, val1_v15, val1_v19, val1_A2, val1_A3]
  rfl

theorem val2_v3 : val2 V (no_index (Proc.devRef .tc main_v3)) = affA (A0 V) (A6 V) (A7 V) :=
  (val2_keep V main_v3 (by decide)).trans (val1_v3 V)
theorem val2_v7 : val2 V (no_index (Proc.devRef .tc main_v7)) = affB (A0 V) (A8 V) (A9 V) :=
  (val2_keep V main_v7 (by decide)).trans (val1_v7 V)
theorem val2_A2 : val2 V (no_index (Proc.devRef .tc main_arg2)) = A2 V := val2_arg V main_arg2 (by decide)

/-! ## After the third stretch: the gate, the gated message, and the zero array the aggregates start from -/

set_option maxRecDepth 8192 in
set_option maxHeartbeats 2000000 in
theorem val3_v41 : val3 V (no_index (Proc.devRef .tc main_v41)) = sgV V := by
  unfold val3
  simp only [wC]
  after_results_simp
  simp only [val2_v35]
  rfl

set_option maxRecDepth 8192 in
set_option maxHeartbeats 2000000 in
theorem val3_v49 : val3 V (no_index (Proc.devRef .tc main_v49)) = msgV V := by
  unfold val3
  simp only [wC]
  after_results_simp
  simp only [val2_v35, val2_v7, val2_A2]
  rfl

set_option maxRecDepth 8192 in
set_option maxHeartbeats 2000000 in
theorem val3_v50 : val3 V (no_index (Proc.devRef .tc main_v50)) = (fillN 0x00000000#32 : Vec F S50000x128 .f32) := by
  unfold val3
  simp only [wC]
  after_results_simp
  rfl

theorem val3_v35 : val3 V (no_index (Proc.devRef .tc main_v35)) = zV V :=
  (val3_keep V main_v35 (by decide)).trans (val2_v35 V)
theorem val3_v3 : val3 V (no_index (Proc.devRef .tc main_v3)) = affA (A0 V) (A6 V) (A7 V) :=
  (val3_keep V main_v3 (by decide)).trans (val2_v3 V)
theorem val3_A3 : val3 V (no_index (Proc.devRef .tc main_arg3)) = A3 V := val3_arg V main_arg3 (by decide)
theorem val3_A4 : val3 V (no_index (Proc.devRef .tc main_arg4)) = A4 V := val3_arg V main_arg4 (by decide)
theorem val3_A5 : val3 V (no_index (Proc.devRef .tc main_arg5)) = A5 V := val3_arg V main_arg5 (by decide)

/-! ## After the fourth stretch: the node rows and the edge rows before normalisation -/

set_option maxRecDepth 8192 in
set_option maxHeartbeats 2000000 in
theorem val4_v61 : val4 V (no_index (Proc.devRef .tc main_v61)) = hMidV V := by
  unfold val4
  simp only [wD]
  after_results_simp
  simp only [val3_v50, val3_v49, val3_v41, val3_v3, val3_A3, val3_A4]
  rfl

set_option maxRecDepth 8192 in
set_option maxHeartbeats 2000000 in
theorem val4_v63 : val4 V (no_index (Proc.devRef .tc main_v63)) = eMidV V := by
  unfold val4
  simp only [wD]
  after_results_simp
  simp only [val3_v35, val3_A5]
  rfl

/-! ## After the fifth stretch: the column means and variances of the node rows -/

set_option maxRecDepth 8192 in
set_option maxHeartbeats 2000000 in
theorem val5_v66 : val5 V (no_index (Proc.devRef .tc main_v66)) = meanHV V := by
  unfold val5
  simp only [wE]
  after_results_simp
  simp only [val4_v61]
  rfl

set_option maxRecDepth 8192 in
set_option maxHeartbeats 2000000 in
theorem val5_v67 : val5 V (no_index (Proc.devRef .tc main_v67)) = varHV V := by
  unfold val5
  simp only [wE]
  after_results_simp
  simp only [val4_v61]
  rfl

theorem val5_v61 : val5 V (no_index (Proc.devRef .tc main_v61)) = hMidV V :=
  (val5_keep V main_v61 (by decide)).trans (val4_v61 V)
theorem val5_v63 : val5 V (no_index (Proc.devRef .tc main_v63)) = eMidV V :=
  (val5_keep V main_v63 (by decide)).trans (val4_v63 V)
theorem val5_A16 : val5 V (no_index (Proc.devRef .tc main_arg16)) = A16 V := val5_arg V main_arg16 (by decide)
theorem val5_A17 : val5 V (no_index (Proc.devRef .tc main_arg17)) = A17 V := val5_arg V main_arg17 (by decide)

/-! ## After the sixth stretch: the normalised node rows -/

set_option maxRecDepth 8192 in
set_option maxHeartbeats 2000000 in
theorem val6_v82 : val6 V (no_index (Proc.devRef .tc main_v82)) = normN (hMidV V) (meanHV V) (varHV V) (A16 V) (A17 V) := by
  unfold val6
  simp only [wF]
  after_results_simp
  simp only [val5_v61, val5_v66, val5_v67, val5_A16, val5_A17]
  rfl

theorem val6_v63 : val6 V (no_index (Proc.devRef .tc main_v63)) = eMidV V :=
  (val6_keep V main_v63 (by decide)).trans (val5_v63 V)

/-! ## After the seventh stretch: the column means and variances of the edge rows -/

set_option maxRecDepth 8192 in
set_option maxHeartbeats 2000000 in
theorem val7_v85 : val7 V (no_index (Proc.devRef .tc main_v85)) = meanEV V := by
  unfold val7
  simp only [wG]
  after_results_simp
  simp only [val6_v63]
  rfl

set_option maxRecDepth 8192 in
set_option maxHeartbeats 2000000 in
theorem val7_v86 : val7 V (no_index (Proc.devRef .tc main_v86)) = varEV V := by
  unfold val7
  simp only [wG]
  after_results_simp
  simp only [val6_v63]
  rfl

theorem val7_v63 : val7 V (no_index (Proc.devRef .tc main_v63)) = eMidV V :=
  (val7_keep V main_v63 (by decide)).trans (val6_v63 V)
theorem val7_v82 : val7 V (no_index (Proc.devRef .tc main_v82)) = normN (hMidV V) (meanHV V) (varHV V) (A16 V) (A17 V) :=
  (val7_keep V main_v82 (by decide)).trans (val6_v82 V)
theorem val7_A18 : val7 V (no_index (Proc.devRef .tc main_arg18)) = A18 V := val7_arg V main_arg18 (by decide)
theorem val7_A19 : val7 V (no_index (Proc.devRef .tc main_arg19)) = A19 V := val7_arg V main_arg19 (by decide)

/-! ## After the eighth stretch: the scaled normalised edge rows and the shift still to be added -/

set_option maxRecDepth 8192 in
set_option maxHeartbeats 2000000 in
theorem val8_v98 : val8 V (no_index (Proc.devRef .tc main_v98)) =
    mulf (mulf (subf (eMidV V) (rowsE (meanEV V))) (rowsE (Host.rsqrt (addf (varEV V) (fillF 0x3727C5AC#32))))) (rowsE (A18 V)) := by
  unfold val8
  simp only [wH]
  after_results_simp
  simp only [val7_v63, val7_v85, val7_v86, val7_A18]
  rfl

set_option maxRecDepth 8192 in
set_option maxHeartbeats 2000000 in
theorem val8_v100 : val8 V (no_index (Proc.devRef .tc main_v100)) = rowsE (A19 V) := by
  unfold val8
  simp only [wH]
  after_results_simp
  simp only [val7_A19]
  rfl

theorem val8_v82 : val8 V (no_index (Proc.devRef .tc main_v82)) = normN (hMidV V) (meanHV V) (varHV V) (A16 V) (A17 V) :=
  (val8_keep V main_v82 (by decide)).trans (val7_v82 V)
theorem val8_A0 : val8 V (no_index (Proc.devRef .tc main_arg0)) = A0 V := val8_arg V main_arg0 (by decide)
theorem val8_A1 : val8 V (no_index (Proc.devRef .tc main_arg1)) = A1 V := val8_arg V main_arg1 (by decide)

/-! ## After the ninth stretch: the two results -/

set_option maxRecDepth 8192 in
set_option maxHeartbeats 2000000 in
theorem val9_v104 : val9 V (no_index (Proc.devRef .tc main_v104)) = outHV V := by
  unfold val9
  simp only [wI]
  after_results_simp
  simp only [val8_v82, val8_A0]
  rfl

set_option maxRecDepth 8192 in
set_option maxHeartbeats 2000000 in
theorem val9_v105 : val9 V (no_index (Proc.devRef .tc main_v105)) = outEV V := by
  unfold val9
  simp only [wI]
  after_results_simp
  simp only [val8_v98, val8_v100, val8_A1]
  rfl

end Cert.RefRun

end
-- ==== Proof.RefRun.lean ====
/-
  The reference's run: from any memory with zero counters every weakly fair execution of @main terminates, the two
  result buffers hold the two composed results of the argument arrays' launch contents, and the argument arrays are
  unchanged. The program is a straight line of operations, so the final contents are the fold of the operations'
  results over the launch contents; the fold is read stretch by stretch as the named stages.
-/
import proofs.«133196_j81149112091152_2_alg».proof.Proof.RefRunVals
import proofs.«133196_j81149112091152_2_alg».proof.Proof.Gen.Pre_finite_inputs
import proofs.«133196_j81149112091152_2_alg».proof.Defs

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- On every device, for any float values, from any memory with zero counters: every weakly fair execution of @main
    terminates with the two results at their composed terms of the argument arrays and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v104) = outH
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v105) = outE
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨
      (h c main_v104).trans (by rw [after_ops]; exact val9_v104 (launchContents m c)),
      (h c main_v105).trans (by rw [after_ops]; exact val9_v105 (launchContents m c)),
      (h c main_arg0).trans (by rw [after_ops]; exact val9_arg _ main_arg0 (by decide)),
      (h c main_arg1).trans (by rw [after_ops]; exact val9_arg _ main_arg1 (by decide)),
      (h c main_arg2).trans (by rw [after_ops]; exact val9_arg _ main_arg2 (by decide)),
      (h c main_arg3).trans (by rw [after_ops]; exact val9_arg _ main_arg3 (by decide)),
      (h c main_arg4).trans (by rw [after_ops]; exact val9_arg _ main_arg4 (by decide)),
      (h c main_arg5).trans (by rw [after_ops]; exact val9_arg _ main_arg5 (by decide)),
      (h c main_arg6).trans (by rw [after_ops]; exact val9_arg _ main_arg6 (by decide)),
      (h c main_arg7).trans (by rw [after_ops]; exact val9_arg _ main_arg7 (by decide)),
      (h c main_arg8).trans (by rw [after_ops]; exact val9_arg _ main_arg8 (by decide)),
      (h c main_arg9).trans (by rw [after_ops]; exact val9_arg _ main_arg9 (by decide)),
      (h c main_arg10).trans (by rw [after_ops]; exact val9_arg _ main_arg10 (by decide)),
      (h c main_arg11).trans (by rw [after_ops]; exact val9_arg _ main_arg11 (by decide)),
      (h c main_arg12).trans (by rw [after_ops]; exact val9_arg _ main_arg12 (by decide)),
      (h c main_arg13).trans (by rw [after_ops]; exact val9_arg _ main_arg13 (by decide)),
      (h c main_arg14).trans (by rw [after_ops]; exact val9_arg _ main_arg14 (by decide)),
      (h c main_arg15).trans (by rw [after_ops]; exact val9_arg _ main_arg15 (by decide)),
      (h c main_arg16).trans (by rw [after_ops]; exact val9_arg _ main_arg16 (by decide)),
      (h c main_arg17).trans (by rw [after_ops]; exact val9_arg _ main_arg17 (by decide)),
      (h c main_arg18).trans (by rw [after_ops]; exact val9_arg _ main_arg18 (by decide)),
      (h c main_arg19).trans (by rw [after_ops]; exact val9_arg _ main_arg19 (by decide))⟩)
    (run_seq scopedRefs_eq scopedSems_eq defs main (fun _ => ops) main_eq (fun _ => ops_sub) m ρ)

/-- The reference runs and its argument arrays end unchanged. -/
theorem frame_ref : Cert.frame_ReferenceIdeal (hReferenceIdeal := Cert.ReferenceIdeal.Gen.facts)
    (hPre_finite_inputs := Cert.Pre_finite_inputs.Gen.facts) :=
  fun m ρ _ => (θ_run (defs (F := Ideal)) _ _).mono (fun _ h c => (h c).2.2) (run m ρ)

end Cert.RefRun

end
-- ==== Proof.LibAffine.lean ====
import Idealize.ShloMosaic.PureOps.Ideal
import Idealize.ShloMosaic.PureOps.Ideal.Laws
import Idealize.ShloMosaic.PureOps.Contract
import Idealize.ShloMosaic.Lib.ValueIdx
import Idealize.ShloMosaic.Lib.KernelVsHost
/-!
# A product of rows by a matrix, plus a bias, read at an index

The host's `dot_general` of `[R, K]` by `[K, M]` contracting the left operand's axis 1 with the right operand's axis 0,
no batch axis: entry `(p, q)` is the sum over `k` of `x (p, k) · W (k, q)`. A bias of `M` entries broadcast to one row
and then down the `R` rows reads, at `(p, q)`, its entry `q`.
-/
noncomputable section
open scoped BigOperators
open Idealize.ShloMosaic Idealize.ShloMosaic.ValueIdx

namespace Cert.LibAffine

section Dot
variable {R K M : Nat} (D : DotDims ⟨2, ![R, K]⟩ ⟨2, ![K, M]⟩ ⟨2, ![R, M]⟩)

/-- One contracted axis: the contraction shape has rank one. -/
theorem contr_rank (hlc : D.lhsContracting = [1]) : D.contr.rank = 1 := by
  rw [D.rank_contr, hlc]; rfl

/-- Its one extent is the left operand's number of columns. -/
theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The left operand's row coordinate is the output's row coordinate. -/
theorem lhsIdx_row_val (hln : D.lhsNonContracting = [0]) (hlb : D.lhsBatch = [])
    (j : (⟨2, ![R, M]⟩ : Shape).Idx) (k : D.contr.Idx) : (D.lhsIdx j k 0).val = (j 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  have key : ∀ (m m' : Nat) (hm : m < 2) (hm' : m' < 2), m = m' → (j ⟨m, hm⟩).val = (j ⟨m', hm'⟩).val :=
    fun m m' hm hm' h => by subst h; rfl
  exact key _ _ _ _ (by simp [hlb, hln])

/-- The right operand's column coordinate is the output's column coordinate. -/
theorem rhsIdx_col_val (hln : D.lhsNonContracting = [0]) (hrn : D.rhsNonContracting = [1]) (hlb : D.lhsBatch = [])
    (hrb : D.rhsBatch = []) (j : (⟨2, ![R, M]⟩ : Shape).Idx) (k : D.contr.Idx) : (D.rhsIdx j k 1).val = (j 1).val := by
  have hb : (1 : Fin 2) ∉ D.rhsBatch := by rw [hrb]; exact List.not_mem_nil
  have hn : (1 : Fin 2) ∈ D.rhsNonContracting := by rw [hrn]; exact List.mem_singleton.mpr rfl
  unfold DotDims.rhsIdx
  rw [dif_neg hb, dif_pos hn]
  simp only [Fin.val_cast]
  have key : ∀ (m m' : Nat) (hm : m < 2) (hm' : m' < 2), m = m' → (j ⟨m, hm⟩).val = (j ⟨m', hm'⟩).val :=
    fun m m' hm hm' h => by subst h; rfl
  exact key _ _ _ _ (by simp [hlb, hln, hrn])

variable (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- The contraction sum at `(p, q)`, re-indexed by the contracted coordinate. -/
theorem dot_sum_rows (x : (⟨2, ![R, K]⟩ : Shape).Idx → EReal) (W : (⟨2, ![K, M]⟩ : Shape).Idx → EReal) (p : Fin R) (q : Fin M) :
    ∑ k : D.contr.Idx, x (D.lhsIdx (ix2 p q) k) * W (D.rhsIdx (ix2 p q) k) = ∑ k : Fin K, x (ix2 p k) * W (ix2 k q) := by
  have hr := contr_rank D hlc
  have hs := contr_size D hlc
  rw [← Equiv.sum_comp (contrEquiv1 D K hr hs).symm]
  refine Finset.sum_congr rfl fun i _ => ?_
  have e1 : D.lhsIdx (ix2 p q) ((contrEquiv1 D K hr hs).symm i) = ix2 p i := by
    funext a; apply Fin.ext
    match a with
    | ⟨0, _⟩ => exact lhsIdx_row_val D hln hlb (ix2 p q) _
    | ⟨1, _⟩ => exact (D.lhsIdx_val_of_single hlc _ _).trans (contrEquiv1_symm_val D K hr hs i)
  have e2 : D.rhsIdx (ix2 p q) ((contrEquiv1 D K hr hs).symm i) = ix2 i q := by
    funext a; apply Fin.ext
    match a with
    | ⟨0, _⟩ => exact (D.rhsIdx_val_of_single hrc _ _).trans (contrEquiv1_symm_val D K hr hs i)
    | ⟨1, _⟩ => exact rhsIdx_col_val D hln hrn hlb hrb (ix2 p q) _
  rw [e1, e2]

include hlc hrc hln hrn hlb hrb in
/-- THE HOST'S `dot_general` READ AT `(p, q)`: the sum over the contracted coordinate of the products. -/
theorem dotGeneral_rows_apply {φ₁ φ₂ : FTy} (prec : Option ContractPrecision)
    (x : FVec Ideal ⟨2, ![R, K]⟩ φ₁) (W : FVec Ideal ⟨2, ![K, M]⟩ φ₂) (p : Fin R) (q : Fin M) :
    Host.dotGeneral (F := Ideal) D prec x W (ix2 p q) = ∑ k : Fin K, x (ix2 p k) * W (ix2 k q) := by
  show FloatOps.dotGeneral D prec .single x W (ix2 p q) = _
  rw [Ideal.dotGeneral_apply]
  exact dot_sum_rows D hlc hrc hln hrn hlb hrb x W p q

end Dot

section Bias
variable {α : Type} {R M : Nat}

/-- A vector of `M` entries made a one-row matrix reads, at `(0, t)`, its entry `t`. -/
theorem broadcastInDim_toRow_apply (h1 : (⟨1, ![M]⟩ : Shape).BroadcastsInDim ⟨2, ![1, M]⟩ ![1])
    (b : (⟨1, ![M]⟩ : Shape).Idx → α) (t : Fin M) :
    broadcastInDim ⟨2, ![1, M]⟩ ![1] h1 b (ix2 (0 : Fin 1) t) = b (ix1 t) := by
  refine broadcastInDim_apply ![1] h1 b (ix2 (0 : Fin 1) t) (ix1 t) ?_
  intro a
  match a with
  | ⟨0, _⟩ =>
    show t.val = if M = 1 then 0 else t.val
    split_ifs with hM
    · have := t.isLt; omega
    · rfl

/-- The bias broadcast to one row and then down `R` rows reads, at `(p, q)`, its entry `q`. -/
theorem bias_rows_apply (h1 : (⟨1, ![M]⟩ : Shape).BroadcastsInDim ⟨2, ![1, M]⟩ ![1])
    (h2 : (⟨2, ![1, M]⟩ : Shape).BroadcastsInDim ⟨2, ![R, M]⟩ ![0, 1])
    (b : (⟨1, ![M]⟩ : Shape).Idx → α) (p : Fin R) (q : Fin M) :
    broadcastInDim ⟨2, ![R, M]⟩ ![0, 1] h2 (broadcastInDim ⟨2, ![1, M]⟩ ![1] h1 b) (ix2 p q) = b (ix1 q) := by
  rw [broadcastInDim_oneRow_apply, broadcastInDim_toRow_apply]

end Bias

section Affine
variable {R K M : Nat} (D : DotDims ⟨2, ![R, K]⟩ ⟨2, ![K, M]⟩ ⟨2, ![R, M]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- `x · W + b` as the host computes it, read at `(p, q)`: the sum over `k` of `x (p, k) · W (k, q)`, plus `b q`. -/
theorem affine_rows_apply (prec : Option ContractPrecision)
    (h1 : (⟨1, ![M]⟩ : Shape).BroadcastsInDim ⟨2, ![1, M]⟩ ![1])
    (h2 : (⟨2, ![1, M]⟩ : Shape).BroadcastsInDim ⟨2, ![R, M]⟩ ![0, 1])
    (x : FVec Ideal ⟨2, ![R, K]⟩ .f32) (W : FVec Ideal ⟨2, ![K, M]⟩ .f32) (b : FVec Ideal ⟨1, ![M]⟩ .f32)
    (p : Fin R) (q : Fin M) :
    addf (Host.dotGeneral (F := Ideal) D prec x W)
        (broadcastInDim ⟨2, ![R, M]⟩ ![0, 1] h2 (broadcastInDim ⟨2, ![1, M]⟩ ![1] h1 b)) (ix2 p q)
      = (∑ k : Fin K, x (ix2 p k) * W (ix2 k q)) + b (ix1 q) := by
  rw [addf_apply, dotGeneral_rows_apply D hlc hrc hln hrn hlb hrb, bias_rows_apply]

end Affine

end Cert.LibAffine
end
-- ==== Proof.LibLayout.lean ====
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.KernelVsHost
/-!
# Layout operations of the host read at an index

A column `[R, 1]` broadcast along the rows' entries, a vector made a column, a range of columns cut out of a matrix, and the
host's sum down the rows (axis 0) of a matrix and of a stack of one-row matrices — each read at explicit coordinates.
(A one-row matrix broadcast down the rows and a scalar broadcast are in the library: `broadcastInDim_oneRow_apply`,
`broadcastInDim_scalar_apply`.)
-/
noncomputable section
open scoped BigOperators
open Idealize.ShloMosaic Idealize.ShloMosaic.ValueIdx

namespace Cert.LibLayout

section Broadcasts
variable {α : Type}

/-- A column `[R, 1]` broadcast to `[R, M]` reads, at `(p, q)`, the column's entry `p`. -/
theorem broadcastInDim_col_apply {R M : Nat} (h : (⟨2, ![R, 1]⟩ : Shape).BroadcastsInDim ⟨2, ![R, M]⟩ ![0, 1])
    (y : (⟨2, ![R, 1]⟩ : Shape).Idx → α) (p : Fin R) (q : Fin M) :
    broadcastInDim ⟨2, ![R, M]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if R = 1 then 0 else p.val
    split_ifs with hR
    · have := p.isLt; omega
    · rfl
  | ⟨1, _⟩ =>
    show (0 : ℕ) = if (1 : ℕ) = 1 then 0 else q.val
    simp

/-- A vector of `E` entries made a column `[E, 1]` reads, at `(r, 0)`, its entry `r`. -/
theorem broadcastInDim_toCol_apply {E : Nat} (h : (⟨1, ![E]⟩ : Shape).BroadcastsInDim ⟨2, ![E, 1]⟩ ![0])
    (v : (⟨1, ![E]⟩ : Shape).Idx → α) (r : Fin E) :
    broadcastInDim ⟨2, ![E, 1]⟩ ![0] h v (ix2 r (0 : Fin 1)) = v (ix1 r) := by
  refine broadcastInDim_apply ![0] h v (ix2 r (0 : Fin 1)) (ix1 r) ?_
  intro a
  match a with
  | ⟨0, _⟩ =>
    show r.val = if E = 1 then 0 else r.val
    split_ifs with hE
    · have := r.isLt; omega
    · rfl

end Broadcasts

section Slice
variable {α : Type}

/-- The columns `c0 … c0 + M − 1` of a matrix `[R, M']`, read at `(p, q)`: the matrix at `(p, c0 + q)`. -/
theorem slice_cols_apply {R M M' : Nat} (c0 : Nat) (hs : (⟨2, ![R, M']⟩ : Shape).Slices ![0, c0] ⟨2, ![R, M]⟩)
    (x : (⟨2, ![R, M']⟩ : Shape).Idx → α) (p : Fin R) (q : Fin M) (hq : c0 + q.val < M') :
    extractStridedSlice ⟨2, ![R, M]⟩ ![0, c0] x hs (ix2 p q) = x (ix2 p (⟨c0 + q.val, hq⟩ : Fin M')) := by
  refine extractStridedSlice_apply ![0, c0] x hs (ix2 p q) (ix2 p (⟨c0 + q.val, hq⟩ : Fin M')) ?_
  intro a
  match a with
  | ⟨0, _⟩ => show p.val = 0 + p.val; omega
  | ⟨1, _⟩ => rfl

end Slice

section Reduce
variable {φ : FTy}

/-- The source index over `(q)` with row `k`, for the sum down the rows of a matrix. -/
theorem lift_rows {R M : Nat} (h : (⟨2, ![R, M]⟩ : Shape).Reduces [0] ⟨1, ![M]⟩) (q : Fin M) (k : Fin R) :
    h.lift (ix1 q) k = ix2 k q := by
  funext c
  apply Fin.ext
  show Shape.Reduces.liftVal h (ix1 q) k.val c = (ix2 k q c).val
  unfold Shape.Reduces.liftVal
  match c with
  | ⟨0, _⟩ => rfl
  | ⟨1, _⟩ => rfl

/-- THE HOST'S SUM DOWN THE ROWS of a matrix `[R, M]`, read at column `q`: the initial value plus the sum over the rows. -/
theorem reduceAdd_rows_apply {R M : Nat} {u : Shape} (rt : (⟨2, ![R, M]⟩ : Shape).ReducesTo [0] ⟨1, ![M]⟩)
    (hu : 0 < u.numel) (x : FVec Ideal ⟨2, ![R, M]⟩ φ) (init : u.Idx → Ideal φ) (q : Fin M) :
    Host.reduceAdd (F := Ideal) x init rt hu (ix1 q) = init (Shape.Idx.first hu) + ∑ r : Fin R, x (ix2 r q) := by
  have h : (⟨2, ![R, M]⟩ : Shape).Reduces [0] ⟨1, ![M]⟩ := ⟨rt.1, Nat.one_pos, rt.2⟩
  rw [hostReduceAdd_apply, Ideal.hostReduceAdd_single rt h]
  congr 1
  show ∑ k : Fin R, x (h.lift (ix1 q) k) = _
  exact Finset.sum_congr rfl fun k _ => by rw [lift_rows]

/-- The source index over `(0, q)` with part `k`, for the sum over a stack of one-row matrices. -/
theorem lift_parts {P M : Nat} (h : (⟨3, ![P, 1, M]⟩ : Shape).Reduces [0] ⟨2, ![1, M]⟩) (q : Fin M) (k : Fin P) :
    h.lift (ix2 (0 : Fin 1) q) k = ix3 k (0 : Fin 1) q := by
  funext c
  apply Fin.ext
  show Shape.Reduces.liftVal h (ix2 (0 : Fin 1) q) k.val c = (ix3 k (0 : Fin 1) q c).val
  unfold Shape.Reduces.liftVal
  match c with
  | ⟨0, _⟩ => rfl
  | ⟨1, _⟩ => rfl
  | ⟨2, _⟩ => rfl

/-- THE HOST'S SUM OVER A STACK `[P, 1, M]` of one-row matrices (axis 0), read at `(0, q)`: the initial value plus the
    sum over the parts. -/
theorem reduceAdd_parts_apply {P M : Nat} {u : Shape} (rt : (⟨3, ![P, 1, M]⟩ : Shape).ReducesTo [0] ⟨2, ![1, M]⟩)
    (hu : 0 < u.numel) (x : FVec Ideal ⟨3, ![P, 1, M]⟩ φ) (init : u.Idx → Ideal φ) (q : Fin M) :
    Host.reduceAdd (F := Ideal) x init rt hu (ix2 (0 : Fin 1) q)
      = init (Shape.Idx.first hu) + ∑ p : Fin P, x (ix3 p (0 : Fin 1) q) := by
  have h : (⟨3, ![P, 1, M]⟩ : Shape).Reduces [0] ⟨2, ![1, M]⟩ := ⟨rt.1, Nat.succ_pos 1, rt.2⟩
  rw [hostReduceAdd_apply, Ideal.hostReduceAdd_single rt h]
  congr 1
  show ∑ k : Fin P, x (h.lift (ix2 (0 : Fin 1) q) k) = _
  exact Finset.sum_congr rfl fun k _ => by rw [lift_parts]

/-- With a scalar initial value (a rank-0 array) the initial value is its one entry. -/
theorem first_scalar (hu : 0 < (⟨0, ![]⟩ : Shape).numel) : Shape.Idx.first hu = ix0 := eq_ix0 _

/-- The sum down the rows from a scalar initial value. -/
theorem reduceAdd_rows_scalar_apply {R M : Nat} (rt : (⟨2, ![R, M]⟩ : Shape).ReducesTo [0] ⟨1, ![M]⟩)
    (hu : 0 < (⟨0, ![]⟩ : Shape).numel) (x : FVec Ideal ⟨2, ![R, M]⟩ φ) (init : (⟨0, ![]⟩ : Shape).Idx → Ideal φ) (q : Fin M) :
    Host.reduceAdd (F := Ideal) x init rt hu (ix1 q) = init ix0 + ∑ r : Fin R, x (ix2 r q) := by
  rw [reduceAdd_rows_apply, first_scalar]

/-- The sum over a stack of one-row matrices from a scalar initial value. -/
theorem reduceAdd_parts_scalar_apply {P M : Nat} (rt : (⟨3, ![P, 1, M]⟩ : Shape).ReducesTo [0] ⟨2, ![1, M]⟩)
    (hu : 0 < (⟨0, ![]⟩ : Shape).numel) (x : FVec Ideal ⟨3, ![P, 1, M]⟩ φ) (init : (⟨0, ![]⟩ : Shape).Idx → Ideal φ) (q : Fin M) :
    Host.reduceAdd (F := Ideal) x init rt hu (ix2 (0 : Fin 1) q) = init ix0 + ∑ p : Fin P, x (ix3 p (0 : Fin 1) q) := by
  rw [reduceAdd_parts_apply, first_scalar]

end Reduce

end Cert.LibLayout
end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.BridgeFinish.lean ====
/-
  The last step of the layer on the two sides: the mathematical form (residual plus the rectified, normalised, scaled and
  shifted rows, the mean and variance one number per column) equals the reference's composed term, entry by entry.
  Each array operation is read at an index (p, q): a sum, product, difference or maximum of arrays is that of the
  entries, a feature row spread down the rows reads its entry q, a spread constant reads the constant.
-/
import Idealize.ShloMosaic.Lib.IdealHost
import proofs.«133196_j81149112091152_2_alg».proof.Proof.Spec
import proofs.«133196_j81149112091152_2_alg».proof.Proof.RefRunStages
import proofs.«133196_j81149112091152_2_alg».proof.Proof.LibAffine

noncomputable section

namespace Cert.Bridge

open Idealize.ShloMosaic Idealize.ShloMosaic.ValueIdx

/-! ## The reference's small combinators read at an index -/

/-- A constant spread over a node array reads the constant. -/
theorem fillN_apply (w : BitVec 32) (i : Cert.Spec.Nodes.Idx) :
    Cert.RefRun.fillN (F := Ideal) w i = Ideal.ofBits .f32 w := by
  unfold Cert.RefRun.fillN
  rw [broadcastInDim_scalar_apply]
  rfl

/-- A constant spread over an edge array reads the constant. -/
theorem fillE_apply (w : BitVec 32) (i : Cert.Spec.Edges.Idx) :
    Cert.RefRun.fillE (F := Ideal) w i = Ideal.ofBits .f32 w := by
  unfold Cert.RefRun.fillE
  rw [broadcastInDim_scalar_apply]
  rfl

/-- A constant spread over a feature row reads the constant. -/
theorem fillF_apply (w : BitVec 32) (i : Cert.Spec.Feat.Idx) :
    Cert.RefRun.fillF (F := Ideal) w i = Ideal.ofBits .f32 w := by
  unfold Cert.RefRun.fillF
  rw [broadcastInDim_scalar_apply]
  rfl

/-- A feature row spread down the node rows reads, at (p, q), its entry q. -/
theorem rowsN_apply (v : Cert.Spec.Feat.Idx → EReal) (p : Fin 50000) (q : Fin 128) :
    Cert.RefRun.rowsN (F := Ideal) v (ix2 p q) = v (ix1 q) := by
  unfold Cert.RefRun.rowsN
  exact Cert.LibAffine.bias_rows_apply _ _ v p q

/-- A feature row spread down the edge rows reads, at (p, q), its entry q. -/
theorem rowsE_apply (v : Cert.Spec.Feat.Idx → EReal) (p : Fin 800000) (q : Fin 128) :
    Cert.RefRun.rowsE (F := Ideal) v (ix2 p q) = v (ix1 q) := by
  unfold Cert.RefRun.rowsE
  exact Cert.LibAffine.bias_rows_apply _ _ v p q

/-! ## Normalisation, rectifier and residual -/

/-- The normalised node rows at (p, q). -/
theorem normN_apply (y : Cert.Spec.Nodes.Idx → EReal) (μ σ γ β : Cert.Spec.Feat.Idx → EReal) (p : Fin 50000) (q : Fin 128) :
    Cert.RefRun.normN (F := Ideal) y μ σ γ β (ix2 p q)
      = (((y (ix2 p q) - μ (ix1 q)) * Ideal.rsqrt (σ (ix1 q) + Ideal.ofBits .f32 0x3727C5AC#32)) * γ (ix1 q)) + β (ix1 q) := by
  unfold Cert.RefRun.normN
  rw [addf_apply, mulf_apply, mulf_apply, subf_apply, rowsN_apply, rowsN_apply, rowsN_apply, rowsN_apply]
  show (((y (ix2 p q) - μ (ix1 q)) * Ideal.rsqrt (addf (F := Ideal) (φ := .f32) σ (Cert.RefRun.fillF (F := Ideal) 0x3727C5AC#32) (ix1 q))) * γ (ix1 q))
      + β (ix1 q) = _
  rw [addf_apply, fillF_apply]

/-- The normalised edge rows at (p, q). -/
theorem normE_apply (y : Cert.Spec.Edges.Idx → EReal) (μ σ γ β : Cert.Spec.Feat.Idx → EReal) (p : Fin 800000) (q : Fin 128) :
    Cert.RefRun.normE (F := Ideal) y μ σ γ β (ix2 p q)
      = (((y (ix2 p q) - μ (ix1 q)) * Ideal.rsqrt (σ (ix1 q) + Ideal.ofBits .f32 0x3727C5AC#32)) * γ (ix1 q)) + β (ix1 q) := by
  unfold Cert.RefRun.normE
  rw [addf_apply, mulf_apply, mulf_apply, subf_apply, rowsE_apply, rowsE_apply, rowsE_apply, rowsE_apply]
  show (((y (ix2 p q) - μ (ix1 q)) * Ideal.rsqrt (addf (F := Ideal) (φ := .f32) σ (Cert.RefRun.fillF (F := Ideal) 0x3727C5AC#32) (ix1 q))) * γ (ix1 q))
      + β (ix1 q) = _
  rw [addf_apply, fillF_apply]

/-- The node path's last step: the mathematical form is the reference's term, given that the one-row mean and variance
    read the same numbers as the two feature rows. -/
theorem finishN_eq (y x : Cert.Spec.Nodes.Idx → EReal) (mean var : Cert.Spec.Row.Idx → EReal)
    (μ σ γ β : Cert.Spec.Feat.Idx → EReal)
    (hm : ∀ q : Fin 128, mean (ix2 (0 : Fin 1) q) = μ (ix1 q)) (hv : ∀ q : Fin 128, var (ix2 (0 : Fin 1) q) = σ (ix1 q)) :
    Cert.Spec.finishN y x mean var γ β
      = addf (F := Ideal) (φ := .f32) x (Cert.RefRun.reluN (F := Ideal) (Cert.RefRun.normN (F := Ideal) y μ σ γ β)) := by
  funext i
  obtain ⟨p, q, rfl⟩ : ∃ (p : Fin 50000) (q : Fin 128), i = ix2 p q := ⟨i 0, i 1, eq_ix2 i⟩
  unfold Cert.RefRun.reluN
  rw [addf_apply, maximumf_apply, fillN_apply, normN_apply]
  show x (ix2 p q) + max ((((y (ix2 p q) - mean (ix2 (0 : Fin 1) q)) * Ideal.rsqrt (var (ix2 (0 : Fin 1) q) + Cert.Spec.epsNorm))
      * γ (ix1 q)) + β (ix1 q)) Cert.Spec.zeroF = _
  rw [hm q, hv q]

/-- The edge path's last step. -/
theorem finishE_eq (y x : Cert.Spec.Edges.Idx → EReal) (mean var : Cert.Spec.Row.Idx → EReal)
    (μ σ γ β : Cert.Spec.Feat.Idx → EReal)
    (hm : ∀ q : Fin 128, mean (ix2 (0 : Fin 1) q) = μ (ix1 q)) (hv : ∀ q : Fin 128, var (ix2 (0 : Fin 1) q) = σ (ix1 q)) :
    Cert.Spec.finishE y x mean var γ β
      = addf (F := Ideal) (φ := .f32) x (Cert.RefRun.reluE (F := Ideal) (Cert.RefRun.normE (F := Ideal) y μ σ γ β)) := by
  funext i
  obtain ⟨p, q, rfl⟩ : ∃ (p : Fin 800000) (q : Fin 128), i = ix2 p q := ⟨i 0, i 1, eq_ix2 i⟩
  unfold Cert.RefRun.reluE
  rw [addf_apply, maximumf_apply, fillE_apply, normE_apply]
  show x (ix2 p q) + max ((((y (ix2 p q) - mean (ix2 (0 : Fin 1) q)) * Ideal.rsqrt (var (ix2 (0 : Fin 1) q) + Cert.Spec.epsNorm))
      * γ (ix1 q)) + β (ix1 q)) Cert.Spec.zeroF = _
  rw [hm q, hv q]

end Cert.Bridge

end
-- ==== Proof.BridgeEdge.lean ====
/-
  The edge path on the two sides: the affine maps, the gathered rows, the gate, the row-wise scaling and the logits.
  The reference's composed terms equal the mathematical forms entry by entry; the two programs' gathers are the same
  operator over dimension records with the same fields.
-/
import Idealize.ShloMosaic.Lib.IdealHost
import proofs.«133196_j81149112091152_2_alg».proof.Proof.KernelHost
import proofs.«133196_j81149112091152_2_alg».proof.Proof.Spec
import proofs.«133196_j81149112091152_2_alg».proof.Proof.RefRunStages
import proofs.«133196_j81149112091152_2_alg».proof.Proof.LibAffine
import proofs.«133196_j81149112091152_2_alg».proof.Proof.LibLayout
import proofs.«133196_j81149112091152_2_alg».proof.Proof.LibReal
import proofs.«133196_j81149112091152_2_alg».proof.Proof.BridgeFinish

noncomputable section

namespace Cert.Bridge

open Idealize.ShloMosaic Idealize.ShloMosaic.ValueIdx

/-! ## The affine maps -/

/-- x · W + b on node rows: entry (p, q) is the sum over the 128 input features plus the bias of column q. -/
theorem affN_eq (x : Cert.Spec.Nodes.Idx → EReal) (W : Cert.Spec.Weights.Idx → EReal) (b : Cert.Spec.Feat.Idx → EReal) :
    Cert.RefRun.affN (F := Ideal) x W b = Cert.Spec.affineN x W b := by
  funext i
  obtain ⟨p, q, rfl⟩ : ∃ (p : Fin 50000) (q : Fin 128), i = ix2 p q := ⟨i 0, i 1, eq_ix2 i⟩
  unfold Cert.RefRun.affN Cert.RefRun.rowsN
  exact Cert.LibAffine.affine_rows_apply _ rfl rfl rfl rfl rfl rfl none _ _ x W b p q

/-- The same on edge rows. -/
theorem affEd_eq (x : Cert.Spec.Edges.Idx → EReal) (W : Cert.Spec.Weights.Idx → EReal) (b : Cert.Spec.Feat.Idx → EReal) :
    Cert.RefRun.affEd (F := Ideal) x W b = Cert.Spec.affineE x W b := by
  funext i
  obtain ⟨p, q, rfl⟩ : ∃ (p : Fin 800000) (q : Fin 128), i = ix2 p q := ⟨i 0, i 1, eq_ix2 i⟩
  unfold Cert.RefRun.affEd Cert.RefRun.rowsE
  exact Cert.LibAffine.affine_rows_apply _ rfl rfl rfl rfl rfl rfl none _ _ x W b p q

/-! ## The gathered rows -/

/-- The kernel side's gather of node rows is the reference's: the same operator at the same index column, the two
    programs' dimension records having the same fields. -/
theorem gather_eq (y : (⟨Cert.KernelIdeal.S50000x128, .f32⟩ : BufTy).Contents (Elt Ideal))
    (s : (⟨Cert.KernelIdeal.S800000, .i32⟩ : BufTy).Contents (Elt Ideal)) :
    Cert.KernelHost.gatherRows (F := Ideal) y s
      = Cert.RefRun.gath (F := Ideal) y (Cert.RefRun.asCol (Cert.RefRun.normIdx s)) := by
  unfold Cert.KernelHost.gatherRows Cert.KernelHost.wrapIdx Cert.RefRun.gath Cert.RefRun.asCol Cert.RefRun.normIdx
  rfl

/-! ## The gate, the scaling, the logits -/

/-- The logistic function is the reference's 1 / (1 + exp (−z)): the float word of one is the number one. -/
theorem gate_eq (zz : Cert.Spec.Edges.Idx → EReal) :
    (fun i => Ideal.logistic (zz i)) = Cert.RefRun.gateOf (F := Ideal) zz := by
  funext i
  unfold Cert.RefRun.gateOf
  show Ideal.logistic (zz i) = Ideal.div (Cert.RefRun.fillE (F := Ideal) 0x3F800000#32 i)
    (Cert.RefRun.fillE (F := Ideal) 0x3F800000#32 i + Ideal.exp (-(zz i)))
  rw [fillE_apply, Cert.LibReal.ofBits_one]
  rfl

/-- The row-wise scaling of edge rows by a column of factors is the product with the column spread along the rows. -/
theorem scaleE_eq (zz : Cert.Spec.Edges.Idx → EReal) (s : Cert.Spec.EdgeCol.Idx → EReal) :
    Cert.Spec.scaleE zz s
      = mulf (F := Ideal) (φ := .f32) zz (broadcastInDim Cert.ReferenceIdeal.S800000x128 ![0, 1]
          Cert.ReferenceIdeal.Gen.bcast_S800000x1_S800000x128_0_1 s) := by
  funext i
  obtain ⟨p, q, rfl⟩ : ∃ (p : Fin 800000) (q : Fin 128), i = ix2 p q := ⟨i 0, i 1, eq_ix2 i⟩
  rw [mulf_apply, Cert.LibLayout.broadcastInDim_col_apply]
  rfl

/-- The gate logits are the two sums of arrays. -/
theorem logits_eq (ce ds ed : Cert.Spec.Edges.Idx → EReal) :
    Cert.Spec.logits ce ds ed = addf (F := Ideal) (φ := .f32) (addf (F := Ideal) (φ := .f32) ce ds) ed := rfl

end Cert.Bridge

end
-- ==== Proof.LibScatter.lean ====
import Idealize.ShloMosaic.PureOps.Ideal
import Idealize.ShloMosaic.PureOps.Ideal.Laws
import Idealize.ShloMosaic.Lib.ValueIdx
import Idealize.ShloMosaic.PureOps.Reduce
/-!
# The accumulating row scatter read at an index

The host's accumulating scatter of update rows into operand rows: operand `[N, C]`, scatter indices `[E, 1]`,
updates `[E, C]`, with the update's column axis as its one window axis, the operand's row axis inserted and addressed
by the one component of the index vector. Update row `r` lands in the operand row whose number is the scatter index
`(r, 0)` read as a signed integer, column kept; it is dropped when that row number is outside `[0, N)`.
-/
noncomputable section
open scoped BigOperators
open Idealize.ShloMosaic Idealize.ShloMosaic.ValueIdx

namespace Cert.LibScatter

/-- The dimension numbers of the row scatter; their conditions `wf` are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(r, q)` starts at the scatter index `(r, 0)` read signed. -/
theorem start0 (r : Fin E) (q : Fin C) (idx : IVec ⟨2, ![E, 1]⟩ w) :
    (rowScatter N E C wf).start (ix2 r q) idx 0 = (idx (ix2 r (0 : Fin 1))).toInt := by
  unfold ScatterDims.start
  rw [dif_pos (show (0 : Fin 2) ∈ (rowScatter N E C wf).scatterDimsToOperandDims from List.mem_singleton.mpr rfl)]
  congr 2
  funext b
  apply Fin.ext
  match b with
  | ⟨0, _⟩ => rfl
  | ⟨1, _⟩ => rfl

/-- On the column axis the window starts at `0`. -/
theorem start1 (r : Fin E) (q : Fin C) (idx : IVec ⟨2, ![E, 1]⟩ w) :
    (rowScatter N E C wf).start (ix2 r q) idx 1 = 0 := by
  unfold ScatterDims.start
  rw [dif_neg (fun h => Nat.one_ne_zero (congrArg Fin.val (List.mem_singleton.mp h)))]

/-- The operand's one kept axis is the column axis. -/
theorem sKept_eq : (rowScatter N E C wf).sKept = [1] := by
  show Shape.kept (⟨2, ![N, C]⟩ : Shape) [(0 : Fin 2)] = [(1 : Fin 2)]
  rw [Shape.kept_single]; rfl

/-- The window coordinate on the (inserted) row axis is `0`. -/
theorem window0 (r : Fin E) (q : Fin C) : (rowScatter N E C wf).window (ix2 r q) 0 = 0 := by
  unfold ScatterDims.window
  rw [dif_neg (by rw [sKept_eq]; exact fun h => Nat.one_ne_zero (congrArg Fin.val (List.mem_singleton.mp h)).symm)]

/-- The window coordinate on the column axis is the update's column. -/
theorem window1 (r : Fin E) (q : Fin C) : (rowScatter N E C wf).window (ix2 r q) 1 = q.val := by
  unfold ScatterDims.window
  rw [dif_pos (by rw [sKept_eq]; exact List.mem_singleton.mpr rfl)]
  rfl

/-- Where an update lands: row = the scatter index of its row read signed, column = its own column; it is dropped when
    that row is out of range. -/
theorem resultIdx_eq_some_iff (r : Fin E) (q : Fin C) (idx : IVec ⟨2, ![E, 1]⟩ w) (n : Fin N) (c : Fin C) :
    (rowScatter N E C wf).resultIdx? (ix2 r q) idx = some (ix2 n c) ↔
      (idx (ix2 r (0 : Fin 1))).toInt = (n.val : Int) ∧ q = c := by
  have hs0 : (rowScatter N E C wf).start (ix2 r q) idx 0 + ((rowScatter N E C wf).window (ix2 r q) 0 : Nat)
      = (idx (ix2 r (0 : Fin 1))).toInt := by rw [start0, window0]; simp
  have hs1 : (rowScatter N E C wf).start (ix2 r q) idx 1 + ((rowScatter N E C wf).window (ix2 r q) 1 : Nat)
      = (q.val : Int) := by rw [start1, window1]; simp
  have hN : (⟨2, ![N, C]⟩ : Shape).size 0 = N := rfl
  have hC : (⟨2, ![N, C]⟩ : Shape).size 1 = C := rfl
  unfold ScatterDims.resultIdx?
  constructor
  · intro h
    split at h
    · next hb =>
      have h' := Option.some.inj h
      have e0 : ((rowScatter N E C wf).start (ix2 r q) idx 0 + ((rowScatter N E C wf).window (ix2 r q) 0 : Nat)).toNat = n.val :=
        congrArg Fin.val (congrFun h' 0)
      have e1 : ((rowScatter N E C wf).start (ix2 r q) idx 1 + ((rowScatter N E C wf).window (ix2 r q) 1 : Nat)).toNat = c.val :=
        congrArg Fin.val (congrFun h' 1)
      have b0 := (hb 0).1
      rw [hs0] at e0 b0
      rw [hs1] at e1
      refine ⟨by omega, Fin.ext (by omega)⟩
    · exact absurd h (by simp)
  · rintro ⟨h1, rfl⟩
    have hcond : ∀ a : Fin 2, 0 ≤ (rowScatter N E C wf).start (ix2 r q) idx a + ((rowScatter N E C wf).window (ix2 r q) a : Nat) ∧
        (rowScatter N E C wf).start (ix2 r q) idx a + ((rowScatter N E C wf).window (ix2 r q) a : Nat) < ((⟨2, ![N, C]⟩ : Shape).size a : Nat) := by
      intro a
      match a with
      | ⟨0, _⟩ =>
        show 0 ≤ (rowScatter N E C wf).start (ix2 r q) idx 0 + ((rowScatter N E C wf).window (ix2 r q) 0 : Nat) ∧
          (rowScatter N E C wf).start (ix2 r q) idx 0 + ((rowScatter N E C wf).window (ix2 r q) 0 : Nat) < (N : Int)
        rw [hs0, h1]; have := n.isLt; omega
      | ⟨1, _⟩ =>
        show 0 ≤ (rowScatter N E C wf).start (ix2 r q) idx 1 + ((rowScatter N E C wf).window (ix2 r q) 1 : Nat) ∧
          (rowScatter N E C wf).start (ix2 r q) idx 1 + ((rowScatter N E C wf).window (ix2 r q) 1 : Nat) < (C : Int)
        rw [hs1]; have := q.isLt; omega
    rw [dif_pos hcond]
    congr 1
    funext a
    apply Fin.ext
    match a with
    | ⟨0, _⟩ =>
      show ((rowScatter N E C wf).start (ix2 r q) idx 0 + ((rowScatter N E C wf).window (ix2 r q) 0 : Nat)).toNat = n.val
      rw [hs0, h1]; simp
    | ⟨1, _⟩ =>
      show ((rowScatter N E C wf).start (ix2 r q) idx 1 + ((rowScatter N E C wf).window (ix2 r q) 1 : Nat)).toNat = q.val
      rw [hs1]; simp

/-- THE ROW SCATTER READ AT `(n, c)`: the operand there plus the sum, over the update rows whose scatter index read
    signed is `n`, of the update at column `c`. -/
theorem scatter_row_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ r : Fin E, if (idx (ix2 r (0 : Fin 1))).toInt = (n.val : Int) then upd (ix2 r c) else 0 := by
  unfold Ideal.hostScatterAdd
  congr 1
  rw [Finset.sum_filter, sum_idx2]
  refine Finset.sum_congr rfl fun r _ => ?_
  simp only [resultIdx_eq_some_iff]
  by_cases hA : (idx (ix2 r (0 : Fin 1))).toInt = (n.val : Int)
  · simp only [hA, true_and, if_true]
    rw [Finset.sum_ite_eq' Finset.univ c (fun q => upd (ix2 r q))]
    simp
  · simp [hA]

/-- Two row scatters by the same indices agree at `(n, c)` and `(n, c')` when their operands agree there and their
    updates agree on those two columns, whatever the two widths. -/
theorem scatter_row_col_congr {C' : Nat}
    (wf' : ScatterDims.WF ⟨2, ![N, C']⟩ ⟨2, ![E, 1]⟩ ⟨2, ![E, C']⟩ [1] [0] [0] 1)
    (x : (⟨2, ![N, C]⟩ : Shape).Idx → EReal) (x' : (⟨2, ![N, C']⟩ : Shape).Idx → EReal) (idx : IVec ⟨2, ![E, 1]⟩ w)
    (upd : (⟨2, ![E, C]⟩ : Shape).Idx → EReal) (upd' : (⟨2, ![E, C']⟩ : Shape).Idx → EReal)
    (n : Fin N) (c : Fin C) (c' : Fin C')
    (hx : x (ix2 n c) = x' (ix2 n c')) (hu : ∀ r : Fin E, upd (ix2 r c) = upd' (ix2 r c')) :
    Ideal.hostScatterAdd (rowScatter N E C wf) x idx upd (ix2 n c)
      = Ideal.hostScatterAdd (rowScatter N E C' wf') x' idx upd' (ix2 n c') := by
  rw [scatter_row_apply, scatter_row_apply, hx]
  congr 1
  refine Finset.sum_congr rfl fun r _ => ?_
  rw [hu r]

end Cert.LibScatter

namespace Cert.LibScatter

variable {N E w : Nat}

/-- A 256-wide row scatter from a zero operand whose updates are two 128-wide halves side by side, read in the LOW
    half (column `c < 128`), is the 128-wide row scatter of the low half from a zero operand at `(n, c)`. -/
theorem scatter_pair_lo
    (wf256 : ScatterDims.WF ⟨2, ![N, 256]⟩ ⟨2, ![E, 1]⟩ ⟨2, ![E, 256]⟩ [1] [0] [0] 1)
    (wf128 : ScatterDims.WF ⟨2, ![N, 128]⟩ ⟨2, ![E, 1]⟩ ⟨2, ![E, 128]⟩ [1] [0] [0] 1)
    (idx : IVec ⟨2, ![E, 1]⟩ w)
    (pair : (⟨2, ![E, 256]⟩ : Shape).Idx → EReal) (lo : (⟨2, ![E, 128]⟩ : Shape).Idx → EReal)
    (hlo : ∀ (r : Fin E) (q : Fin 128), pair (ix2 r (⟨q.val, by omega⟩ : Fin 256)) = lo (ix2 r q))
    (n : Fin N) (c : Fin 128) :
    Ideal.hostScatterAdd (rowScatter N E 256 wf256) (fun _ => Ideal.ofBits .f32 0x00000000#32) idx pair
        (ix2 n (⟨c.val, by omega⟩ : Fin 256))
      = Ideal.hostScatterAdd (rowScatter N E 128 wf128) (fun _ => Ideal.ofBits .f32 0x00000000#32) idx lo (ix2 n c) :=
  scatter_row_col_congr wf256 wf128 _ _ idx pair lo n _ c rfl (fun r => hlo r c)

/-- The same read in the HIGH half (column `c + 128`): the 128-wide row scatter of the high half at `(n, c)`. -/
theorem scatter_pair_hi
    (wf256 : ScatterDims.WF ⟨2, ![N, 256]⟩ ⟨2, ![E, 1]⟩ ⟨2, ![E, 256]⟩ [1] [0] [0] 1)
    (wf128 : ScatterDims.WF ⟨2, ![N, 128]⟩ ⟨2, ![E, 1]⟩ ⟨2, ![E, 128]⟩ [1] [0] [0] 1)
    (idx : IVec ⟨2, ![E, 1]⟩ w)
    (pair : (⟨2, ![E, 256]⟩ : Shape).Idx → EReal) (hi : (⟨2, ![E, 128]⟩ : Shape).Idx → EReal)
    (hhi : ∀ (r : Fin E) (q : Fin 128), pair (ix2 r (⟨q.val + 128, by omega⟩ : Fin 256)) = hi (ix2 r q))
    (n : Fin N) (c : Fin 128) :
    Ideal.hostScatterAdd (rowScatter N E 256 wf256) (fun _ => Ideal.ofBits .f32 0x00000000#32) idx pair
        (ix2 n (⟨c.val + 128, by omega⟩ : Fin 256))
      = Ideal.hostScatterAdd (rowScatter N E 128 wf128) (fun _ => Ideal.ofBits .f32 0x00000000#32) idx hi (ix2 n c) :=
  scatter_row_col_congr wf256 wf128 _ _ idx pair hi n _ c rfl (fun r => hhi r c)

end Cert.LibScatter
end
-- ==== Proof.BridgeNode.lean ====
/-
  The node side of the layer, two spellings of one function. The aggregation: the 256-column array that holds the
  gated message beside the gate, summed into the node row each edge points at and then cut into its two halves, is the
  sum of the gated messages and the sum of the gates, each taken on its own 128 columns. The logistic function is
  1 / (1 + exp (−z)). And the mix before normalisation: own projection plus numerator over (denominator + ε), scaled
  row by row.
-/
import proofs.«133196_j81149112091152_2_alg».proof.Proof.KernelHost
import proofs.«133196_j81149112091152_2_alg».proof.Proof.Spec
import proofs.«133196_j81149112091152_2_alg».proof.Proof.RefRunStages
import proofs.«133196_j81149112091152_2_alg».proof.Proof.LibScatter
import proofs.«133196_j81149112091152_2_alg».proof.Proof.LibLayout
import proofs.«133196_j81149112091152_2_alg».proof.Proof.LibReal
import Idealize.ShloMosaic.Lib.ValueIdx
import Idealize.ShloMosaic.Lib.IdealHost

noncomputable section

open scoped BigOperators
open Idealize.ShloMosaic Idealize.ShloMosaic.ValueIdx

namespace Cert.Bridge

/-- A float word spread over the node rows reads the word's value everywhere. -/
theorem fillN_at (w : BitVec 32) (i : Cert.ReferenceIdeal.S50000x128.Idx) :
    Cert.RefRun.fillN (F := Ideal) w i = Ideal.ofBits .f32 w := by
  unfold Cert.RefRun.fillN
  rw [broadcastInDim_scalar_apply]
  rfl

/-- A float word spread over the edge rows reads the word's value everywhere. -/
theorem fillE_at (w : BitVec 32) (i : Cert.ReferenceIdeal.S800000x128.Idx) :
    Cert.RefRun.fillE (F := Ideal) w i = Ideal.ofBits .f32 w := by
  unfold Cert.RefRun.fillE
  rw [broadcastInDim_scalar_apply]
  rfl

/-- The gate as the reference spells it, entry by entry: the logistic function. -/
theorem gateOf_at (zz : Spec.Edges.Idx → EReal) (i : Spec.Edges.Idx) :
    Cert.RefRun.gateOf (F := Ideal) zz i = Ideal.logistic (zz i) := by
  unfold Cert.RefRun.gateOf
  show Ideal.div (Cert.RefRun.fillE (F := Ideal) 0x3F800000#32 i) (Cert.RefRun.fillE (F := Ideal) 0x3F800000#32 i + Ideal.exp (-(zz i))) = _
  rw [fillE_at, Cert.LibReal.ofBits_one]
  rfl

/-- The node rows before normalisation, in the reference's operations. -/
theorem premix_eq (a num den : FVec Ideal Cert.ReferenceIdeal.S50000x128 .f32) (s : FVec Ideal Cert.ReferenceIdeal.S50000x1 .f32) :
    Cert.Spec.premix a num den s
      = (mulf (addf a (Host.divf num (addf den (Cert.RefRun.fillN (F := Ideal) 0x358637BD#32))))
          (broadcastInDim Cert.ReferenceIdeal.S50000x128 ![0, 1] Cert.ReferenceIdeal.Gen.bcast_S50000x1_S50000x128_0_1 s)
          : FVec Ideal Cert.ReferenceIdeal.S50000x128 .f32) := by
  funext i
  obtain ⟨p, q, rfl⟩ : ∃ (p : Fin 50000) (q : Fin 128), i = ix2 p q := ⟨i 0, i 1, eq_ix2 i⟩
  show _ = (a (ix2 p q) + Ideal.div (num (ix2 p q)) (den (ix2 p q) + Cert.RefRun.fillN (F := Ideal) 0x358637BD#32 (ix2 p q)))
      * broadcastInDim Cert.ReferenceIdeal.S50000x128 ![0, 1] Cert.ReferenceIdeal.Gen.bcast_S50000x1_S50000x128_0_1 s (ix2 p q)
  rw [fillN_at, Cert.LibLayout.broadcastInDim_col_apply]
  rfl

/-! ## The aggregation -/

/-- In its left 128 columns the paired array holds the gated message as the reference spells it. -/
theorem paired_lo (zz bs : FVec Ideal Cert.ReferenceIdeal.S800000x128 .f32) (r : Fin 800000) (q : Fin 128) :
    Cert.Spec.paired zz bs (ix2 r (⟨q.val, by omega⟩ : Fin 256)) = (mulf (Cert.RefRun.gateOf (F := Ideal) zz) bs) (ix2 r q) := by
  show _ = Cert.RefRun.gateOf (F := Ideal) zz (ix2 r q) * bs (ix2 r q)
  rw [gateOf_at]
  unfold Cert.Spec.paired
  have hp : (ix2 r (⟨q.val, by omega⟩ : Fin 256) (1 : Fin 2)).val < 128 := q.isLt
  rw [dif_pos hp]

/-- In its right 128 columns it holds the gate. -/
theorem paired_hi (zz bs : FVec Ideal Cert.ReferenceIdeal.S800000x128 .f32) (r : Fin 800000) (q : Fin 128) :
    Cert.Spec.paired zz bs (ix2 r (⟨q.val + 128, by omega⟩ : Fin 256)) = Cert.RefRun.gateOf (F := Ideal) zz (ix2 r q) := by
  rw [gateOf_at]
  unfold Cert.Spec.paired
  have hn : ¬ (ix2 r (⟨q.val + 128, by omega⟩ : Fin 256) (1 : Fin 2)).val < 128 := by show ¬ q.val + 128 < 128; omega
  rw [dif_neg hn]
  refine congrArg (fun k : Fin 128 => Ideal.logistic (zz (ix2 r k))) (Fin.ext ?_)
  show q.val + 128 - 128 = q.val
  omega

/-- The host's accumulating scatter on the extended reals is the exact sum, whatever the dimension numbers. -/
theorem scatterAdd_ideal {s si u : Shape} {w : Nat} (d : ScatterDims s si u) (x : FVec Ideal s .f32) (idx : IVec si w) (upd : FVec Ideal u .f32) :
    Host.scatterAdd (F := Ideal) d x idx upd = Ideal.hostScatterAdd d x idx upd := rfl

open Cert.KernelIdeal Cert.KernelIdeal.Gen in
/-- The zero word spread over the 256-column node array is zero everywhere. -/
theorem zero256_eq : (broadcastInDim S50000x256 ![] bcast_S_S50000x256 (constant (F := Ideal) S_ .f32 0x00000000#32))
    = fun _ => Ideal.ofBits .f32 0x00000000#32 :=
  funext fun i => (broadcastInDim_scalar_apply _ _ i).trans rfl

/-- The zero word spread over the 128-column node array is zero everywhere. -/
theorem zero128_eq : Cert.RefRun.fillN (F := Ideal) 0x00000000#32 = fun _ => Ideal.ofBits .f32 0x00000000#32 :=
  funext fun i => fillN_at _ i

/-- The two printed scatters are row scatters: 256 columns wide and 128 columns wide. -/
theorem rec256 : Cert.KernelIdeal.scatter_S50000x256_S800000x1_S800000x256_1_0_0_1
    = Cert.LibScatter.rowScatter 50000 800000 256 Cert.KernelIdeal.scatter_S50000x256_S800000x1_S800000x256_1_0_0_1.wf := rfl
theorem rec128 : Cert.ReferenceIdeal.scatter_S50000x128_S800000x1_S800000x128_1_0_0_1
    = Cert.LibScatter.rowScatter 50000 800000 128 Cert.ReferenceIdeal.scatter_S50000x128_S800000x1_S800000x128_1_0_0_1.wf := rfl

/-- The 256-column aggregation: the row scatter from zero. -/
theorem aggregate_eq (u : FVec Ideal Cert.KernelIdeal.S800000x256 .f32) (dst : IVec Cert.KernelIdeal.S800000 32) :
    Cert.KernelHost.aggregate (F := Ideal) u dst
      = Ideal.hostScatterAdd (Cert.LibScatter.rowScatter 50000 800000 256 Cert.KernelIdeal.scatter_S50000x256_S800000x1_S800000x256_1_0_0_1.wf)
          (fun _ => Ideal.ofBits .f32 0x00000000#32) (Cert.RefRun.asCol (F := Ideal) dst) u := by
  unfold Cert.KernelHost.aggregate
  rw [scatterAdd_ideal, zero256_eq, ← rec256]
  rfl

/-- The reference's 128-column aggregation from zero: the row scatter from zero. -/
theorem scat_eq (idx : IVec Cert.ReferenceIdeal.S800000x1 32) (upd : FVec Ideal Cert.ReferenceIdeal.S800000x128 .f32) :
    Cert.RefRun.scat (F := Ideal) (Cert.RefRun.fillN 0x00000000#32) idx upd
      = Ideal.hostScatterAdd (Cert.LibScatter.rowScatter 50000 800000 128 Cert.ReferenceIdeal.scatter_S50000x128_S800000x1_S800000x128_1_0_0_1.wf)
          (fun _ => Ideal.ofBits .f32 0x00000000#32) idx upd := by
  unfold Cert.RefRun.scat
  rw [scatterAdd_ideal, zero128_eq, ← rec128]

/-- The left half of the aggregated pair is the aggregated gated message. -/
theorem num_eq (zz bs : FVec Ideal Cert.ReferenceIdeal.S800000x128 .f32) (dst : IVec Cert.ReferenceIdeal.S800000 32) :
    Cert.KernelHost.aggLo (F := Ideal) (Cert.KernelHost.aggregate (F := Ideal) (Cert.Spec.paired zz bs) dst)
      = Cert.RefRun.scat (F := Ideal) (Cert.RefRun.fillN 0x00000000#32) (Cert.RefRun.asCol dst)
          (mulf (Cert.RefRun.gateOf (F := Ideal) zz) bs) := by
  rw [aggregate_eq, scat_eq]
  funext i
  obtain ⟨n, c, rfl⟩ : ∃ (n : Fin 50000) (c : Fin 128), i = ix2 n c := ⟨i 0, i 1, eq_ix2 i⟩
  have hq : 0 + c.val < 256 := by have := c.isLt; omega
  unfold Cert.KernelHost.aggLo
  refine (Cert.LibLayout.slice_cols_apply 0 _ _ n c hq).trans ?_
  have e : (⟨0 + c.val, hq⟩ : Fin 256) = (⟨c.val, by omega⟩ : Fin 256) := Fin.ext (Nat.zero_add _)
  rw [e]
  exact Cert.LibScatter.scatter_pair_lo _ _ _ _ _ (paired_lo zz bs) n c

/-- The right half of the aggregated pair is the aggregated gate. -/
theorem den_eq (zz bs : FVec Ideal Cert.ReferenceIdeal.S800000x128 .f32) (dst : IVec Cert.ReferenceIdeal.S800000 32) :
    Cert.KernelHost.aggHi (F := Ideal) (Cert.KernelHost.aggregate (F := Ideal) (Cert.Spec.paired zz bs) dst)
      = Cert.RefRun.scat (F := Ideal) (Cert.RefRun.fillN 0x00000000#32) (Cert.RefRun.asCol dst)
          (Cert.RefRun.gateOf (F := Ideal) zz) := by
  rw [aggregate_eq, scat_eq]
  funext i
  obtain ⟨n, c, rfl⟩ : ∃ (n : Fin 50000) (c : Fin 128), i = ix2 n c := ⟨i 0, i 1, eq_ix2 i⟩
  have hq : 128 + c.val < 256 := by have := c.isLt; omega
  unfold Cert.KernelHost.aggHi
  refine (Cert.LibLayout.slice_cols_apply 128 _ _ n c hq).trans ?_
  have e : (⟨128 + c.val, hq⟩ : Fin 256) = (⟨c.val + 128, by omega⟩ : Fin 256) := Fin.ext (Nat.add_comm _ _)
  rw [e]
  exact Cert.LibScatter.scatter_pair_hi _ _ _ _ _ (paired_hi zz bs) n c

end Cert.Bridge

end
-- ==== Proof.LibSums.lean ====
/-
  General facts about finite sums: a sum over `a · b` consecutive indices regrouped as `a` consecutive parts of
  `b` terms each; the coercion from the reals to the extended reals taken through a finite sum; and the identity
  between the two ways of writing a population variance, `q / n − μ²` (clamped at zero) and the mean squared
  deviation from the mean.
-/
import Idealize.ShloMosaic.PureOps.Ideal
import Mathlib.Tactic.FieldSimp
import Mathlib.Tactic.Ring
import Mathlib.Algebra.BigOperators.Fin
import Mathlib.Logic.Equiv.Fin.Basic
import Mathlib.Data.EReal.Basic

noncomputable section

open scoped BigOperators

namespace Cert.LibSums

/-- The `r`-th index of the `p`-th part, among `a` parts of `b` indices each, is below `a · b`. -/
theorem part_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right b p.isLt

/-- The same bound against a number `n` known to be `a · b`. -/
theorem part_lt' {a b n : ℕ} (h : a * b = n) (p : Fin a) (r : Fin b) : p.val * b + r.val < n :=
  lt_of_lt_of_eq (part_lt p r) h

/-- Regrouping: the sum over `n = a · b` consecutive indices is the sum over the `a` parts of the sum over each
    part's `b` consecutive indices `p · b + r`. -/
theorem sum_parts {M : Type*} [AddCommMonoid M] {a b n : ℕ} (h : a * b = n) (f : Fin n → M) :
    ∑ p : Fin a, ∑ r : Fin b, f ⟨p.val * b + r.val, part_lt' h p r⟩ = ∑ i : Fin n, f i := by
  subst h
  rw [← Equiv.sum_comp finProdFinEquiv f, Fintype.sum_prod_type]
  refine Finset.sum_congr rfl fun p _ => Finset.sum_congr rfl fun r _ => congrArg f (Fin.ext ?_)
  show p.val * b + r.val = r.val + b * p.val
  rw [Nat.mul_comm, Nat.add_comm]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the squared deviations from the mean `μ = s / n` is `q − n μ²`, where `s` is the sum and `q` the
    sum of the squares. -/
theorem sum_sq_dev {n : ℕ} (hn : 0 < n) (y : Fin n → ℝ) :
    ∑ i, (y i - (∑ j, y j) / n) * (y i - (∑ j, y j) / n)
      = (∑ i, y i * y i) - n * (((∑ j, y j) / n) * ((∑ j, y j) / n)) := by
  have hn' : (n : ℝ) ≠ 0 := Nat.cast_ne_zero.mpr hn.ne'
  generalize hμ : (∑ j, y j) / (n : ℝ) = μ
  have hs : ∑ j, y j = n * μ := by rw [← hμ]; field_simp
  have e : ∀ i, (y i - μ) * (y i - μ) = y i * y i - 2 * μ * y i + μ * μ := fun i => by ring
  simp only [e, Finset.sum_add_distrib, Finset.sum_sub_distrib, ← Finset.mul_sum, Finset.sum_const,
    Finset.card_univ, Fintype.card_fin, nsmul_eq_mul, hs]
  ring

/-- The variance identity over the reals: with `s = Σ y`, `q = Σ y²` and `μ = s / n`, the clamped difference
    `max (q / n − μ · μ) 0` is the mean squared deviation `(Σ (y − μ)²) / n`. -/
theorem variance_real {n : ℕ} (hn : 0 < n) (y : Fin n → ℝ) :
    max ((∑ i, y i * y i) / n - ((∑ j, y j) / n) * ((∑ j, y j) / n)) 0
      = (∑ i, (y i - (∑ j, y j) / n) * (y i - (∑ j, y j) / n)) / n := by
  have hn' : (n : ℝ) ≠ 0 := Nat.cast_ne_zero.mpr hn.ne'
  have key := sum_sq_dev hn y
  have e : (∑ i, y i * y i) / n - ((∑ j, y j) / n) * ((∑ j, y j) / n)
      = (∑ i, (y i - (∑ j, y j) / n) * (y i - (∑ j, y j) / n)) / n := by
    rw [key]; field_simp
  rw [e]
  exact max_eq_left (div_nonneg (Finset.sum_nonneg fun i _ => mul_self_nonneg _) (Nat.cast_nonneg n))

/-- The same on the extended reals, every quantity the coercion of a real: the clamped difference of the
    coerced `q / n` and the coerced mean's square is the coerced mean squared deviation. -/
theorem variance_ereal {n : ℕ} (hn : 0 < n) (y : Fin n → ℝ) :
    max ((((∑ i, y i * y i) / n : ℝ) : EReal) - (((∑ j, y j) / n : ℝ) : EReal) * (((∑ j, y j) / n : ℝ) : EReal)) 0
      = (((∑ i, (y i - (∑ j, y j) / n) * (y i - (∑ j, y j) / n)) / n : ℝ) : EReal) := by
  rw [← EReal.coe_mul, ← EReal.coe_sub, ← EReal.coe_zero, ← EReal.coe_strictMono.monotone.map_max, variance_real hn y]

end Cert.LibSums

end
-- ==== Proof.BridgeStats.lean ====
import proofs.«133196_j81149112091152_2_alg».proof.Proof.Spec
import proofs.«133196_j81149112091152_2_alg».proof.Proof.KernelHost
import proofs.«133196_j81149112091152_2_alg».proof.Proof.RefRunStages
import proofs.«133196_j81149112091152_2_alg».proof.Proof.LibLayout
import proofs.«133196_j81149112091152_2_alg».proof.Proof.LibAffine
import proofs.«133196_j81149112091152_2_alg».proof.Proof.LibSums
import proofs.«133196_j81149112091152_2_alg».proof.Proof.LibReal
/-!
# The column statistics: the kernel's from partial sums, the reference's from whole columns

The kernel forms a column's mean from the per-block partial sums of the column and its variance as the mean of the
squares minus the squared mean, kept non-negative; the reference forms the mean from the whole column and the variance
as the mean squared deviation from the mean. On columns of real numbers the two agree.
-/
noncomputable section
open scoped BigOperators
open Idealize.ShloMosaic Idealize.ShloMosaic.ValueIdx

namespace Cert.Bridge

open Cert.LibReal

/-! ## On the extended reals, over a column of real numbers -/

/-- Zero plus the sum of a column of real numbers, over the count `n`: the real quotient. -/
theorem div_sum_coe {n : ℕ} (hn : 0 < n) (f : Fin n → ℝ) :
    Ideal.div (0 + ∑ i, (f i : EReal)) ((n : ℝ) : EReal) = (((∑ i, f i) / n : ℝ) : EReal) := by
  have hn' : (n : ℝ) ≠ 0 := Nat.cast_ne_zero.mpr hn.ne'
  rw [zero_add, ← Cert.LibSums.coe_sum, Ideal.div_coe hn', ← EReal.coe_mul, mul_one_div]

/-- The two ways of writing the variance of a column of real numbers agree: the mean of the squares minus the squared
    mean, kept non-negative, is the mean squared deviation from the mean (the divisor written `n − 0`). -/
theorem var_bridge {n : ℕ} (hn : 0 < n) (yr : Fin n → ℝ) :
    max (Ideal.div (0 + ∑ i, (yr i : EReal) * (yr i : EReal)) ((n : ℝ) : EReal)
          - Ideal.div (0 + ∑ i, (yr i : EReal)) ((n : ℝ) : EReal) * Ideal.div (0 + ∑ i, (yr i : EReal)) ((n : ℝ) : EReal)) 0
      = Ideal.div (0 + ∑ i, ((yr i : EReal) - Ideal.div (0 + ∑ j, (yr j : EReal)) ((n : ℝ) : EReal))
            * ((yr i : EReal) - Ideal.div (0 + ∑ j, (yr j : EReal)) ((n : ℝ) : EReal)))
          (((n : ℝ) : EReal) - ((0 : ℝ) : EReal)) := by
  simp only [← EReal.coe_mul, div_sum_coe hn, ← EReal.coe_sub, sub_zero]
  exact Cert.LibSums.variance_ereal hn yr

/-! ## The kernel's side read at an index -/

/-- The kernel's mean of a node column from its 10 partial sums. -/
theorem meanOfPartsN_apply (p : FVec Ideal ⟨3, ![10, 1, 128]⟩ .f32) (q : Fin 128) :
    Cert.KernelHost.meanOfPartsN (F := Ideal) p (ix2 (0 : Fin 1) q)
      = Ideal.div (Ideal.ofBits .f32 0x00000000#32 + ∑ k : Fin 10, p (ix3 k (0 : Fin 1) q)) (Ideal.ofBits .f32 0x47435000#32) := by
  unfold Cert.KernelHost.meanOfPartsN Host.divf
  rw [Ideal.hostDivf_def, Cert.LibLayout.reduceAdd_parts_scalar_apply, broadcastInDim_scalar_apply]
  rfl

/-- The kernel's mean of an edge column from its 200 partial sums. -/
theorem meanOfPartsE_apply (p : FVec Ideal ⟨3, ![200, 1, 128]⟩ .f32) (q : Fin 128) :
    Cert.KernelHost.meanOfPartsE (F := Ideal) p (ix2 (0 : Fin 1) q)
      = Ideal.div (Ideal.ofBits .f32 0x00000000#32 + ∑ k : Fin 200, p (ix3 k (0 : Fin 1) q)) (Ideal.ofBits .f32 0x49435000#32) := by
  unfold Cert.KernelHost.meanOfPartsE Host.divf
  rw [Ideal.hostDivf_def, Cert.LibLayout.reduceAdd_parts_scalar_apply, broadcastInDim_scalar_apply]
  rfl

/-- The 10 partial sums of a node column add up to the sum of the column. -/
theorem partSumsN_sum (y : Cert.Spec.Nodes.Idx → EReal) (q : Fin 128) :
    ∑ k : Fin 10, Cert.Spec.partSumsN y (ix3 k (0 : Fin 1) q) = ∑ i : Fin 50000, y (ix2 i q) :=
  Cert.LibSums.sum_parts (a := 10) (b := 5000) (n := 50000) rfl (fun i => y (ix2 i q))

/-- The 200 partial sums of an edge column add up to the sum of the column. -/
theorem partSumsE_sum (y : Cert.Spec.Edges.Idx → EReal) (q : Fin 128) :
    ∑ k : Fin 200, Cert.Spec.partSumsE y (ix3 k (0 : Fin 1) q) = ∑ i : Fin 800000, y (ix2 i q) :=
  Cert.LibSums.sum_parts (a := 200) (b := 4000) (n := 800000) rfl (fun i => y (ix2 i q))

/-! ## The reference's side read at an index -/

/-- The reference's mean of a node column. -/
theorem meanN_apply (y : Cert.Spec.Nodes.Idx → EReal) (q : Fin 128) :
    Cert.RefRun.meanN (F := Ideal) y (ix1 q)
      = Ideal.div (Ideal.ofBits .f32 0x00000000#32 + ∑ i : Fin 50000, y (ix2 i q)) (Ideal.ofBits .f32 0x47435000#32) := by
  unfold Cert.RefRun.meanN Cert.RefRun.fillF Host.divf
  rw [Ideal.hostDivf_def, Cert.LibLayout.reduceAdd_rows_scalar_apply, broadcastInDim_scalar_apply]
  rfl

/-- The reference's mean of an edge column. -/
theorem meanE_apply (y : Cert.Spec.Edges.Idx → EReal) (q : Fin 128) :
    Cert.RefRun.meanE (F := Ideal) y (ix1 q)
      = Ideal.div (Ideal.ofBits .f32 0x00000000#32 + ∑ i : Fin 800000, y (ix2 i q)) (Ideal.ofBits .f32 0x49435000#32) := by
  unfold Cert.RefRun.meanE Cert.RefRun.fillF Host.divf
  rw [Ideal.hostDivf_def, Cert.LibLayout.reduceAdd_rows_scalar_apply, broadcastInDim_scalar_apply]
  rfl

/-! ## The means agree -/

theorem meanN_eq (y : Cert.Spec.Nodes.Idx → EReal) (q : Fin 128) :
    Cert.KernelHost.meanOfPartsN (F := Ideal) (Cert.Spec.partSumsN y) (ix2 (0 : Fin 1) q) = Cert.RefRun.meanN (F := Ideal) y (ix1 q) := by
  rw [meanOfPartsN_apply, partSumsN_sum, meanN_apply]

theorem meanE_eq (y : Cert.Spec.Edges.Idx → EReal) (q : Fin 128) :
    Cert.KernelHost.meanOfPartsE (F := Ideal) (Cert.Spec.partSumsE y) (ix2 (0 : Fin 1) q) = Cert.RefRun.meanE (F := Ideal) y (ix1 q) := by
  rw [meanOfPartsE_apply, partSumsE_sum, meanE_apply]

/-! ## The variances agree -/

/-- The variance identity with the reference's guard: the divisor `n − 0` is positive, so the guarded quotient is taken.
    The words of zero (`Z`), of the count (`N`) and of the correction (`C`) are named, with what they denote. -/
theorem var_select_bridge {n : ℕ} (hn : 0 < n) (yr : Fin n → ℝ) (Z N C nan : EReal)
    (hZ : Z = 0) (hN : N = ((n : ℝ) : EReal)) (hC : C = ((0 : ℝ) : EReal)) :
    max (Ideal.div (Z + ∑ i, (yr i : EReal) * (yr i : EReal)) N
          - Ideal.div (Z + ∑ i, (yr i : EReal)) N * Ideal.div (Z + ∑ i, (yr i : EReal)) N) Z
      = Scalar.select (Ideal.cmp .ogt (N - C) Z)
          (Ideal.div (Z + ∑ i, ((yr i : EReal) - Ideal.div (Z + ∑ j, (yr j : EReal)) N)
              * ((yr i : EReal) - Ideal.div (Z + ∑ j, (yr j : EReal)) N)) (N - C)) nan := by
  subst hZ hN hC
  have hpos : (0 : EReal) < ((n : ℝ) : EReal) - ((0 : ℝ) : EReal) := by
    rw [← EReal.coe_sub, sub_zero]
    exact_mod_cast hn
  have hc : Ideal.cmp .ogt (((n : ℝ) : EReal) - ((0 : ℝ) : EReal)) 0 = 1#1 := by
    simp [Ideal.cmp, hpos, hn]
  rw [hc, select_one]
  exact var_bridge hn yr

/-- The kernel's variance from the two means. -/
theorem varOfMeans_apply (μ qm : FVec Ideal ⟨2, ![1, 128]⟩ .f32) (q : Fin 128) :
    Cert.KernelHost.varOfMeans (F := Ideal) μ qm (ix2 (0 : Fin 1) q)
      = max (qm (ix2 (0 : Fin 1) q) - μ (ix2 (0 : Fin 1) q) * μ (ix2 (0 : Fin 1) q)) (Ideal.ofBits .f32 0x00000000#32) := by
  unfold Cert.KernelHost.varOfMeans
  rw [maximumf_apply, subf_apply, mulf_apply, broadcastInDim_scalar_apply]
  rfl

/-- The reference's deviation of a node entry from its column mean. -/
theorem devN_apply (y : Cert.Spec.Nodes.Idx → EReal) (i : Fin 50000) (q : Fin 128) :
    Cert.RefRun.devN (F := Ideal) y (ix2 i q)
      = y (ix2 i q) - Ideal.div (Ideal.ofBits .f32 0x00000000#32 + ∑ j : Fin 50000, y (ix2 j q)) (Ideal.ofBits .f32 0x47435000#32) := by
  unfold Cert.RefRun.devN
  rw [subf_apply, broadcastInDim_oneRow_apply]
  unfold Host.divf
  rw [Ideal.hostDivf_def, Cert.LibAffine.broadcastInDim_toRow_apply, Cert.LibLayout.reduceAdd_rows_scalar_apply,
    broadcastInDim_scalar_apply]
  rfl

/-- The reference's deviation of an edge entry from its column mean. -/
theorem devE_apply (y : Cert.Spec.Edges.Idx → EReal) (i : Fin 800000) (q : Fin 128) :
    Cert.RefRun.devE (F := Ideal) y (ix2 i q)
      = y (ix2 i q) - Ideal.div (Ideal.ofBits .f32 0x00000000#32 + ∑ j : Fin 800000, y (ix2 j q)) (Ideal.ofBits .f32 0x49435000#32) := by
  unfold Cert.RefRun.devE
  rw [subf_apply, broadcastInDim_oneRow_apply]
  unfold Host.divf
  rw [Ideal.hostDivf_def, Cert.LibAffine.broadcastInDim_toRow_apply, Cert.LibLayout.reduceAdd_rows_scalar_apply,
    broadcastInDim_scalar_apply]
  rfl

/-- The reference's divisors: the count word minus the conversion of the integer zero. -/
theorem cntN_apply : Cert.RefRun.cntN (F := Ideal) ix0
    = Ideal.ofBits .f32 0x47435000#32 - ((((0#32 : BitVec 32).toInt : ℤ) : ℝ) : EReal) := rfl
theorem cntE_apply : Cert.RefRun.cntE (F := Ideal) ix0
    = Ideal.ofBits .f32 0x49435000#32 - ((((0#32 : BitVec 32).toInt : ℤ) : ℝ) : EReal) := rfl

/-- The conversion of the integer zero is the real number zero. -/
theorem sitofp_zero : ((((0#32 : BitVec 32).toInt : ℤ) : ℝ) : EReal) = ((0 : ℝ) : EReal) := by
  have h : (0#32 : BitVec 32).toInt = 0 := by decide
  rw [h, Int.cast_zero]

/-- The reference's variance of a node column. -/
theorem varN_apply (y : Cert.Spec.Nodes.Idx → EReal) (q : Fin 128) :
    Cert.RefRun.varN (F := Ideal) y (ix1 q)
      = Scalar.select (Ideal.cmp .ogt (Cert.RefRun.cntN (F := Ideal) ix0) (Ideal.ofBits .f32 0x00000000#32))
          (Ideal.div (Ideal.ofBits .f32 0x00000000#32
              + ∑ i : Fin 50000, Cert.RefRun.devN (F := Ideal) y (ix2 i q) * Cert.RefRun.devN (F := Ideal) y (ix2 i q))
            (Cert.RefRun.cntN (F := Ideal) ix0))
          (Ideal.ofBits .f32 0x7FC00000#32) := by
  unfold Cert.RefRun.varN Cert.RefRun.fillF
  rw [select_apply, broadcastInDim_scalar_apply, broadcastInDim_scalar_apply]
  unfold Host.divf
  rw [Ideal.hostDivf_def, Cert.LibLayout.reduceAdd_rows_scalar_apply, broadcastInDim_scalar_apply]
  rfl

/-- The reference's variance of an edge column. -/
theorem varE_apply (y : Cert.Spec.Edges.Idx → EReal) (q : Fin 128) :
    Cert.RefRun.varE (F := Ideal) y (ix1 q)
      = Scalar.select (Ideal.cmp .ogt (Cert.RefRun.cntE (F := Ideal) ix0) (Ideal.ofBits .f32 0x00000000#32))
          (Ideal.div (Ideal.ofBits .f32 0x00000000#32
              + ∑ i : Fin 800000, Cert.RefRun.devE (F := Ideal) y (ix2 i q) * Cert.RefRun.devE (F := Ideal) y (ix2 i q))
            (Cert.RefRun.cntE (F := Ideal) ix0))
          (Ideal.ofBits .f32 0x7FC00000#32) := by
  unfold Cert.RefRun.varE Cert.RefRun.fillF
  rw [select_apply, broadcastInDim_scalar_apply, broadcastInDim_scalar_apply]
  unfold Host.divf
  rw [Ideal.hostDivf_def, Cert.LibLayout.reduceAdd_rows_scalar_apply, broadcastInDim_scalar_apply]
  rfl

/-- THE NODE VARIANCES AGREE on columns of real numbers. -/
theorem varN_eq (y : Cert.Spec.Nodes.Idx → EReal) (hy : ∀ i, IsReal (y i)) (q : Fin 128) :
    Cert.KernelHost.varOfMeans (F := Ideal) (Cert.KernelHost.meanOfPartsN (Cert.Spec.partSumsN y))
        (Cert.KernelHost.meanOfPartsN (Cert.Spec.partSumsN (Cert.Spec.sqN y))) (ix2 (0 : Fin 1) q)
      = Cert.RefRun.varN (F := Ideal) y (ix1 q) := by
  choose yr hyr using hy
  have hy' : ∀ i : Fin 50000, y (ix2 i q) = ((yr (ix2 i q) : ℝ) : EReal) := fun i => hyr _
  rw [varOfMeans_apply, meanOfPartsN_apply, meanOfPartsN_apply, partSumsN_sum, partSumsN_sum, varN_apply]
  simp only [devN_apply, cntN_apply, Cert.Spec.sqN, hy']
  exact var_select_bridge (n := 50000) (by norm_num) (fun i => yr (ix2 i q)) _ _ _ _ Ideal.ofBits_zero_f32
    (by rw [ofBits_50000]; simp) sitofp_zero

/-- THE EDGE VARIANCES AGREE on columns of real numbers. -/
theorem varE_eq (y : Cert.Spec.Edges.Idx → EReal) (hy : ∀ i, IsReal (y i)) (q : Fin 128) :
    Cert.KernelHost.varOfMeans (F := Ideal) (Cert.KernelHost.meanOfPartsE (Cert.Spec.partSumsE y))
        (Cert.KernelHost.meanOfPartsE (Cert.Spec.partSumsE (Cert.Spec.sqE y))) (ix2 (0 : Fin 1) q)
      = Cert.RefRun.varE (F := Ideal) y (ix1 q) := by
  choose yr hyr using hy
  have hy' : ∀ i : Fin 800000, y (ix2 i q) = ((yr (ix2 i q) : ℝ) : EReal) := fun i => hyr _
  rw [varOfMeans_apply, meanOfPartsE_apply, meanOfPartsE_apply, partSumsE_sum, partSumsE_sum, varE_apply]
  simp only [devE_apply, cntE_apply, Cert.Spec.sqE, hy']
  exact var_select_bridge (n := 800000) (by norm_num) (fun i => yr (ix2 i q)) _ _ _ _ Ideal.ofBits_zero_f32
    (by rw [ofBits_800000]; simp) sitofp_zero

end Cert.Bridge
end
-- ==== Proof.LayerReal.lean ====
/-
  Real-valuedness through the layer: when every float argument array holds only real numbers, so do the arrays the
  layer forms from them. Affine maps are finite sums of products plus a bias; a gather's entries are entries of its
  operand; the gate is the logistic function of a real number, real and positive; the two halves of the aggregate are
  column ranges of it; the pre-mix divides by a non-negative real plus a positive constant. Here the pieces over
  arbitrary arrays, and the edge half of the layer: the scaled gate logits are real-valued.
-/
import proofs.«133196_j81149112091152_2_alg».proof.Proof.KernelDefs
import proofs.«133196_j81149112091152_2_alg».proof.Proof.LibReal
import Idealize.ShloMosaic.Lib.Pipeline.Value
import Idealize.ShloMosaic.Lib.ValueIdx

noncomputable section

open scoped BigOperators

namespace Cert.LayerReal

open Cert.KernelIdeal Cert.KernelIdeal.Gen Cert.KernelHost Cert.LibReal
open Idealize.ShloMosaic Idealize.ShloMosaic.TcCoe Idealize.ShloMosaic.ValueIdx Idealize.SL.Sem

/-! ## The pieces, over arbitrary arrays -/

/-- An affine map of real node rows by real weights and a real bias is real. -/
theorem affineN_real {x : Spec.Nodes.Idx → EReal} {W : Spec.Weights.Idx → EReal} {b : Spec.Feat.Idx → EReal}
    (hx : ∀ i, IsReal (x i)) (hW : ∀ i, IsReal (W i)) (hb : ∀ i, IsReal (b i)) (i : Spec.Nodes.Idx) :
    IsReal (Spec.affineN x W b i) := by
  unfold Spec.affineN
  exact (IsReal.sum _ _ fun k _ => (hx _).mul (hW _)).add (hb _)

/-- The same for edge rows. -/
theorem affineE_real {x : Spec.Edges.Idx → EReal} {W : Spec.Weights.Idx → EReal} {b : Spec.Feat.Idx → EReal}
    (hx : ∀ i, IsReal (x i)) (hW : ∀ i, IsReal (W i)) (hb : ∀ i, IsReal (b i)) (i : Spec.Edges.Idx) :
    IsReal (Spec.affineE x W b i) := by
  unfold Spec.affineE
  exact (IsReal.sum _ _ fun k _ => (hx _).mul (hW _)).add (hb _)

/-- Every entry of a gather of rows is an entry of the gathered array. -/
theorem gatherRows_real {x : Spec.Nodes.Idx → EReal} (s : (⟨S800000, .i32⟩ : BufTy).Contents (Elt Ideal))
    (hx : ∀ i, IsReal (x i)) (j : Spec.Edges.Idx) : IsReal (gatherRows (F := Ideal) x s j) :=
  hx _

/-- The gate logits of real projections are real. -/
theorem logits_real {ce ds ed : Spec.Edges.Idx → EReal} (h1 : ∀ i, IsReal (ce i)) (h2 : ∀ i, IsReal (ds i))
    (h3 : ∀ i, IsReal (ed i)) (i : Spec.Edges.Idx) : IsReal (Spec.logits ce ds ed i) := by
  unfold Spec.logits
  exact ((h1 i).add (h2 i)).add (h3 i)

/-- A row-wise scaling of real edge rows by real factors is real. -/
theorem scaleE_real {y : Spec.Edges.Idx → EReal} {s : Spec.EdgeCol.Idx → EReal} (hy : ∀ i, IsReal (y i))
    (hs : ∀ i, IsReal (s i)) (i : Spec.Edges.Idx) : IsReal (Spec.scaleE y s i) := by
  unfold Spec.scaleE
  exact (hy i).mul (hs _)

/-- The gated message beside the gate is real when the logits and the messages are. -/
theorem paired_real {z bs : Spec.Edges.Idx → EReal} (hz : ∀ i, IsReal (z i)) (hb : ∀ i, IsReal (bs i))
    (i : Spec.EdgesPair.Idx) : IsReal (Spec.paired z bs i) := by
  unfold Spec.paired
  split_ifs with h
  · exact (IsReal.logistic (hz _)).mul (hb _)
  · exact IsReal.logistic (hz _)

/-- Its upper half, the gate itself, is positive. -/
theorem paired_hi_pos {z : Spec.Edges.Idx → EReal} (bs : Spec.Edges.Idx → EReal) (hz : ∀ i, IsReal (z i))
    (r : Fin 800000) (q : Fin 128) :
    0 < Spec.paired z bs (ix2 r (⟨q.val + 128, by omega⟩ : Fin 256)) := by
  unfold Spec.paired
  rw [dif_neg (show ¬ (q.val + 128 < 128) by omega)]
  exact logistic_pos (hz _)

/-- The lower half of the aggregate at `(n, q)` is the aggregate at column `q` … -/
theorem aggLo_apply (a : Spec.NodesPair.Idx → EReal) (n : Fin 50000) (q : Fin 128) :
    aggLo (F := Ideal) a (ix2 n q) = a (ix2 n (⟨q.val, by omega⟩ : Fin 256)) := by
  unfold aggLo
  exact extractStridedSlice_apply _ a _ (ix2 n q) (ix2 n (⟨q.val, by omega⟩ : Fin 256)) fun b => by
    match b with
    | ⟨0, _⟩ => show n.val = 0 + n.val; omega
    | ⟨1, _⟩ => show q.val = 0 + q.val; omega

/-- … and the upper half at `(n, q)` the aggregate at column `q + 128`. -/
theorem aggHi_apply (a : Spec.NodesPair.Idx → EReal) (n : Fin 50000) (q : Fin 128) :
    aggHi (F := Ideal) a (ix2 n q) = a (ix2 n (⟨q.val + 128, by omega⟩ : Fin 256)) := by
  unfold aggHi
  exact extractStridedSlice_apply _ a _ (ix2 n q) (ix2 n (⟨q.val + 128, by omega⟩ : Fin 256)) fun b => by
    match b with
    | ⟨0, _⟩ => show n.val = 0 + n.val; omega
    | ⟨1, _⟩ => show q.val + 128 = 128 + q.val; omega

/-- The small constant the gate normalisation adds is a positive real number. -/
theorem epsGate_real : IsReal Spec.epsGate := by
  obtain ⟨r, -, he⟩ := ofBits_epsGate
  exact ⟨r, he⟩

theorem epsGate_pos : (0 : EReal) < Spec.epsGate := by
  obtain ⟨r, hr, he⟩ := ofBits_epsGate
  show (0 : EReal) < Ideal.ofBits .f32 0x358637BD#32
  rw [he]
  exact_mod_cast hr

/-- The pre-mix of real arrays, the denominator non-negative, is real. -/
theorem premix_real {a num den : Spec.Nodes.Idx → EReal} {s : Spec.NodeCol.Idx → EReal} (ha : ∀ i, IsReal (a i))
    (hn : ∀ i, IsReal (num i)) (hd : ∀ i, IsReal (den i)) (hd0 : ∀ i, 0 ≤ den i) (hs : ∀ i, IsReal (s i))
    (i : Spec.Nodes.Idx) : IsReal (Spec.premix a num den s i) := by
  unfold Spec.premix
  exact ((ha i).add (IsReal.div (hn i) ((hd i).add epsGate_real) (add_pos_ne_zero (hd0 i) epsGate_pos))).mul (hs _)

/-! ## The edge half of the layer -/

section Layer

variable (m : (ℓ : Loc nD τ sig) → Buf (Elt Ideal) ℓ) (c : Dev nD)

/-- The gate logits are real when the arrays they read are. -/
theorem z_real
    (h0 : ∀ i : Spec.Nodes.Idx, IsReal ((m ((c : Thread nD τ).loc main_arg0) : Spec.Nodes.Idx → EReal) i))
    (h1 : ∀ i : Spec.Edges.Idx, IsReal ((m ((c : Thread nD τ).loc main_arg1) : Spec.Edges.Idx → EReal) i))
    (h10 : ∀ i : Spec.Weights.Idx, IsReal ((m ((c : Thread nD τ).loc main_arg10) : Spec.Weights.Idx → EReal) i))
    (h11 : ∀ i : Spec.Feat.Idx, IsReal ((m ((c : Thread nD τ).loc main_arg11) : Spec.Feat.Idx → EReal) i))
    (h12 : ∀ i : Spec.Weights.Idx, IsReal ((m ((c : Thread nD τ).loc main_arg12) : Spec.Weights.Idx → EReal) i))
    (h13 : ∀ i : Spec.Feat.Idx, IsReal ((m ((c : Thread nD τ).loc main_arg13) : Spec.Feat.Idx → EReal) i))
    (h14 : ∀ i : Spec.Weights.Idx, IsReal ((m ((c : Thread nD τ).loc main_arg14) : Spec.Weights.Idx → EReal) i))
    (h15 : ∀ i : Spec.Feat.Idx, IsReal ((m ((c : Thread nD τ).loc main_arg15) : Spec.Feat.Idx → EReal) i)) :
    ∀ i, IsReal (Cert.KernelValue.z m c i) := by
  intro i
  unfold Cert.KernelValue.z Cert.KernelValue.srcD Cert.KernelValue.dstE Cert.KernelValue.nodeD Cert.KernelValue.nodeE
  exact logits_real (affineE_real h1 h10 h11) (gatherRows_real _ (affineN_real h0 h12 h13))
    (gatherRows_real _ (affineN_real h0 h14 h15)) i

/-- THE EDGE MID ARRAY IS REAL-VALUED when the argument arrays it reads are. -/
theorem edgeMid_real
    (h0 : ∀ i : Spec.Nodes.Idx, IsReal ((m ((c : Thread nD τ).loc main_arg0) : Spec.Nodes.Idx → EReal) i))
    (h1 : ∀ i : Spec.Edges.Idx, IsReal ((m ((c : Thread nD τ).loc main_arg1) : Spec.Edges.Idx → EReal) i))
    (h5 : ∀ i : Spec.EdgeCol.Idx, IsReal ((m ((c : Thread nD τ).loc main_arg5) : Spec.EdgeCol.Idx → EReal) i))
    (h10 : ∀ i : Spec.Weights.Idx, IsReal ((m ((c : Thread nD τ).loc main_arg10) : Spec.Weights.Idx → EReal) i))
    (h11 : ∀ i : Spec.Feat.Idx, IsReal ((m ((c : Thread nD τ).loc main_arg11) : Spec.Feat.Idx → EReal) i))
    (h12 : ∀ i : Spec.Weights.Idx, IsReal ((m ((c : Thread nD τ).loc main_arg12) : Spec.Weights.Idx → EReal) i))
    (h13 : ∀ i : Spec.Feat.Idx, IsReal ((m ((c : Thread nD τ).loc main_arg13) : Spec.Feat.Idx → EReal) i))
    (h14 : ∀ i : Spec.Weights.Idx, IsReal ((m ((c : Thread nD τ).loc main_arg14) : Spec.Weights.Idx → EReal) i))
    (h15 : ∀ i : Spec.Feat.Idx, IsReal ((m ((c : Thread nD τ).loc main_arg15) : Spec.Feat.Idx → EReal) i)) :
    ∀ i, IsReal (Cert.KernelValue.edgeMid m c i) := by
  intro i
  unfold Cert.KernelValue.edgeMid
  exact scaleE_real (z_real m c h0 h1 h10 h11 h12 h13 h14 h15) h5 i

end Layer

end Cert.LayerReal

end
-- ==== Proof.LayerRealNode.lean ====
/-
  Real-valuedness through the layer, the node half: the node pre-mix is real-valued when the argument arrays it reads
  are. The aggregate at a node row is the zero word plus a finite sum of entries of the gated pair, all real, and in
  the upper half all positive; so the numerator and the denominator are real, the denominator non-negative, and the
  pre-mix divides by a non-zero real.
-/
import proofs.«133196_j81149112091152_2_alg».proof.Proof.LayerReal
import proofs.«133196_j81149112091152_2_alg».proof.Proof.LibScatter

noncomputable section

open scoped BigOperators

namespace Cert.LayerReal

open Cert.KernelIdeal Cert.KernelIdeal.Gen Cert.KernelHost Cert.LibReal
open Idealize.ShloMosaic Idealize.ShloMosaic.TcCoe Idealize.ShloMosaic.ValueIdx Idealize.SL.Sem

/-- The host's accumulating scatter on the extended reals, read at an index: by definition. Stated over arbitrary
    shapes, so that nothing of a literal size is ever unfolded to see it. -/
theorem hostScatterAdd_apply {s si su : Shape} {φ : FTy} {w : Nat} (d : ScatterDims s si su) (x : FVec Ideal s φ)
    (idx : IVec si w) (upd : FVec Ideal su φ) (i : s.Idx) :
    Host.scatterAdd d x idx upd i = Ideal.hostScatterAdd d x idx upd i := rfl

/-- The aggregation read at node row `n`, column `k`: zero plus the sum, over the edges pointing at `n`, of the edge
    rows' entries in column `k`. -/
theorem aggregate_apply (u : Spec.EdgesPair.Idx → EReal) (dst : (⟨S800000, .i32⟩ : BufTy).Contents (Elt Ideal))
    (n : Fin 50000) (k : Fin 256) :
    aggregate (F := Ideal) u dst (ix2 n k)
      = 0 + ∑ r : Fin 800000,
          if ((broadcastInDim S800000x1 ![0] bcast_S800000_S800000x1_0 dst : IVec S800000x1 32) (ix2 r (0 : Fin 1))).toInt = (n.val : Int)
          then u (ix2 r k) else 0 := by
  unfold aggregate
  rw [hostScatterAdd_apply]
  rw [show scatter_S50000x256_S800000x1_S800000x256_1_0_0_1
      = Cert.LibScatter.rowScatter 50000 800000 256 scatter_S50000x256_S800000x1_S800000x256_1_0_0_1_wf from rfl]
  rw [Cert.LibScatter.scatter_row_apply]
  have hx : (broadcastInDim S50000x256 ![] bcast_S_S50000x256 (constant (F := Ideal) S_ .f32 0x00000000#32) : S50000x256.Idx → EReal) (ix2 n k) = 0 :=
    Ideal.ofBits_zero_f32
  rw [hx]

/-- The aggregate of real edge rows is real … -/
theorem aggregate_real {u : Spec.EdgesPair.Idx → EReal} (dst : (⟨S800000, .i32⟩ : BufTy).Contents (Elt Ideal))
    (hu : ∀ i, IsReal (u i)) (n : Fin 50000) (k : Fin 256) : IsReal (aggregate (F := Ideal) u dst (ix2 n k)) := by
  rw [aggregate_apply]
  refine isReal_zero.add (IsReal.sum _ _ fun r _ => ?_)
  split_ifs
  · exact hu _
  · exact isReal_zero

/-- … and in a column where every edge row's entry is non-negative it is non-negative. -/
theorem aggregate_nonneg {u : Spec.EdgesPair.Idx → EReal} (dst : (⟨S800000, .i32⟩ : BufTy).Contents (Elt Ideal))
    (n : Fin 50000) (k : Fin 256) (hu : ∀ r : Fin 800000, 0 ≤ u (ix2 r k)) : 0 ≤ aggregate (F := Ideal) u dst (ix2 n k) := by
  rw [aggregate_apply, zero_add]
  refine Finset.sum_nonneg fun r _ => ?_
  split_ifs
  · exact hu r
  · exact le_refl 0

section Layer

variable (m : (ℓ : Loc nD τ sig) → Buf (Elt Ideal) ℓ) (c : Dev nD)

/-- THE NODE MID ARRAY IS REAL-VALUED when the argument arrays it reads are. -/
theorem nodeMid_real
    (h0 : ∀ i : Spec.Nodes.Idx, IsReal ((m ((c : Thread nD τ).loc main_arg0) : Spec.Nodes.Idx → EReal) i))
    (h1 : ∀ i : Spec.Edges.Idx, IsReal ((m ((c : Thread nD τ).loc main_arg1) : Spec.Edges.Idx → EReal) i))
    (h4 : ∀ i : Spec.NodeCol.Idx, IsReal ((m ((c : Thread nD τ).loc main_arg4) : Spec.NodeCol.Idx → EReal) i))
    (h6 : ∀ i : Spec.Weights.Idx, IsReal ((m ((c : Thread nD τ).loc main_arg6) : Spec.Weights.Idx → EReal) i))
    (h7 : ∀ i : Spec.Feat.Idx, IsReal ((m ((c : Thread nD τ).loc main_arg7) : Spec.Feat.Idx → EReal) i))
    (h8 : ∀ i : Spec.Weights.Idx, IsReal ((m ((c : Thread nD τ).loc main_arg8) : Spec.Weights.Idx → EReal) i))
    (h9 : ∀ i : Spec.Feat.Idx, IsReal ((m ((c : Thread nD τ).loc main_arg9) : Spec.Feat.Idx → EReal) i))
    (h10 : ∀ i : Spec.Weights.Idx, IsReal ((m ((c : Thread nD τ).loc main_arg10) : Spec.Weights.Idx → EReal) i))
    (h11 : ∀ i : Spec.Feat.Idx, IsReal ((m ((c : Thread nD τ).loc main_arg11) : Spec.Feat.Idx → EReal) i))
    (h12 : ∀ i : Spec.Weights.Idx, IsReal ((m ((c : Thread nD τ).loc main_arg12) : Spec.Weights.Idx → EReal) i))
    (h13 : ∀ i : Spec.Feat.Idx, IsReal ((m ((c : Thread nD τ).loc main_arg13) : Spec.Feat.Idx → EReal) i))
    (h14 : ∀ i : Spec.Weights.Idx, IsReal ((m ((c : Thread nD τ).loc main_arg14) : Spec.Weights.Idx → EReal) i))
    (h15 : ∀ i : Spec.Feat.Idx, IsReal ((m ((c : Thread nD τ).loc main_arg15) : Spec.Feat.Idx → EReal) i)) :
    ∀ i, IsReal (Cert.KernelValue.nodeMid m c i) := by
  have hz := z_real m c h0 h1 h10 h11 h12 h13 h14 h15
  have hB : ∀ i, IsReal (Cert.KernelValue.srcB m c i) := by
    intro i
    unfold Cert.KernelValue.srcB Cert.KernelValue.nodeB
    exact gatherRows_real _ (affineN_real h0 h8 h9) i
  have hp : ∀ i, IsReal (Spec.paired (Cert.KernelValue.z m c) (Cert.KernelValue.srcB m c) i) := paired_real hz hB
  have hnum : ∀ i, IsReal (Cert.KernelValue.num m c i) := by
    intro i
    obtain ⟨n, q, rfl⟩ : ∃ (n : Fin 50000) (q : Fin 128), i = ix2 n q := ⟨i 0, i 1, eq_ix2 i⟩
    unfold Cert.KernelValue.num Cert.KernelValue.agg
    rw [aggLo_apply]
    exact aggregate_real _ hp n _
  have hden : ∀ i, IsReal (Cert.KernelValue.den m c i) := by
    intro i
    obtain ⟨n, q, rfl⟩ : ∃ (n : Fin 50000) (q : Fin 128), i = ix2 n q := ⟨i 0, i 1, eq_ix2 i⟩
    unfold Cert.KernelValue.den Cert.KernelValue.agg
    rw [aggHi_apply]
    exact aggregate_real _ hp n _
  have hden0 : ∀ i, 0 ≤ Cert.KernelValue.den m c i := by
    intro i
    obtain ⟨n, q, rfl⟩ : ∃ (n : Fin 50000) (q : Fin 128), i = ix2 n q := ⟨i 0, i 1, eq_ix2 i⟩
    unfold Cert.KernelValue.den Cert.KernelValue.agg
    rw [aggHi_apply]
    exact aggregate_nonneg _ n _ fun r => le_of_lt (paired_hi_pos _ hz r q)
  intro i
  unfold Cert.KernelValue.nodeMid Cert.KernelValue.nodeA
  exact premix_real (affineN_real h0 h6 h7) hnum hden hden0 h4 i

end Layer

end Cert.LayerReal

end
-- ==== Proof.PreReal.lean ====
import proofs.«133196_j81149112091152_2_alg».proof.Defs
import proofs.«133196_j81149112091152_2_alg».proof.Proof.LibReal
import Idealize.ShloMosaic.Lib.ReduceAll
import Idealize.ShloMosaic.Lib.ValueIdx
/-!
# The float arguments are arrays of real numbers

The precondition says that, for every float argument array, every entry's absolute value is below `+∞` (the conjunction
of one such test per array is all ones). On the extended reals an absolute value below `+∞` means the entry is neither
`⊤` nor `⊥`: it is a real number.
-/
noncomputable section

namespace Cert.PreReal

open Idealize.ShloMosaic Idealize.ShloMosaic.ValueIdx Idealize.SL.Sem Cert.LibReal Cert.Pre_finite_inputs

/-- The scalar shape has one index. -/
instance : Subsingleton S_.Idx := ⟨fun _ _ => funext fun d => d.elim0⟩

/-- An extended real whose absolute value `max x (-x)` is below `⊤` is a real number. -/
theorem isReal_of_abs_lt_top {x : EReal} (h : max x (-x) < ⊤) : IsReal x := by
  induction x using EReal.rec with
  | bot => exact absurd h (by simp)
  | top => exact absurd h (by simp)
  | coe r => exact ⟨r, rfl⟩

/-- The float word of `+∞`. -/
theorem ofBits_inf : Ideal.ofBits .f32 0x7F800000#32 = (⊤ : EReal) := by
  simp [Ideal.ofBits, Ideal.ieee]

/-- The test "is below" on the extended reals, as a one-bit word, is one exactly when it holds. -/
theorem cmp_olt_eq_one {x y : EReal} (h : Ideal.cmp .olt x y = 1#1) : x < y := by
  by_contra hn
  have h0 : Ideal.cmp .olt x y = 0#1 := by simp [Ideal.cmp, hn]
  rw [h0] at h
  exact absurd h (by decide)

/-- One array's test: if "every entry's absolute value is below `+∞`" reduces to one, every entry is a real number. -/
theorem real_of_all {s : Shape} {axes : List (Fin s.rank)} (bc : S_.BroadcastsInDim s (![] : Fin 0 → Fin s.rank))
    (rt : s.ReducesTo axes S_) (hu : 0 < S_.numel) (x : FVec Ideal s .f32)
    (e : Host.reduce IntOp.andi (cmpf .olt (Host.absf x) (broadcastInDim s ![] bc (constant (F := Ideal) S_ .f32 0x7F800000#32)))
        (constantI S_ 1 1#1) rt hu ix0 = 1#1) (i : s.Idx) : IsReal (x i) := by
  have h := Host.reduce_andi_all _ _ rt hu ix0 e i
  have h' : Ideal.cmp .olt (max (x i) (-(x i))) (Ideal.ofBits .f32 0x7F800000#32) = 1#1 := h
  rw [ofBits_inf] at h'
  exact isReal_of_abs_lt_top (cmp_olt_eq_one h')

/-- Every float argument array is an array of real numbers (the two integer index arrays are not constrained). -/
structure RealArgs (a0 : FVec Ideal S50000x128 .f32) (a1 : FVec Ideal S800000x128 .f32) (a4 : FVec Ideal S50000x1 .f32) (a5 : FVec Ideal S800000x1 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128 .f32) (a17 : FVec Ideal S128 .f32) (a18 : FVec Ideal S128 .f32) (a19 : FVec Ideal S128 .f32) : Prop where
  r0 : ∀ i, IsReal (a0 i)
  r1 : ∀ i, IsReal (a1 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)
  r11 : ∀ i, IsReal (a11 i)
  r12 : ∀ i, IsReal (a12 i)
  r13 : ∀ i, IsReal (a13 i)
  r14 : ∀ i, IsReal (a14 i)
  r15 : ∀ i, IsReal (a15 i)
  r16 : ∀ i, IsReal (a16 i)
  r17 : ∀ i, IsReal (a17 i)
  r18 : ∀ i, IsReal (a18 i)
  r19 : ∀ i, IsReal (a19 i)

/-- The precondition's function is all ones only on float arrays of real numbers. -/
theorem fn_real [Cert.Pre_finite_inputs.Facts] (a0 : FVec Ideal S50000x128 .f32) (a1 : FVec Ideal S800000x128 .f32) (a2 : IVec S800000 32) (a3 : IVec S800000 32) (a4 : FVec Ideal S50000x1 .f32) (a5 : FVec Ideal S800000x1 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128 .f32) (a17 : FVec Ideal S128 .f32) (a18 : FVec Ideal S128 .f32) (a19 : FVec Ideal S128 .f32)
    (hfn : fn (F := Ideal) a0 a1 a2 a3 a4 a5 a6 a7 a8 a9 a10 a11 a12 a13 a14 a15 a16 a17 a18 a19 = fun _ => 1#1) : RealArgs a0 a1 a4 a5 a6 a7 a8 a9 a10 a11 a12 a13 a14 a15 a16 a17 a18 a19 := by
  have h : fn (F := Ideal) a0 a1 a2 a3 a4 a5 a6 a7 a8 a9 a10 a11 a12 a13 a14 a15 a16 a17 a18 a19 ix0 = 1#1 := congrFun hfn ix0
  obtain ⟨t18, e19⟩ := IntOp.andi_eq_one.1 h
  obtain ⟨t17, e18⟩ := IntOp.andi_eq_one.1 t18
  obtain ⟨t16, e17⟩ := IntOp.andi_eq_one.1 t17
  obtain ⟨t15, e16⟩ := IntOp.andi_eq_one.1 t16
  obtain ⟨t14, e15⟩ := IntOp.andi_eq_one.1 t15
  obtain ⟨t13, e14⟩ := IntOp.andi_eq_one.1 t14
  obtain ⟨t12, e13⟩ := IntOp.andi_eq_one.1 t13
  obtain ⟨t11, e12⟩ := IntOp.andi_eq_one.1 t12
  obtain ⟨t10, e11⟩ := IntOp.andi_eq_one.1 t11
  obtain ⟨t9, e10⟩ := IntOp.andi_eq_one.1 t10
  obtain ⟨t8, e9⟩ := IntOp.andi_eq_one.1 t9
  obtain ⟨t7, e8⟩ := IntOp.andi_eq_one.1 t8
  obtain ⟨t6, e7⟩ := IntOp.andi_eq_one.1 t7
  obtain ⟨t5, e6⟩ := IntOp.andi_eq_one.1 t6
  obtain ⟨t4, e5⟩ := IntOp.andi_eq_one.1 t5
  obtain ⟨t1, e4⟩ := IntOp.andi_eq_one.1 t4
  obtain ⟨e0, e1⟩ := IntOp.andi_eq_one.1 t1
  exact ⟨real_of_all _ _ _ _ e0, real_of_all _ _ _ _ e1, real_of_all _ _ _ _ e4, real_of_all _ _ _ _ e5, real_of_all _ _ _ _ e6, real_of_all _ _ _ _ e7, real_of_all _ _ _ _ e8, real_of_all _ _ _ _ e9, real_of_all _ _ _ _ e10, real_of_all _ _ _ _ e11, real_of_all _ _ _ _ e12, real_of_all _ _ _ _ e13, real_of_all _ _ _ _ e14, real_of_all _ _ _ _ e15, real_of_all _ _ _ _ e16, real_of_all _ _ _ _ e17, real_of_all _ _ _ _ e18, real_of_all _ _ _ _ e19⟩

/-- THE FLOAT ARGUMENTS IN MEMORY ARE REAL-VALUED, on every device, under the kernel's precondition. -/
theorem args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    RealArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)) :=
  fn_real _ _ _ _ _ _ _ _ _ _ _ _ _ _ _ _ _ _ _ _ (hpre c)

end Cert.PreReal
end
-- ==== Proof.Bridge.lean ====
/-
  The two programs compute one function: stage by stage the idealized kernel's composition (projections, gathers, gate
  logits, the aggregation's two halves, the pre-mix, the column statistics from per-block partial sums, the normalised
  rectified residual) is the reference's, at the same argument arrays. The one law that needs the arguments to be real
  numbers is the variance: the mean of squares minus the squared mean, kept non-negative, against the mean of the squared
  deviations.
-/
import proofs.«133196_j81149112091152_2_alg».proof.Proof.KernelDefs
import proofs.«133196_j81149112091152_2_alg».proof.Proof.RefRunStages
import proofs.«133196_j81149112091152_2_alg».proof.Proof.BridgeEdge
import proofs.«133196_j81149112091152_2_alg».proof.Proof.BridgeNode
import proofs.«133196_j81149112091152_2_alg».proof.Proof.BridgeStats
import proofs.«133196_j81149112091152_2_alg».proof.Proof.BridgeFinish
import proofs.«133196_j81149112091152_2_alg».proof.Proof.LayerReal
import proofs.«133196_j81149112091152_2_alg».proof.Proof.LayerRealNode
import proofs.«133196_j81149112091152_2_alg».proof.Proof.PreReal

-- the argument notations below mention the section's variables
set_option quotPrecheck false

noncomputable section

namespace Cert.Bridge

open Cert.KernelIdeal Cert.KernelIdeal.Gen Cert.KernelHost
open Idealize.ShloMosaic Idealize.ShloMosaic.TcCoe Idealize.ShloMosaic.ValueIdx Idealize.SL.Sem

variable (m : (ℓ : Loc nD τ sig) → Buf (Elt Ideal) ℓ) (c : Dev nD)

/-- The twenty argument arrays on core `c`. -/
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)
local notation "A15" => m ((c : Thread nD τ).loc main_arg15)
local notation "A16" => m ((c : Thread nD τ).loc main_arg16)
local notation "A17" => m ((c : Thread nD τ).loc main_arg17)
local notation "A18" => m ((c : Thread nD τ).loc main_arg18)
local notation "A19" => m ((c : Thread nD τ).loc main_arg19)

/-! ## The projections and the gathers -/

theorem nodeA_eq : Cert.KernelValue.nodeA m c = Cert.RefRun.affA (F := Ideal) A0 A6 A7 := (affN_eq _ _ _).symm
theorem nodeB_eq : Cert.KernelValue.nodeB m c = Cert.RefRun.affB (F := Ideal) A0 A8 A9 := (affN_eq _ _ _).symm
theorem nodeD_eq : Cert.KernelValue.nodeD m c = Cert.RefRun.affD (F := Ideal) A0 A12 A13 := (affN_eq _ _ _).symm
theorem nodeE_eq : Cert.KernelValue.nodeE m c = Cert.RefRun.affE (F := Ideal) A0 A14 A15 := (affN_eq _ _ _).symm

theorem srcD_eq : Cert.KernelValue.srcD m c = Cert.RefRun.gD (F := Ideal) A0 A2 A12 A13 := by
  unfold Cert.KernelValue.srcD Cert.RefRun.gD Cert.RefRun.idxS
  rw [gather_eq, nodeD_eq]
theorem dstE_eq : Cert.KernelValue.dstE m c = Cert.RefRun.gE (F := Ideal) A0 A3 A14 A15 := by
  unfold Cert.KernelValue.dstE Cert.RefRun.gE Cert.RefRun.idxD
  rw [gather_eq, nodeE_eq]
theorem srcB_eq : Cert.KernelValue.srcB m c = Cert.RefRun.gB (F := Ideal) A0 A2 A8 A9 := by
  unfold Cert.KernelValue.srcB Cert.RefRun.gB Cert.RefRun.idxS
  rw [gather_eq, nodeB_eq]

/-! ## The edge path -/

theorem z_eq : Cert.KernelValue.z m c = Cert.RefRun.z (F := Ideal) A0 A1 A2 A3 A10 A11 A12 A13 A14 A15 := by
  unfold Cert.KernelValue.z Cert.RefRun.z Cert.RefRun.affC
  rw [logits_eq, ← affEd_eq, srcD_eq, dstE_eq]
theorem edgeMid_eq : Cert.KernelValue.edgeMid m c = Cert.RefRun.eMid (F := Ideal) A0 A1 A2 A3 A5 A10 A11 A12 A13 A14 A15 := by
  unfold Cert.KernelValue.edgeMid Cert.RefRun.eMid
  rw [scaleE_eq, z_eq]

/-! ## The aggregation and the node pre-mix -/

theorem num_eq' : Cert.KernelValue.num m c = Cert.RefRun.num (F := Ideal) A0 A1 A2 A3 A8 A9 A10 A11 A12 A13 A14 A15 := by
  unfold Cert.KernelValue.num Cert.KernelValue.agg Cert.RefRun.num Cert.RefRun.msg Cert.RefRun.sg Cert.RefRun.dstCol
  rw [num_eq, z_eq, srcB_eq]
theorem den_eq' : Cert.KernelValue.den m c = Cert.RefRun.den (F := Ideal) A0 A1 A2 A3 A10 A11 A12 A13 A14 A15 := by
  unfold Cert.KernelValue.den Cert.KernelValue.agg Cert.RefRun.den Cert.RefRun.sg Cert.RefRun.dstCol
  rw [den_eq, z_eq]
theorem nodeMid_eq : Cert.KernelValue.nodeMid m c = Cert.RefRun.hMid (F := Ideal) A0 A1 A2 A3 A4 A6 A7 A8 A9 A10 A11 A12 A13 A14 A15 := by
  unfold Cert.KernelValue.nodeMid Cert.RefRun.hMid
  rw [premix_eq, nodeA_eq, num_eq', den_eq']

/-! ## The column statistics: the kernel's row at column `q` is the reference's entry `q` -/

theorem meanN_at (q : Fin 128) : Cert.KernelValue.meanN m c (ix2 (0 : Fin 1) q)
    = Cert.RefRun.meanH (F := Ideal) A0 A1 A2 A3 A4 A6 A7 A8 A9 A10 A11 A12 A13 A14 A15 (ix1 q) := by
  unfold Cert.KernelValue.meanN Cert.RefRun.meanH
  rw [meanN_eq, nodeMid_eq]
theorem meanE_at (q : Fin 128) : Cert.KernelValue.meanE m c (ix2 (0 : Fin 1) q)
    = Cert.RefRun.meanEd (F := Ideal) A0 A1 A2 A3 A5 A10 A11 A12 A13 A14 A15 (ix1 q) := by
  unfold Cert.KernelValue.meanE Cert.RefRun.meanEd
  rw [meanE_eq, edgeMid_eq]
/-- The variance needs every entry of the pre-mix to be a real number. -/
theorem varN_at (hr : ∀ i, Cert.LibReal.IsReal (Cert.KernelValue.nodeMid m c i)) (q : Fin 128) :
    Cert.KernelValue.varN m c (ix2 (0 : Fin 1) q)
    = Cert.RefRun.varH (F := Ideal) A0 A1 A2 A3 A4 A6 A7 A8 A9 A10 A11 A12 A13 A14 A15 (ix1 q) := by
  unfold Cert.KernelValue.varN Cert.KernelValue.meanN Cert.RefRun.varH
  rw [varN_eq _ hr, nodeMid_eq]
theorem varE_at (hr : ∀ i, Cert.LibReal.IsReal (Cert.KernelValue.edgeMid m c i)) (q : Fin 128) :
    Cert.KernelValue.varE m c (ix2 (0 : Fin 1) q)
    = Cert.RefRun.varEd (F := Ideal) A0 A1 A2 A3 A5 A10 A11 A12 A13 A14 A15 (ix1 q) := by
  unfold Cert.KernelValue.varE Cert.KernelValue.meanE Cert.RefRun.varEd
  rw [varE_eq _ hr, edgeMid_eq]

/-! ## The two results -/

theorem outN_eq (hr : ∀ i, Cert.LibReal.IsReal (Cert.KernelValue.nodeMid m c i)) :
    Cert.KernelValue.outN m c = Cert.RefRun.outH (F := Ideal) A0 A1 A2 A3 A4 A5 A6 A7 A8 A9 A10 A11 A12 A13 A14 A15 A16 A17 A18 A19 := by
  unfold Cert.KernelValue.outN Cert.RefRun.outH
  rw [finishN_eq _ _ _ _ _ _ _ _ (meanN_at m c) (varN_at m c hr), nodeMid_eq]
theorem outE_eq (hr : ∀ i, Cert.LibReal.IsReal (Cert.KernelValue.edgeMid m c i)) :
    Cert.KernelValue.outE m c = Cert.RefRun.outE (F := Ideal) A0 A1 A2 A3 A4 A5 A6 A7 A8 A9 A10 A11 A12 A13 A14 A15 A16 A17 A18 A19 := by
  unfold Cert.KernelValue.outE Cert.RefRun.outE
  rw [finishE_eq _ _ _ _ _ _ _ _ (meanE_at m c) (varE_at m c hr), edgeMid_eq]

/-! ## Under the precondition the two mid arrays hold real numbers only -/

theorem edgeMid_isReal (hF : Cert.Pre_finite_inputs.Facts) (hpre : Cert.Pre_KernelIdeal (hPre_finite_inputs := hF) m) :
    ∀ i, Cert.LibReal.IsReal (Cert.KernelValue.edgeMid m c i) :=
  have h := @Cert.PreReal.args_real hF m hpre c
  Cert.LayerReal.edgeMid_real m c h.r0 h.r1 h.r5 h.r10 h.r11 h.r12 h.r13 h.r14 h.r15
theorem nodeMid_isReal (hF : Cert.Pre_finite_inputs.Facts) (hpre : Cert.Pre_KernelIdeal (hPre_finite_inputs := hF) m) :
    ∀ i, Cert.LibReal.IsReal (Cert.KernelValue.nodeMid m c i) :=
  have h := @Cert.PreReal.args_real hF m hpre c
  Cert.LayerReal.nodeMid_real m c h.r0 h.r1 h.r4 h.r6 h.r7 h.r8 h.r9 h.r10 h.r11 h.r12 h.r13 h.r14 h.r15

end Cert.Bridge

end
-- ==== Proof.lean ====
/-
  One gated graph-convolution step — node and edge projections, gate logits gathered at the edges' ends, a
  degree-normalised gated aggregation, graph-size scaling, batch normalisation over rows, a rectifier and a residual —
  computed by five tiled kernels among host gathers, one scatter and small reductions, against the plain array program.

  The three frames: the two kernel programs run to the end with their arguments unchanged (the launch of five regions
  among three stretches of host operations), and so does the reference (its operations one after the other). The
  idealization rewrote nothing. On the extended reals the two programs end with equal results: region by region the
  kernel's arrays are whole-array functions of its arguments (affine maps of rows as sums over the 128 input features,
  the gated pair written half by half, column sums taken block by block), and stage by stage these are the reference's.
  Three laws join the two sides: a sum over rows taken in consecutive parts is the sum over all rows; the scatter of the
  256-column pair, cut in two, is the two 128-column scatters; and the variance as the mean of squares minus the squared
  mean, kept non-negative, is the mean of the squared deviations — the one place where the arguments must be real
  numbers, which the precondition gives (every gate lies strictly between 0 and 1, so each aggregated denominator plus
  its small constant is positive and every quotient is a real number).
-/
import proofs.«133196_j81149112091152_2_alg».proof.Defs
import proofs.«133196_j81149112091152_2_alg».proof.Proof.Gen.Kernel
import proofs.«133196_j81149112091152_2_alg».proof.Proof.Gen.Kernel.Skeleton
import proofs.«133196_j81149112091152_2_alg».proof.Proof.KernelLaunchP
import proofs.«133196_j81149112091152_2_alg».proof.Proof.Gen.Kernel.Points
import proofs.«133196_j81149112091152_2_alg».proof.Proof.KernelFrameP
import proofs.«133196_j81149112091152_2_alg».proof.Proof.Gen.KernelIdeal
import proofs.«133196_j81149112091152_2_alg».proof.Proof.Gen.KernelIdeal.Skeleton
import proofs.«133196_j81149112091152_2_alg».proof.Proof.KernelIdealLaunchP
import proofs.«133196_j81149112091152_2_alg».proof.Proof.Gen.KernelIdeal.Points
import proofs.«133196_j81149112091152_2_alg».proof.Proof.KernelIdealFrameP
import proofs.«133196_j81149112091152_2_alg».proof.Proof.Gen.ReferenceIdeal
import proofs.«133196_j81149112091152_2_alg».proof.Proof.Gen.Pre_finite_inputs
import proofs.«133196_j81149112091152_2_alg».proof.Proof.KernelRun
import proofs.«133196_j81149112091152_2_alg».proof.Proof.KernelValue
import proofs.«133196_j81149112091152_2_alg».proof.Proof.RefRun
import proofs.«133196_j81149112091152_2_alg».proof.Proof.Bridge
import Idealize.ShloMosaic.Adequacy
import Idealize.ShloMosaic.Init

noncomputable section

namespace Cert.Proof

open Idealize.ShloMosaic Idealize.SL.Sem

/-- The two kernel programs' frames: the launch of the five regions among the host operations. -/
theorem frame_kernel : Cert.frame_Kernel (hKernel := Cert.Kernel.Gen.facts) (hPre_finite_inputs := Cert.Pre_finite_inputs.Gen.facts) :=
  fun m ρ _ => Cert.Kernel.Gen.frame m ρ
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- On the extended reals the two programs, run from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelValue.outN m c, fun c => Cert.KernelValue.outE m c, ?_, ?_⟩
  · exact (θ_run Cert.KernelIdeal.defs _ _).mono
      (fun r h c => ⟨(h c).1.trans (Cert.KernelValue.W8_outN m ρ c), (h c).2.1.trans (Cert.KernelValue.W8_outE m ρ c), (h c).2.2⟩)
      (Cert.KernelRun.run_results m ρ)
  · refine (θ_run Cert.ReferenceIdeal.defs _ _).mono (fun r h c => ?_) (Cert.RefRun.run (F := Ideal) m' ρ')
    obtain ⟨e0, e1, e2, e3, e4, e5, e6, e7, e8, e9, e10, e11, e12, e13, e14, e15, e16, e17, e18, e19⟩ := hagree c
    refine ⟨(h c).1.trans ?_, (h c).2.1.trans ?_, (h c).2.2⟩
    · rw [e0, e1, e2, e3, e4, e5, e6, e7, e8, e9, e10, e11, e12, e13, e14, e15, e16, e17, e18, e19]
      exact (Cert.Bridge.outN_eq m c (Cert.Bridge.nodeMid_isReal m c Cert.Pre_finite_inputs.Gen.facts hpre)).symm
    · rw [e0, e1, e2, e3, e4, e5, e6, e7, e8, e9, e10, e11, e12, e13, e14, e15, e16, e17, e18, e19]
      exact (Cert.Bridge.outE_eq m c (Cert.Bridge.edgeMid_isReal m c Cert.Pre_finite_inputs.Gen.facts hpre)).symm

theorem claim : Cert.Claim := ⟨Cert.Kernel.Gen.facts, Cert.KernelIdeal.Gen.facts, Cert.ReferenceIdeal.Gen.facts, Cert.Pre_finite_inputs.Gen.facts,
  frame_kernel, frame_kernelIdeal, Cert.RefRun.frame_ref, trivial, algebraic⟩

end Cert.Proof

end
